-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v322) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S2000000 : Shape := ⟨1, ![2000000]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S500000 .f32) (main_arg1 : FVec F S2000000 .f32) (main_arg2 : IVec S2000000 32) (main_arg3 : IVec S2000000 32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_cst_2 : FVec F S_ .f32 := constant S_ .f32 0x00000000#32
  let main_v9 : FVec F S500000 .f32 := broadcastInDim S500000 ![] bcast_S_S500000 main_cst_2
  let main_v10 : IVec S500000 1 := cmpf .une main_arg0 main_v9
  let main_c_3 : IVec S_ 1 := constantI S_ 1 1#1
  let main_v11 : IVec S_ 1 := (fun x v => Host.reduce IntOp.andi x v reducesTo_S500000_S_d0 h_S_) main_v10 main_c_3
  let main_v12 : IVec S_ 1 := andi main_v8 main_v11
  main_v12
-- ==== Kernel.lean ====
abbrev S500000 : Shape := ⟨1, ![500000]⟩
abbrev S2000000 : Shape := ⟨1, ![2000000]⟩
abbrev S_ : Shape := ⟨0, ![]⟩
abbrev S2000000x1 : Shape := ⟨2, ![2000000, 1]⟩
abbrev S2031616 : Shape := ⟨1, ![2031616]⟩
abbrev S15872x128 : Shape := ⟨2, ![15872, 128]⟩
abbrev S42x15872x128 : Shape := ⟨3, ![42, 15872, 128]⟩
abbrev S256x128 : Shape := ⟨2, ![256, 128]⟩
abbrev S42x256x128 : Shape := ⟨3, ![42, 256, 128]⟩
abbrev S1x256x128 : Shape := ⟨3, ![1, 256, 128]⟩
abbrev S42x2031616 : Shape := ⟨2, ![42, 2031616]⟩
abbrev S2031616x42 : Shape := ⟨2, ![2031616, 42]⟩
abbrev S2000000x42 : Shape := ⟨2, ![2000000, 42]⟩

abbrev nBuf : Space → Nat
  | .hbm => 25
  | .vmem => 6
  | .smem => 0
  | _ => 0

abbrev bufTy : (tb : Table) → Fin (tcTables nBuf tb) → BufTy
  | .hbm, ⟨0, _⟩ => ⟨S500000, .f32⟩
  | .hbm, ⟨1, _⟩ => ⟨S2000000, .f32⟩
  | .hbm, ⟨2, _⟩ => ⟨S2000000, .i32⟩
  | .hbm, ⟨3, _⟩ => ⟨S2000000, .i32⟩
  | .hbm, ⟨4, _⟩ => ⟨S_, .i32⟩
  | .hbm, ⟨5, _⟩ => ⟨S2000000, .i32⟩
  | .hbm, ⟨6, _⟩ => ⟨S2000000, .i1⟩
  | .hbm, ⟨7, _⟩ => ⟨S_, .i32⟩
  | .hbm, ⟨8, _⟩ => ⟨S2000000, .i32⟩
  | .hbm, ⟨9, _⟩ => ⟨S2000000, .i32⟩
  | .hbm, ⟨10, _⟩ => ⟨S2000000, .i32⟩
  | .hbm, ⟨11, _⟩ => ⟨S2000000x1, .i32⟩
  | .hbm, ⟨12, _⟩ => ⟨S2000000, .f32⟩
  | .hbm, ⟨13, _⟩ => ⟨S_, .f32⟩
  | .hbm, ⟨14, _⟩ => ⟨S_, .f32⟩
  | .hbm, ⟨15, _⟩ => ⟨S2031616, .f32⟩
  | .hbm, ⟨16, _⟩ => ⟨S_, .f32⟩
  | .hbm, ⟨17, _⟩ => ⟨S_, .f32⟩
  | .hbm, ⟨18, _⟩ => ⟨S2031616, .f32⟩
  | .hbm, ⟨19, _⟩ => ⟨S15872x128, .f32⟩
  | .hbm, ⟨20, _⟩ => ⟨S15872x128, .f32⟩
  | .hbm, ⟨21, _⟩ => ⟨S42x15872x128, .f32⟩
  | .hbm, ⟨22, _⟩ => ⟨S42x2031616, .f32⟩
  | .hbm, ⟨23, _⟩ => ⟨S2031616x42, .f32⟩
  | .hbm, ⟨24, _⟩ => ⟨S2000000x42, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S42x256x128, .f32⟩
  | .local _ .vmem, ⟨5, _⟩ => ⟨S42x256x128, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_v7 : Ref sig .tc := ⟨.hbm, 15, rfl⟩
abbrev main_cst_1 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S42x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  pads_S2000000_S2031616_0316160 : S2000000.Pads (![0] : Fin 1 → Nat) ![31616] ![0] S2031616
  h_S_ : 0 < S_.numel
  shapeCasts_S2031616_S15872x128 : S2031616.ShapeCasts S15872x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S42x256x128_S1x256x128_0_0_0 : ∀ a, (![0, 0, 0] : Fin 3 → Nat) a + S1x256x128.size a ≤ S42x256x128.size a
  h_S1x256x128 : 0 < S1x256x128.numel
  shapeCasts_S1x256x128_S256x128 : S1x256x128.ShapeCasts S256x128
  shapeCasts_S256x128_S1x256x128 : S256x128.ShapeCasts S1x256x128
  inb_S42x256x128_S1x256x128_1_0_0 : ∀ a, (![1, 0, 0] : Fin 3 → Nat) a + S1x256x128.size a ≤ S42x256x128.size a
  inb_S42x256x128_S1x256x128_2_0_0 : ∀ a, (![2, 0, 0] : Fin 3 → Nat) a + S1x256x128.size a ≤ S42x256x128.size a
  inb_S42x256x128_S1x256x128_3_0_0 : ∀ a, (![3, 0, 0] : Fin 3 → Nat) a + S1x256x128.size a ≤ S42x256x128.size a
  inb_S42x256x128_S1x256x128_4_0_0 : ∀ a, (![4, 0, 0] : Fin 3 → Nat) a + S1x256x128.size a ≤ S42x256x128.size a
  inb_S42x256x128_S1x256x128_5_0_0 : ∀ a, (![5, 0, 0] : Fin 3 → Nat) a + S1x256x128.size a ≤ S42x256x128.size a
  inb_S42x256x128_S1x256x128_6_0_0 : ∀ a, (![6, 0, 0] : Fin 3 → Nat) a + S1x256x128.size a ≤ S42x256x128.size a
  inb_S42x256x128_S1x256x128_7_0_0 : ∀ a, (![7, 0, 0] : Fin 3 → Nat) a + S1x256x128.size a ≤ S42x256x128.size a
  inb_S42x256x128_S1x256x128_8_0_0 : ∀ a, (![8, 0, 0] : Fin 3 → Nat) a + S1x256x128.size a ≤ S42x256x128.size a
  inb_S42x256x128_S1x256x128_9_0_0 : ∀ a, (![9, 0, 0] : Fin 3 → Nat) a + S1x256x128.size a ≤ S42x256x128.size a
  inb_S42x256x128_S1x256x128_10_0_0 : ∀ a, (![10, 0, 0] : Fin 3 → Nat) a + S1x256x128.size a ≤ S42x256x128.size a
  inb_S42x256x128_S1x256x128_11_0_0 : ∀ a, (![11, 0, 0] : Fin 3 → Nat) a + S1x256x128.size a ≤ S42x256x128.size a
  inb_S42x256x128_S1x256x128_12_0_0 : ∀ a, (![12, 0, 0] : Fin 3 → Nat) a + S1x256x128.size a ≤ S42x256x128.size a
  inb_S42x256x128_S1x256x128_13_0_0 : ∀ a, (![13, 0, 0] : Fin 3 → Nat) a + S1x256x128.size a ≤ S42x256x128.size a
  inb_S42x256x128_S1x256x128_14_0_0 : ∀ a, (![14, 0, 0] : Fin 3 → Nat) a + S1x256x128.size a ≤ S42x256x128.size a
  inb_S42x256x128_S1x256x128_15_0_0 : ∀ a, (![15, 0, 0] : Fin 3 → Nat) a + S1x256x128.size a ≤ S42x256x128.size a
  inb_S42x256x128_S1x256x128_16_0_0 : ∀ a, (![16, 0, 0] : Fin 3 → Nat) a + S1x256x128.size a ≤ S42x256x128.size a
  inb_S42x256x128_S1x256x128_17_0_0 : ∀ a, (![17, 0, 0] : Fin 3 → Nat) a + S1x256x128.size a ≤ S42x256x128.size a
  inb_S42x256x128_S1x256x128_18_0_0 : ∀ a, (![18, 0, 0] : Fin 3 → Nat) a + S1x256x128.size a ≤ S42x256x128.size a
  inb_S42x256x128_S1x256x128_19_0_0 : ∀ a, (![19, 0, 0] : Fin 3 → Nat) a + S1x256x128.size a ≤ S42x256x128.size a
  inb_S42x256x128_S1x256x128_20_0_0 : ∀ a, (![20, 0, 0] : Fin 3 → Nat) a + S1x256x128.size a ≤ S42x256x128.size a
  inb_S42x256x128_S1x256x128_21_0_0 : ∀ a, (![21, 0, 0] : Fin 3 → Nat) a + S1x256x128.size a ≤ S42x256x128.size a
  inb_S42x256x128_S1x256x128_22_0_0 : ∀ a, (![22, 0, 0] : Fin 3 → Nat) a + S1x256x128.size a ≤ S42x256x128.size a
  inb_S42x256x128_S1x256x128_23_0_0 : ∀ a, (![23, 0, 0] : Fin 3 → Nat) a + S1x256x128.size a ≤ S42x256x128.size a
  inb_S42x256x128_S1x256x128_24_0_0 : ∀ a, (![24, 0, 0] : Fin 3 → Nat) a + S1x256x128.size a ≤ S42x256x128.size a
  inb_S42x256x128_S1x256x128_25_0_0 : ∀ a, (![25, 0, 0] : Fin 3 → Nat) a + S1x256x128.size a ≤ S42x256x128.size a
  inb_S42x256x128_S1x256x128_26_0_0 : ∀ a, (![26, 0, 0] : Fin 3 → Nat) a + S1x256x128.size a ≤ S42x256x128.size a
  inb_S42x256x128_S1x256x128_27_0_0 : ∀ a, (![27, 0, 0] : Fin 3 → Nat) a + S1x256x128.size a ≤ S42x256x128.size a
  inb_S42x256x128_S1x256x128_28_0_0 : ∀ a, (![28, 0, 0] : Fin 3 → Nat) a + S1x256x128.size a ≤ S42x256x128.size a
  inb_S42x256x128_S1x256x128_29_0_0 : ∀ a, (![29, 0, 0] : Fin 3 → Nat) a + S1x256x128.size a ≤ S42x256x128.size a
  inb_S42x256x128_S1x256x128_30_0_0 : ∀ a, (![30, 0, 0] : Fin 3 → Nat) a + S1x256x128.size a ≤ S42x256x128.size a
  inb_S42x256x128_S1x256x128_31_0_0 : ∀ a, (![31, 0, 0] : Fin 3 → Nat) a + S1x256x128.size a ≤ S42x256x128.size a
  inb_S42x256x128_S1x256x128_32_0_0 : ∀ a, (![32, 0, 0] : Fin 3 → Nat) a + S1x256x128.size a ≤ S42x256x128.size a
  inb_S42x256x128_S1x256x128_33_0_0 : ∀ a, (![33, 0, 0] : Fin 3 → Nat) a + S1x256x128.size a ≤ S42x256x128.size a
  inb_S42x256x128_S1x256x128_34_0_0 : ∀ a, (![34, 0, 0] : Fin 3 → Nat) a + S1x256x128.size a ≤ S42x256x128.size a
  inb_S42x256x128_S1x256x128_35_0_0 : ∀ a, (![35, 0, 0] : Fin 3 → Nat) a + S1x256x128.size a ≤ S42x256x128.size a
  inb_S42x256x128_S1x256x128_36_0_0 : ∀ a, (![36, 0, 0] : Fin 3 → Nat) a + S1x256x128.size a ≤ S42x256x128.size a
  inb_S42x256x128_S1x256x128_37_0_0 : ∀ a, (![37, 0, 0] : Fin 3 → Nat) a + S1x256x128.size a ≤ S42x256x128.size a
  inb_S42x256x128_S1x256x128_38_0_0 : ∀ a, (![38, 0, 0] : Fin 3 → Nat) a + S1x256x128.size a ≤ S42x256x128.size a
  inb_S42x256x128_S1x256x128_39_0_0 : ∀ a, (![39, 0, 0] : Fin 3 → Nat) a + S1x256x128.size a ≤ S42x256x128.size a
  inb_S42x256x128_S1x256x128_40_0_0 : ∀ a, (![40, 0, 0] : Fin 3 → Nat) a + S1x256x128.size a ≤ S42x256x128.size a
  inb_S42x256x128_S1x256x128_41_0_0 : ∀ a, (![41, 0, 0] : Fin 3 → Nat) a + S1x256x128.size a ≤ S42x256x128.size a
  shapeCasts_S42x15872x128_S42x2031616 : S42x15872x128.ShapeCasts S42x2031616
  transposes_S42x2031616_S2031616x42_1_0 : S42x2031616.Transposes [1, 0] S2031616x42
  slices_S2031616x42_S2000000x42_0_0 : S2031616x42.Slices ![0, 0] S2000000x42
  gather_S500000_S2000000x1_S2000000_n_0_n_n_0_1_1_wf : GatherDims.WF S500000 S2000000x1 S2000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S15872x128.size a
  hwx0_0 : ∀ i : grid0.Coords, EltTy.bits .f32 = 32 ∨ (Rect.block (s := S15872x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S15872x128.size a
  hwx0_1 : ∀ i : grid0.Coords, EltTy.bits .f32 = 32 ∨ (Rect.block (s := S15872x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S42x256x128.size a ≤ S42x15872x128.size a
  hwx0_2 : ∀ i : grid0.Coords, EltTy.bits .f32 = 32 ∨ (Rect.block (s := S42x15872x128) S42x256x128.size (cc0_transform_2 i) (hinb0_2 i)).WholeWords (EltTy.packing .f32)

variable [Facts₀]

def gather_S500000_S2000000x1_S2000000_n_0_n_n_0_1_1 : GatherDims S500000 S2000000x1 S2000000 where
  offsetDims := []
  collapsedSliceDims := [0]
  operandBatchingDims := []
  startIndicesBatchingDims := []
  startIndexMap := [0]
  indexVectorDim := 1
  sliceSizes := ![1]
  wf := gather_S500000_S2000000x1_S2000000_n_0_n_n_0_1_1_wf

abbrev win0_0 : Pipeline.Window sig grid0 :=
  Pipeline.Window.ofSpec (Memref.whole main_v9) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S42x256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000 : Shape := ⟨1, ![500000]⟩
abbrev S2000000 : Shape := ⟨1, ![2000000]⟩
abbrev S7x6 : Shape := ⟨2, ![7, 6]⟩
abbrev S7 : Shape := ⟨1, ![7]⟩
abbrev S_ : Shape := ⟨0, ![]⟩
abbrev S1x6 : Shape := ⟨2, ![1, 6]⟩
abbrev S6 : Shape := ⟨1, ![6]⟩
abbrev S500000x1 : Shape := ⟨2, ![500000, 1]⟩
abbrev S500000x6 : Shape := ⟨2, ![500000, 6]⟩
abbrev S500000x1x6 : Shape := ⟨3, ![500000, 1, 6]⟩
abbrev S500000x7x6 : Shape := ⟨3, ![500000, 7, 6]⟩
abbrev S500000x1x1 : Shape := ⟨3, ![500000, 1, 1]⟩
abbrev S1 : Shape := ⟨1, ![1]⟩
abbrev S2000000x1 : Shape := ⟨2, ![2000000, 1]⟩
abbrev S2000000x7 : Shape := ⟨2, ![2000000, 7]⟩
abbrev S2000000x7x6 : Shape := ⟨3, ![2000000, 7, 6]⟩
abbrev S2000000x7x1 : Shape := ⟨3, ![2000000, 7, 1]⟩
abbrev S2000000x42 : Shape := ⟨2, ![2000000, 42]⟩

abbrev nBuf : Space → Nat
  | .hbm => 371
  | .vmem => 0
  | .smem => 0
  | _ => 0

abbrev hbmTy0_0 (i : Nat) : BufTy := match i % 128 with
  | 0 => ⟨S500000, .f32⟩
  | 1 => ⟨S2000000, .f32⟩
  | 2 => ⟨S2000000, .i32⟩
  | 3 => ⟨S2000000, .i32⟩
  | 4 => ⟨S7x6, .f32⟩
  | 5 => ⟨S7x6, .f32⟩
  | 6 => ⟨S7, .f32⟩
  | 7 => ⟨S_, .f32⟩
  | 8 => ⟨S500000, .f32⟩
  | 9 => ⟨S500000, .f32⟩
  | 10 => ⟨S_, .f32⟩
  | 11 => ⟨S500000, .f32⟩
  | 12 => ⟨S500000, .f32⟩
  | 13 => ⟨S500000, .f32⟩
  | 14 => ⟨S500000, .f32⟩
  | 15 => ⟨S500000, .f32⟩
  | 16 => ⟨S_, .f32⟩
  | 17 => ⟨S500000, .f32⟩
  | 18 => ⟨S500000, .f32⟩
  | 19 => ⟨S500000, .f32⟩
  | 20 => ⟨S500000, .f32⟩
  | 21 => ⟨S500000, .f32⟩
  | 22 => ⟨S500000, .f32⟩
  | 23 => ⟨S_, .f32⟩
  | 24 => ⟨S500000, .f32⟩
  | 25 => ⟨S500000, .f32⟩
  | 26 => ⟨S500000, .f32⟩
  | 27 => ⟨S500000, .f32⟩
  | 28 => ⟨S500000, .f32⟩
  | 29 => ⟨S500000, .f32⟩
  | 30 => ⟨S500000, .f32⟩
  | 31 => ⟨S_, .f32⟩
  | 32 => ⟨S500000, .f32⟩
  | 33 => ⟨S500000, .f32⟩
  | 34 => ⟨S500000, .f32⟩
  | 35 => ⟨S_, .f32⟩
  | 36 => ⟨S500000, .f32⟩
  | 37 => ⟨S500000, .i1⟩
  | 38 => ⟨S_, .f32⟩
  | 39 => ⟨S500000, .f32⟩
  | 40 => ⟨S500000, .f32⟩
  | 41 => ⟨S1x6, .f32⟩
  | 42 => ⟨S6, .f32⟩
  | 43 => ⟨S500000x1, .f32⟩
  | 44 => ⟨S1x6, .f32⟩
  | 45 => ⟨S6, .f32⟩
  | 46 => ⟨S1x6, .f32⟩
  | 47 => ⟨S500000x6, .f32⟩
  | 48 => ⟨S500000x6, .f32⟩
  | 49 => ⟨S500000x6, .f32⟩
  | 50 => ⟨S500000x6, .f32⟩
  | 51 => ⟨S500000x6, .f32⟩
  | 52 => ⟨S1x6, .f32⟩
  | 53 => ⟨S500000x6, .f32⟩
  | 54 => ⟨S500000x6, .f32⟩
  | 55 => ⟨S1x6, .f32⟩
  | 56 => ⟨S6, .f32⟩
  | 57 => ⟨S500000x1, .f32⟩
  | 58 => ⟨S1x6, .f32⟩
  | 59 => ⟨S6, .f32⟩
  | 60 => ⟨S1x6, .f32⟩
  | 61 => ⟨S500000x6, .f32⟩
  | 62 => ⟨S500000x6, .f32⟩
  | 63 => ⟨S500000x6, .f32⟩
  | 64 => ⟨S500000x6, .f32⟩
  | 65 => ⟨S500000x6, .f32⟩
  | 66 => ⟨S500000x6, .f32⟩
  | 67 => ⟨S500000x6, .f32⟩
  | 68 => ⟨S500000x6, .f32⟩
  | 69 => ⟨S500000x6, .f32⟩
  | 70 => ⟨S500000x6, .f32⟩
  | 71 => ⟨S500000x6, .f32⟩
  | 72 => ⟨S1x6, .f32⟩
  | 73 => ⟨S500000x6, .f32⟩
  | 74 => ⟨S500000x6, .f32⟩
  | 75 => ⟨S1x6, .f32⟩
  | 76 => ⟨S6, .f32⟩
  | 77 => ⟨S500000x1, .f32⟩
  | 78 => ⟨S1x6, .f32⟩
  | 79 => ⟨S6, .f32⟩
  | 80 => ⟨S1x6, .f32⟩
  | 81 => ⟨S500000x6, .f32⟩
  | 82 => ⟨S500000x6, .f32⟩
  | 83 => ⟨S500000x6, .f32⟩
  | 84 => ⟨S500000x6, .f32⟩
  | 85 => ⟨S500000x6, .f32⟩
  | 86 => ⟨S500000x6, .f32⟩
  | 87 => ⟨S500000x6, .f32⟩
  | 88 => ⟨S500000x6, .f32⟩
  | 89 => ⟨S500000x6, .f32⟩
  | 90 => ⟨S500000x6, .f32⟩
  | 91 => ⟨S500000x6, .f32⟩
  | 92 => ⟨S_, .f32⟩
  | 93 => ⟨S500000x6, .f32⟩
  | 94 => ⟨S500000x6, .f32⟩
  | 95 => ⟨S500000x6, .f32⟩
  | 96 => ⟨S500000x6, .f32⟩
  | 97 => ⟨S1x6, .f32⟩
  | 98 => ⟨S500000x6, .f32⟩
  | 99 => ⟨S500000x6, .f32⟩
  | 100 => ⟨S1x6, .f32⟩
  | 101 => ⟨S6, .f32⟩
  | 102 => ⟨S500000x1, .f32⟩
  | 103 => ⟨S1x6, .f32⟩
  | 104 => ⟨S6, .f32⟩
  | 105 => ⟨S1x6, .f32⟩
  | 106 => ⟨S500000x6, .f32⟩
  | 107 => ⟨S500000x6, .f32⟩
  | 108 => ⟨S500000x6, .f32⟩
  | 109 => ⟨S500000x6, .f32⟩
  | 110 => ⟨S500000x6, .f32⟩
  | 111 => ⟨S500000x6, .f32⟩
  | 112 => ⟨S500000x6, .f32⟩
  | 113 => ⟨S500000x6, .f32⟩
  | 114 => ⟨S500000x6, .f32⟩
  | 115 => ⟨S500000x6, .f32⟩
  | 116 => ⟨S500000x6, .f32⟩
  | 117 => ⟨S_, .f32⟩
  | 118 => ⟨S500000x6, .f32⟩
  | 119 => ⟨S500000x6, .f32⟩
  | 120 => ⟨S500000x6, .f32⟩
  | 121 => ⟨S500000x6, .f32⟩
  | 122 => ⟨S_, .f32⟩
  | 123 => ⟨S500000x6, .f32⟩
  | 124 => ⟨S500000x6, .f32⟩
  | 125 => ⟨S500000x6, .f32⟩
  | 126 => ⟨S500000x6, .f32⟩
  | 127 => ⟨S1x6, .f32⟩
  | _ => ⟨S500000, .f32⟩

abbrev hbmTy0_1 (i : Nat) : BufTy := match i % 128 with
  | 0 => ⟨S500000x6, .f32⟩
  | 1 => ⟨S500000x6, .f32⟩
  | 2 => ⟨S1x6, .f32⟩
  | 3 => ⟨S6, .f32⟩
  | 4 => ⟨S500000x1, .f32⟩
  | 5 => ⟨S1x6, .f32⟩
  | 6 => ⟨S6, .f32⟩
  | 7 => ⟨S1x6, .f32⟩
  | 8 => ⟨S500000x6, .f32⟩
  | 9 => ⟨S500000x6, .f32⟩
  | 10 => ⟨S500000x6, .f32⟩
  | 11 => ⟨S500000x6, .f32⟩
  | 12 => ⟨S500000x6, .f32⟩
  | 13 => ⟨S500000x6, .f32⟩
  | 14 => ⟨S500000x6, .f32⟩
  | 15 => ⟨S500000x6, .f32⟩
  | 16 => ⟨S500000x6, .f32⟩
  | 17 => ⟨S500000x6, .f32⟩
  | 18 => ⟨S500000x6, .f32⟩
  | 19 => ⟨S_, .f32⟩
  | 20 => ⟨S500000x6, .f32⟩
  | 21 => ⟨S500000x6, .f32⟩
  | 22 => ⟨S500000x6, .f32⟩
  | 23 => ⟨S500000x6, .f32⟩
  | 24 => ⟨S_, .f32⟩
  | 25 => ⟨S500000x6, .f32⟩
  | 26 => ⟨S500000x6, .f32⟩
  | 27 => ⟨S500000x6, .f32⟩
  | 28 => ⟨S500000x6, .f32⟩
  | 29 => ⟨S_, .f32⟩
  | 30 => ⟨S500000x6, .f32⟩
  | 31 => ⟨S500000x6, .f32⟩
  | 32 => ⟨S500000x6, .f32⟩
  | 33 => ⟨S500000x6, .f32⟩
  | 34 => ⟨S1x6, .f32⟩
  | 35 => ⟨S500000x6, .f32⟩
  | 36 => ⟨S500000x6, .f32⟩
  | 37 => ⟨S1x6, .f32⟩
  | 38 => ⟨S6, .f32⟩
  | 39 => ⟨S500000x1, .f32⟩
  | 40 => ⟨S1x6, .f32⟩
  | 41 => ⟨S6, .f32⟩
  | 42 => ⟨S1x6, .f32⟩
  | 43 => ⟨S500000x6, .f32⟩
  | 44 => ⟨S500000x6, .f32⟩
  | 45 => ⟨S500000x6, .f32⟩
  | 46 => ⟨S500000x6, .f32⟩
  | 47 => ⟨S500000x6, .f32⟩
  | 48 => ⟨S500000x6, .f32⟩
  | 49 => ⟨S500000x6, .f32⟩
  | 50 => ⟨S500000x6, .f32⟩
  | 51 => ⟨S500000x6, .f32⟩
  | 52 => ⟨S500000x6, .f32⟩
  | 53 => ⟨S500000x6, .f32⟩
  | 54 => ⟨S_, .f32⟩
  | 55 => ⟨S500000x6, .f32⟩
  | 56 => ⟨S500000x6, .f32⟩
  | 57 => ⟨S500000x6, .f32⟩
  | 58 => ⟨S500000x6, .f32⟩
  | 59 => ⟨S_, .f32⟩
  | 60 => ⟨S500000x6, .f32⟩
  | 61 => ⟨S500000x6, .f32⟩
  | 62 => ⟨S500000x6, .f32⟩
  | 63 => ⟨S500000x6, .f32⟩
  | 64 => ⟨S_, .f32⟩
  | 65 => ⟨S500000x6, .f32⟩
  | 66 => ⟨S500000x6, .f32⟩
  | 67 => ⟨S500000x6, .f32⟩
  | 68 => ⟨S500000x6, .f32⟩
  | 69 => ⟨S_, .f32⟩
  | 70 => ⟨S500000x6, .f32⟩
  | 71 => ⟨S500000x6, .f32⟩
  | 72 => ⟨S500000x6, .f32⟩
  | 73 => ⟨S500000x6, .f32⟩
  | 74 => ⟨S1x6, .f32⟩
  | 75 => ⟨S500000x6, .f32⟩
  | 76 => ⟨S500000x6, .f32⟩
  | 77 => ⟨S1x6, .f32⟩
  | 78 => ⟨S6, .f32⟩
  | 79 => ⟨S500000x1, .f32⟩
  | 80 => ⟨S1x6, .f32⟩
  | 81 => ⟨S6, .f32⟩
  | 82 => ⟨S1x6, .f32⟩
  | 83 => ⟨S500000x6, .f32⟩
  | 84 => ⟨S500000x6, .f32⟩
  | 85 => ⟨S500000x6, .f32⟩
  | 86 => ⟨S500000x6, .f32⟩
  | 87 => ⟨S500000x6, .f32⟩
  | 88 => ⟨S500000x6, .f32⟩
  | 89 => ⟨S500000x6, .f32⟩
  | 90 => ⟨S500000x6, .f32⟩
  | 91 => ⟨S500000x6, .f32⟩
  | 92 => ⟨S500000x6, .f32⟩
  | 93 => ⟨S500000x6, .f32⟩
  | 94 => ⟨S_, .f32⟩
  | 95 => ⟨S500000x6, .f32⟩
  | 96 => ⟨S500000x6, .f32⟩
  | 97 => ⟨S500000x6, .f32⟩
  | 98 => ⟨S500000x6, .f32⟩
  | 99 => ⟨S_, .f32⟩
  | 100 => ⟨S500000x6, .f32⟩
  | 101 => ⟨S500000x6, .f32⟩
  | 102 => ⟨S500000x6, .f32⟩
  | 103 => ⟨S500000x6, .f32⟩
  | 104 => ⟨S_, .f32⟩
  | 105 => ⟨S500000x6, .f32⟩
  | 106 => ⟨S500000x6, .f32⟩
  | 107 => ⟨S500000x6, .f32⟩
  | 108 => ⟨S500000x6, .f32⟩
  | 109 => ⟨S_, .f32⟩
  | 110 => ⟨S500000x6, .f32⟩
  | 111 => ⟨S500000x6, .f32⟩
  | 112 => ⟨S500000x6, .f32⟩
  | 113 => ⟨S500000x6, .f32⟩
  | 114 => ⟨S_, .f32⟩
  | 115 => ⟨S500000x6, .f32⟩
  | 116 => ⟨S500000x6, .f32⟩
  | 117 => ⟨S500000x6, .f32⟩
  | 118 => ⟨S500000x6, .f32⟩
  | 119 => ⟨S1x6, .f32⟩
  | 120 => ⟨S500000x6, .f32⟩
  | 121 => ⟨S500000x6, .f32⟩
  | 122 => ⟨S500000x1x6, .f32⟩
  | 123 => ⟨S500000x1x6, .f32⟩
  | 124 => ⟨S500000x1x6, .f32⟩
  | 125 => ⟨S500000x1x6, .f32⟩
  | 126 => ⟨S500000x1x6, .f32⟩
  | 127 => ⟨S500000x1x6, .f32⟩
  | _ => ⟨S500000, .f32⟩

abbrev hbmTy0_2 (i : Nat) : BufTy := match i % 128 with
  | 0 => ⟨S500000x1x6, .f32⟩
  | 1 => ⟨S500000x7x6, .f32⟩
  | 2 => ⟨S_, .f32⟩
  | 3 => ⟨S500000, .f32⟩
  | 4 => ⟨S500000, .f32⟩
  | 5 => ⟨S500000x1x1, .f32⟩
  | 6 => ⟨S500000x7x6, .f32⟩
  | 7 => ⟨S500000x7x6, .f32⟩
  | 8 => ⟨S2000000, .f32⟩
  | 9 => ⟨S_, .f32⟩
  | 10 => ⟨S2000000, .f32⟩
  | 11 => ⟨S_, .f32⟩
  | 12 => ⟨S2000000, .f32⟩
  | 13 => ⟨S2000000, .f32⟩
  | 14 => ⟨S2000000, .f32⟩
  | 15 => ⟨S_, .f32⟩
  | 16 => ⟨S2000000, .f32⟩
  | 17 => ⟨S2000000, .f32⟩
  | 18 => ⟨S2000000, .f32⟩
  | 19 => ⟨S_, .f32⟩
  | 20 => ⟨S2000000, .f32⟩
  | 21 => ⟨S2000000, .f32⟩
  | 22 => ⟨S_, .f32⟩
  | 23 => ⟨S2000000, .f32⟩
  | 24 => ⟨S2000000, .f32⟩
  | 25 => ⟨S2000000, .f32⟩
  | 26 => ⟨S_, .f32⟩
  | 27 => ⟨S2000000, .f32⟩
  | 28 => ⟨S2000000, .f32⟩
  | 29 => ⟨S2000000, .f32⟩
  | 30 => ⟨S_, .f32⟩
  | 31 => ⟨S2000000, .f32⟩
  | 32 => ⟨S2000000, .f32⟩
  | 33 => ⟨S_, .f32⟩
  | 34 => ⟨S2000000, .f32⟩
  | 35 => ⟨S2000000, .f32⟩
  | 36 => ⟨S2000000, .f32⟩
  | 37 => ⟨S_, .f32⟩
  | 38 => ⟨S2000000, .f32⟩
  | 39 => ⟨S2000000, .f32⟩
  | 40 => ⟨S2000000, .f32⟩
  | 41 => ⟨S_, .f32⟩
  | 42 => ⟨S2000000, .f32⟩
  | 43 => ⟨S2000000, .f32⟩
  | 44 => ⟨S_, .f32⟩
  | 45 => ⟨S2000000, .f32⟩
  | 46 => ⟨S2000000, .f32⟩
  | 47 => ⟨S2000000, .f32⟩
  | 48 => ⟨S_, .f32⟩
  | 49 => ⟨S2000000, .f32⟩
  | 50 => ⟨S2000000, .f32⟩
  | 51 => ⟨S2000000, .f32⟩
  | 52 => ⟨S_, .f32⟩
  | 53 => ⟨S2000000, .f32⟩
  | 54 => ⟨S2000000, .f32⟩
  | 55 => ⟨S_, .f32⟩
  | 56 => ⟨S2000000, .f32⟩
  | 57 => ⟨S2000000, .f32⟩
  | 58 => ⟨S2000000, .f32⟩
  | 59 => ⟨S_, .f32⟩
  | 60 => ⟨S2000000, .f32⟩
  | 61 => ⟨S2000000, .f32⟩
  | 62 => ⟨S2000000, .f32⟩
  | 63 => ⟨S_, .f32⟩
  | 64 => ⟨S2000000, .f32⟩
  | 65 => ⟨S2000000, .f32⟩
  | 66 => ⟨S1, .f32⟩
  | 67 => ⟨S_, .f32⟩
  | 68 => ⟨S2000000, .f32⟩
  | 69 => ⟨S2000000, .f32⟩
  | 70 => ⟨S1, .f32⟩
  | 71 => ⟨S_, .f32⟩
  | 72 => ⟨S2000000, .f32⟩
  | 73 => ⟨S2000000, .f32⟩
  | 74 => ⟨S1, .f32⟩
  | 75 => ⟨S_, .f32⟩
  | 76 => ⟨S2000000, .f32⟩
  | 77 => ⟨S2000000, .f32⟩
  | 78 => ⟨S1, .f32⟩
  | 79 => ⟨S_, .f32⟩
  | 80 => ⟨S2000000, .f32⟩
  | 81 => ⟨S2000000, .f32⟩
  | 82 => ⟨S1, .f32⟩
  | 83 => ⟨S_, .f32⟩
  | 84 => ⟨S2000000, .f32⟩
  | 85 => ⟨S2000000, .f32⟩
  | 86 => ⟨S1, .f32⟩
  | 87 => ⟨S_, .f32⟩
  | 88 => ⟨S2000000, .f32⟩
  | 89 => ⟨S2000000, .f32⟩
  | 90 => ⟨S1, .f32⟩
  | 91 => ⟨S_, .f32⟩
  | 92 => ⟨S2000000, .f32⟩
  | 93 => ⟨S2000000, .f32⟩
  | 94 => ⟨S2000000x1, .f32⟩
  | 95 => ⟨S2000000x1, .f32⟩
  | 96 => ⟨S2000000x1, .f32⟩
  | 97 => ⟨S2000000x1, .f32⟩
  | 98 => ⟨S2000000x1, .f32⟩
  | 99 => ⟨S2000000x1, .f32⟩
  | 100 => ⟨S2000000x1, .f32⟩
  | 101 => ⟨S2000000x7, .f32⟩
  | 102 => ⟨S_, .i32⟩
  | 103 => ⟨S2000000, .i32⟩
  | 104 => ⟨S2000000, .i1⟩
  | 105 => ⟨S_, .i32⟩
  | 106 => ⟨S2000000, .i32⟩
  | 107 => ⟨S2000000, .i32⟩
  | 108 => ⟨S2000000, .i32⟩
  | 109 => ⟨S2000000x1, .i32⟩
  | 110 => ⟨S2000000x7x6, .f32⟩
  | 111 => ⟨S2000000x7x1, .f32⟩
  | 112 => ⟨S2000000x7x6, .f32⟩
  | 113 => ⟨S2000000x7x6, .f32⟩
  | 114 => ⟨S2000000x42, .f32⟩
  | _ => ⟨S500000, .f32⟩

abbrev hbmTy (i : Nat) : BufTy := match i / 128 with
  | 0 => hbmTy0_0 i
  | 1 => hbmTy0_1 i
  | 2 => hbmTy0_2 i
  | _ => ⟨S500000, .f32⟩

abbrev bufTy : (tb : Table) → Fin (tcTables nBuf tb) → BufTy
  | .hbm, ⟨i, _⟩ => hbmTy i
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_v0 : Ref sig .tc := ⟨.hbm, 8, rfl⟩
abbrev main_v1 : Ref sig .tc := ⟨.hbm, 9, rfl⟩
abbrev main_cst_3 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_9 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_cst_10 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_11 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_cst_12 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_cst_13 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_cst_14 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_cst_15 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_cst_16 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_cst_17 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_cst_18 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_cst_19 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_cst_20 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_cst_21 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_cst_22 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_cst_23 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_cst_24 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_cst_25 : Ref sig .tc := ⟨.hbm, 265, rfl⟩
abbrev main_v235 : Ref sig .tc := ⟨.hbm, 266, rfl⟩
abbrev main_cst_26 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_cst_27 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_cst_28 : Ref sig .tc := ⟨.hbm, 275, rfl⟩
abbrev main_v242 : Ref sig .tc := ⟨.hbm, 276, rfl⟩
abbrev main_v243 : Ref sig .tc := ⟨.hbm, 277, rfl⟩
abbrev main_cst_29 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_cst_30 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_cst_31 : Ref sig .tc := ⟨.hbm, 286, rfl⟩
abbrev main_v250 : Ref sig .tc := ⟨.hbm, 287, rfl⟩
abbrev main_v251 : Ref sig .tc := ⟨.hbm, 288, rfl⟩
abbrev main_cst_32 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_cst_33 : Ref sig .tc := ⟨.hbm, 293, rfl⟩
abbrev main_v255 : Ref sig .tc := ⟨.hbm, 294, rfl⟩
abbrev main_v256 : Ref sig .tc := ⟨.hbm, 295, rfl⟩
abbrev main_v257 : Ref sig .tc := ⟨.hbm, 296, rfl⟩
abbrev main_cst_34 : Ref sig .tc := ⟨.hbm, 297, rfl⟩
abbrev main_v258 : Ref sig .tc := ⟨.hbm, 298, rfl⟩
abbrev main_v259 : Ref sig .tc := ⟨.hbm, 299, rfl⟩
abbrev main_cst_35 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_cst_36 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_cst_37 : Ref sig .tc := ⟨.hbm, 308, rfl⟩
abbrev main_v266 : Ref sig .tc := ⟨.hbm, 309, rfl⟩
abbrev main_v267 : Ref sig .tc := ⟨.hbm, 310, rfl⟩
abbrev main_cst_38 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_cst_39 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_cst_40 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_v299 : Ref sig .tc := ⟨.hbm, 345, rfl⟩
abbrev main_v300 : Ref sig .tc := ⟨.hbm, 346, rfl⟩
abbrev main_v301 : Ref sig .tc := ⟨.hbm, 347, rfl⟩
abbrev main_v302 : Ref sig .tc := ⟨.hbm, 348, rfl⟩
abbrev main_v303 : Ref sig .tc := ⟨.hbm, 349, rfl⟩
abbrev main_v304 : Ref sig .tc := ⟨.hbm, 350, rfl⟩
abbrev main_v305 : Ref sig .tc := ⟨.hbm, 351, rfl⟩
abbrev main_v306 : Ref sig .tc := ⟨.hbm, 352, rfl⟩
abbrev main_v307 : Ref sig .tc := ⟨.hbm, 353, rfl⟩
abbrev main_v308 : Ref sig .tc := ⟨.hbm, 354, rfl⟩
abbrev main_v309 : Ref sig .tc := ⟨.hbm, 355, rfl⟩
abbrev main_v310 : Ref sig .tc := ⟨.hbm, 356, rfl⟩
abbrev main_v311 : Ref sig .tc := ⟨.hbm, 357, rfl⟩
abbrev main_c : Ref sig .tc := ⟨.hbm, 358, rfl⟩
abbrev main_v312 : Ref sig .tc := ⟨.hbm, 359, rfl⟩
abbrev main_v313 : Ref sig .tc := ⟨.hbm, 360, rfl⟩
abbrev main_c_41 : Ref sig .tc := ⟨.hbm, 361, rfl⟩
abbrev main_v314 : Ref sig .tc := ⟨.hbm, 362, rfl⟩
abbrev main_v315 : Ref sig .tc := ⟨.hbm, 363, rfl⟩
abbrev main_v316 : Ref sig .tc := ⟨.hbm, 364, rfl⟩
abbrev main_v317 : Ref sig .tc := ⟨.hbm, 365, rfl⟩
abbrev main_v318 : Ref sig .tc := ⟨.hbm, 366, rfl⟩
abbrev main_v319 : Ref sig .tc := ⟨.hbm, 367, rfl⟩
abbrev main_v320 : Ref sig .tc := ⟨.hbm, 368, rfl⟩
abbrev main_v321 : Ref sig .tc := ⟨.hbm, 369, rfl⟩
abbrev main_v322 : Ref sig .tc := ⟨.hbm, 370, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  slices_S7x6_S1x6_0_0 : S7x6.Slices ![0, 0] S1x6
  shapeCasts_S1x6_S6 : S1x6.ShapeCasts S6
  bcast_S500000_S500000x1_0 : S500000.BroadcastsInDim S500000x1 (![0] : Fin 1 → Fin S500000x1.rank)
  bcast_S6_S1x6_1 : S6.BroadcastsInDim S1x6 (![1] : Fin 1 → Fin S1x6.rank)
  bcast_S500000x1_S500000x6_0_1 : S500000x1.BroadcastsInDim S500000x6 (![0, 1] : Fin 2 → Fin S500000x6.rank)
  bcast_S1x6_S500000x6_0_1 : S1x6.BroadcastsInDim S500000x6 (![0, 1] : Fin 2 → Fin S500000x6.rank)
  slices_S7x6_S1x6_1_0 : S7x6.Slices ![1, 0] S1x6
  slices_S7x6_S1x6_2_0 : S7x6.Slices ![2, 0] S1x6
  bcast_S_S500000x6 : S_.BroadcastsInDim S500000x6 (![] : Fin 0 → Fin S500000x6.rank)
  slices_S7x6_S1x6_3_0 : S7x6.Slices ![3, 0] S1x6
  slices_S7x6_S1x6_4_0 : S7x6.Slices ![4, 0] S1x6
  slices_S7x6_S1x6_5_0 : S7x6.Slices ![5, 0] S1x6
  slices_S7x6_S1x6_6_0 : S7x6.Slices ![6, 0] S1x6
  bcast_S500000x6_S500000x1x6_0_2 : S500000x6.BroadcastsInDim S500000x1x6 (![0, 2] : Fin 2 → Fin S500000x1x6.rank)
  concatenates_S500000x1x6_S500000x1x6_S500000x1x6_S500000x1x6_S500000x1x6_S500000x1x6_S500000x1x6_S500000x7x6_d1 : Shape.Concatenates [S500000x1x6, S500000x1x6, S500000x1x6, S500000x1x6, S500000x1x6, S500000x1x6, S500000x1x6] S500000x7x6 1
  bcast_S500000_S500000x1x1_0 : S500000.BroadcastsInDim S500000x1x1 (![0] : Fin 1 → Fin S500000x1x1.rank)
  bcast_S500000x1x1_S500000x7x6_0_1_2 : S500000x1x1.BroadcastsInDim S500000x7x6 (![0, 1, 2] : Fin 3 → Fin S500000x7x6.rank)
  bcast_S_S2000000 : S_.BroadcastsInDim S2000000 (![] : Fin 0 → Fin S2000000.rank)
  slices_S7_S1_0 : S7.Slices ![0] S1
  shapeCasts_S1_S_ : S1.ShapeCasts S_
  slices_S7_S1_1 : S7.Slices ![1] S1
  slices_S7_S1_2 : S7.Slices ![2] S1
  slices_S7_S1_3 : S7.Slices ![3] S1
  slices_S7_S1_4 : S7.Slices ![4] S1
  slices_S7_S1_5 : S7.Slices ![5] S1
  slices_S7_S1_6 : S7.Slices ![6] S1
  bcast_S2000000_S2000000x1_0 : S2000000.BroadcastsInDim S2000000x1 (![0] : Fin 1 → Fin S2000000x1.rank)
  concatenates_S2000000x1_S2000000x1_S2000000x1_S2000000x1_S2000000x1_S2000000x1_S2000000x1_S2000000x7_d1 : Shape.Concatenates [S2000000x1, S2000000x1, S2000000x1, S2000000x1, S2000000x1, S2000000x1, S2000000x1] S2000000x7 1
  bcast_S2000000x7_S2000000x7x1_0_1 : S2000000x7.BroadcastsInDim S2000000x7x1 (![0, 1] : Fin 2 → Fin S2000000x7x1.rank)
  bcast_S2000000x7x1_S2000000x7x6_0_1_2 : S2000000x7x1.BroadcastsInDim S2000000x7x6 (![0, 1, 2] : Fin 3 → Fin S2000000x7x6.rank)
  shapeCasts_S2000000x7x6_S2000000x42 : S2000000x7x6.ShapeCasts S2000000x42
  gather_S500000x7x6_S2000000x1_S2000000x7x6_12_0_n_n_0_1_176_wf : GatherDims.WF S500000x7x6 S2000000x1 S2000000x7x6 [1, 2] [0] [] [0] [] 1 ![1, 7, 6]

variable [Facts₀]

def gather_S500000x7x6_S2000000x1_S2000000x7x6_12_0_n_n_0_1_176 : GatherDims S500000x7x6 S2000000x1 S2000000x7x6 where
  offsetDims := [1, 2]
  collapsedSliceDims := [0]
  operandBatchingDims := []
  startIndicesBatchingDims := []
  startIndexMap := [0]
  indexVectorDim := 1
  sliceSizes := ![1, 7, 6]
  wf := gather_S500000x7x6_S2000000x1_S2000000x7x6_12_0_n_n_0_1_176_wf

class Facts : Prop extends Facts₀ where

variable [Facts]
-- ==== Proof.Spec.lean ====
/-
  The spherical basis layer, one output entry at a time, as two functions of the extended reals.

  For a triplet with gathered edge distance D and angle A, and for k = 6 l + r (l the spherical order, r the radial
  index), both programs compute   u(d) · c · Y_l · P_l(cos A) · N_{l,r} · j_l(z_{l,r} d),   d = D/5,
  u the polynomial envelope cut at d = 1, P_l the Legendre polynomial by its three-term recurrence, j_l the
  spherical Bessel function by its upward recurrence from j_0 = sin x / x and j_1 = sin x / x² − cos x / x.
  They differ in two places only: the powers d⁵, d⁶, d⁷ are grouped differently, and one side multiplies by a
  shared reciprocal 1/x where the other divides by x (and by x·x). kerOut and refOut spell the two orders
  of operations; out_eq says they agree whenever x is a nonzero real, which holds when D is one: every
  quotient by x is then the product with the real 1/x, and the rest is commutativity and associativity of
  the product of extended reals.
-/
import Idealize.ShloMosaic.PureOps.Ideal
import Idealize.ShloMosaic.PureOps.Ideal.Laws
import Idealize.ShloMosaic.Lib.ValueIdx

noncomputable section

namespace Cert.Sbl

open Idealize.ShloMosaic

/-- The extended real an f32 word denotes. -/
abbrev w (b : BitVec 32) : EReal := Ideal.ofBits .f32 b

/-- The f32 words of the small whole numbers the two recurrences use. -/
def fw : ℕ → BitVec 32
  | 1 => 0x3F800000#32 | 2 => 0x40000000#32 | 3 => 0x40400000#32 | 4 => 0x40800000#32 | 5 => 0x40A00000#32
  | 6 => 0x40C00000#32 | 7 => 0x40E00000#32 | 9 => 0x41100000#32 | 11 => 0x41300000#32 | _ => 0#32

/-- The zeros z_{l,r} of the spherical Bessel functions, row-major in k = 6 l + r, as f32 words. -/
def zW : ℕ → BitVec 32
  | 0 => 0x40490FDB#32 | 1 => 0x40C90FDB#32 | 2 => 0x4116CBE4#32 | 3 => 0x41490FDB#32 | 4 => 0x417B53D1#32 | 5 => 0x4196CBE4#32 | 6 => 0x408FCA03#32 | 7 => 0x40F73543#32
  | 8 => 0x412E7748#32 | 9 => 0x41610F21#32 | 10 => 0x4189C41B#32 | 11 => 0x41A2F86E#32 | 12 => 0x40B86E42#32 | 13 => 0x4111852B#32 | 14 => 0x41452AC4#32 | 15 => 0x41783BD0#32
  | 16 => 0x41958325#32 | 17 => 0x41AED4BC#32 | 18 => 0x40DF9D24#32 | 19 => 0x4126AC84#32 | 20 => 0x415B2B1A#32 | 21 => 0x41876394#32 | 22 => 0x41A0F976#32 | 23 => 0x41BA6F19#32
  | 24 => 0x4102EBC6#32 | 25 => 0x413B474D#32 | 26 => 0x4170A277#32 | 27 => 0x419268F9#32 | 28 => 0x41AC340E#32 | 29 => 0x41C5D20E#32 | 30 => 0x4115B168#32 | 31 => 0x414F76E8#32
  | 32 => 0x4182D672#32 | 33 => 0x419D39A8#32 | 34 => 0x41B73C85#32 | 35 => 0x41D105A2#32 | 36 => 0x41283493#32 | 37 => 0x4163517B#32 | 38 => 0x418D2F0D#32 | 39 => 0x41A7DE22#32
  | 40 => 0x41C21A26#32 | 41 => 0x41DC101D#32
  | _ => 0x3F800000#32

/-- The normalisations N_{l,r}, row-major in k = 6 l + r, as f32 words. -/
def bW : ℕ → BitVec 32
  | 0 => 0x408E2C19#32 | 1 => 0x410E2C19#32 | 2 => 0x41554225#32 | 3 => 0x418E2C19#32 | 4 => 0x41B1B71F#32 | 5 => 0x41D54225#32 | 6 => 0x40D052C6#32 | 7 => 0x413042CC#32
  | 8 => 0x4177C47B#32 | 9 => 0x419F8ADF#32 | 10 => 0x41C328A8#32 | 11 => 0x41E6C0A4#32 | 12 => 0x4108AEAE#32 | 13 => 0x4151A0CD#32 | 14 => 0x418CD0C6#32 | 15 => 0x41B0A1B7#32
  | 16 => 0x41D45B2F#32 | 17 => 0x41F8074F#32 | 18 => 0x412918C5#32 | 19 => 0x41729973#32 | 20 => 0x419D88A8#32 | 21 => 0x41C18457#32 | 22 => 0x41E55D3E#32 | 23 => 0x420490A6#32
  | 24 => 0x414992AB#32 | 25 => 0x4189AC75#32 | 26 => 0x41AE1B30#32 | 27 => 0x41D2401A#32 | 28 => 0x41F63954#32 | 29 => 0x420D0B83#32 | 30 => 0x416A2F9C#32 | 31 => 0x4199FC9A#32
  | 32 => 0x41BE93C8#32 | 33 => 0x41E2DE79#32 | 34 => 0x42037BA1#32 | 35 => 0x4215777C#32 | 36 => 0x41857C6F#32 | 37 => 0x41AA455E#32 | 38 => 0x41CEFA54#32 | 39 => 0x41F36663#32
  | 40 => 0x420BCE7F#32 | 41 => 0x421DD723#32
  | _ => 0#32

/-- The normalisations Y_l = sqrt((2l+1)/4π) of the zonal harmonics, as f32 words. -/
def yW : ℕ → BitVec 32
  | 0 => 0x3E906EBB#32 | 1 => 0x3EFA2A1C#32 | 2 => 0x3F217B01#32 | 3 => 0x3F3F10F8#32 | 4 => 0x3F58A618#32 | 5 => 0x3F6F83A7#32 | 6 => 0x3F823092#32
  | _ => 0#32

/-- The scaled distance d = D · f32(1/5). -/
def dd (D : EReal) : EReal := D * w 0x3E4CCCCD#32

/-- The envelope u(d) = 1/d − 28 d⁵ + 48 d⁶ − 21 d⁷ for d < 1 and 0 otherwise, the powers grouped as
    d⁵ = (d²·d²)·d, d⁶ = d⁵·d, d⁷ = d⁶·d. -/
def envK (d : EReal) : EReal :=
  Scalar.select (Ideal.cmp .olt d (w 0x3F800000#32))
    (((Ideal.div (w 0x3F800000#32) d + w 0xC1E00000#32 * (((d * d) * (d * d)) * d))
        + w 0x42400000#32 * ((((d * d) * (d * d)) * d) * d))
        + w 0xC1A80000#32 * (((((d * d) * (d * d)) * d) * d) * d))
    (w 0x00000000#32)

/-- The same envelope, the powers grouped as d⁵ = d·(d²·d²), d⁶ = d²·(d²·d²), d⁷ = (d·d²)·(d²·d²). -/
def envR (d : EReal) : EReal :=
  Scalar.select (Ideal.cmp .olt d (w 0x3F800000#32))
    (((Ideal.div (w 0x3F800000#32) d + w 0xC1E00000#32 * (d * ((d * d) * (d * d))))
        + w 0x42400000#32 * ((d * d) * ((d * d) * (d * d))))
        + w 0xC1A80000#32 * ((d * (d * d)) * ((d * d) * (d * d))))
    (w 0x00000000#32)

/-- The envelope times the cutoff's normalisation f32(5^(-3/2)), in the first grouping. -/
def scaleK (d : EReal) : EReal := envK d * w 0x3DB72DBF#32

/-- The envelope times the cutoff's normalisation, in the second grouping. -/
def scaleR (d : EReal) : EReal := envR d * w 0x3DB72DBF#32

/-- The Legendre polynomial P_l at ct by (m+2) P_{m+2} = (2m+3) ct P_{m+1} − (m+1) P_m, in the order both programs
    compute it: ((2m+3)·ct)·P_{m+1} − (m+1)·P_m, divided by m+2. -/
def leg : ℕ → EReal → EReal
  | 0, _ => w 0x3F800000#32
  | 1, ct => ct
  | (m + 2), ct => Ideal.div ((w (fw (2 * m + 3)) * ct) * leg (m + 1) ct - w (fw (m + 1)) * leg m ct) (w (fw (m + 2)))

/-- The spherical Bessel recurrence with a shared reciprocal ix = 1/x: j_0 = s·ix, j_1 = (s·ix)·ix − co·ix,
    j_{k+2} = ((2k+3)·ix)·j_{k+1} − j_k  (s = sin x, co = cos x). -/
def besK (s co ix : EReal) : ℕ → EReal
  | 0 => s * ix
  | 1 => (s * ix) * ix - co * ix
  | (k + 2) => (w (fw (2 * k + 3)) * ix) * besK s co ix (k + 1) - besK s co ix k

/-- The same recurrence with quotients: j_0 = s/x, j_1 = s/(x·x) − co/x, j_{k+2} = ((2k+3)/x)·j_{k+1} − j_k. -/
def besR (s co x : EReal) : ℕ → EReal
  | 0 => Ideal.div s x
  | 1 => Ideal.div s (x * x) - Ideal.div co x
  | (k + 2) => (Ideal.div (w (fw (2 * k + 3))) x) * besR s co x (k + 1) - besR s co x k

/-- Entry k = 6 l + r of a triplet's row, with the reciprocal shared and the angular factor taken first. -/
def kerOut (k : ℕ) (D A : EReal) : EReal :=
  (scaleK (dd D) * (w (yW (k / 6)) * leg (k / 6) (Ideal.cos A)))
    * (w (bW k) * besK (Ideal.sin (dd D * w (zW k))) (Ideal.cos (dd D * w (zW k)))
        (Ideal.div (w 0x3F800000#32) (dd D * w (zW k))) (k / 6))

/-- Entry k = 6 l + r of a triplet's row, with quotients and the radial factor taken first. -/
def refOut (k : ℕ) (D A : EReal) : EReal :=
  (scaleR (dd D) * (w (bW k) * besR (Ideal.sin (dd D * w (zW k))) (Ideal.cos (dd D * w (zW k))) (dd D * w (zW k)) (k / 6)))
    * (w (yW (k / 6)) * leg (k / 6) (Ideal.cos A))

/-! ## The two orders agree where x is a nonzero real -/

/-- A normal f32 word denotes a nonzero real. -/
theorem w_normal (b : BitVec 32) (h1 : (b.extractLsb' 23 8).toNat ≠ 255) (h0 : (b.extractLsb' 23 8).toNat ≠ 0) :
    ∃ r : ℝ, r ≠ 0 ∧ w b = (r : EReal) := by
  unfold w Ideal.ofBits Ideal.ieee
  simp only [show (2 : ℕ) ^ 8 - 1 = 255 from rfl, h1, h0, if_false]
  refine ⟨_, ?_, rfl⟩
  have hs : (if (b.extractLsb' (8 + 23) 1 == 1#1) = true then (-1 : ℝ) else 1) ≠ 0 := by split_ifs <;> norm_num
  have hm : (((2 ^ 23 + (b.extractLsb' 0 23).toNat : ℕ)) : ℝ) ≠ 0 := by positivity
  exact mul_ne_zero (mul_ne_zero hs hm) (zpow_ne_zero _ (by norm_num))

theorem w_one : w 0x3F800000#32 = ((1 : ℝ) : EReal) := by
  simp [w, Ideal.ofBits, Ideal.ieee]
  first
    | (rw [← EReal.coe_mul]; norm_num; done)
    | (norm_cast; norm_num; done)
    | (rw [← EReal.coe_mul, ← EReal.coe_one]; congr 1; norm_num; done)

theorem zW_normal (k : ℕ) (hk : k < 42) : ∃ r : ℝ, r ≠ 0 ∧ w (zW k) = (r : EReal) := by
  apply w_normal <;> (interval_cases k <;> decide)

theorem scale_eq (d : EReal) : scaleK d = scaleR d := by
  unfold scaleK scaleR envK envR
  have e5 : ((d * d) * (d * d)) * d = d * ((d * d) * (d * d)) := by ac_rfl
  have e6 : (((d * d) * (d * d)) * d) * d = (d * d) * ((d * d) * (d * d)) := by ac_rfl
  have e7 : ((((d * d) * (d * d)) * d) * d) * d = (d * (d * d)) * ((d * d) * (d * d)) := by ac_rfl
  rw [e7, e6, e5]

/-- With x a nonzero real and ix its reciprocal, the two recurrences are one. -/
theorem bes_eq (s co : EReal) (y : ℝ) (hy : y ≠ 0) :
    ∀ n : ℕ, besK s co (((1 / y : ℝ)) : EReal) n = besR s co (y : EReal) n
      ∧ besK s co (((1 / y : ℝ)) : EReal) (n + 1) = besR s co (y : EReal) (n + 1) := by
  have hyy : y * y ≠ 0 := mul_ne_zero hy hy
  intro n
  induction n with
  | zero =>
    refine ⟨?_, ?_⟩
    · simp only [besK, besR, Ideal.div_coe hy]
    · simp only [besK, besR, Ideal.div_coe hy]
      rw [← EReal.coe_mul, Ideal.div_coe hyy, mul_assoc, ← EReal.coe_mul]
      congr 3
      field_simp
  | succ n ih =>
    refine ⟨ih.2, ?_⟩
    simp only [besK, besR, Ideal.div_coe hy, ih.1, ih.2]

theorem out_eq (k : ℕ) (hk : k < 42) (D : ℝ) (hD : D ≠ 0) (A : EReal) : kerOut k (D : EReal) A = refOut k (D : EReal) A := by
  obtain ⟨c, hc, ec⟩ := w_normal 0x3E4CCCCD#32 (by decide) (by decide)
  obtain ⟨z, hz, ez⟩ := zW_normal k hk
  have hx : dd (D : EReal) * w (zW k) = (((D * c) * z : ℝ) : EReal) := by
    unfold dd; rw [ec, ez, ← EReal.coe_mul, ← EReal.coe_mul]
  have hne : (D * c) * z ≠ 0 := mul_ne_zero (mul_ne_zero hD hc) hz
  unfold kerOut refOut
  rw [hx, scale_eq, w_one, Ideal.div_coe hne, ← EReal.coe_mul, one_mul, (bes_eq _ _ _ hne (k / 6)).1]
  exact mul_right_comm _ _ _

/-! ## The whole result array -/

/-- The edge a triplet's index word selects: a negative index counts from the end (+500000), and the start index is
    then read signed and clamped into [0, 499999], as an array lookup by an integer array does. -/
def tri (i : BitVec 32) : Fin 500000 :=
  ⟨min (Scalar.select (IntOp.cmpi .slt i 0#32) (IntOp.addi i 500000#32) i).toInt.toNat 499999, by omega⟩

/-- The [2000000, 42] array whose entry (t, k) is f k of the distance of triplet t's edge and of triplet t's angle. -/
def outArr (f : ℕ → EReal → EReal → EReal) (D : (⟨1, ![500000]⟩ : Shape).Idx → EReal)
    (A : (⟨1, ![2000000]⟩ : Shape).Idx → EReal) (I : (⟨1, ![2000000]⟩ : Shape).Idx → BitVec 32) :
    (⟨2, ![2000000, 42]⟩ : Shape).Idx → EReal :=
  fun i => f (i 1).val (D (ValueIdx.ix1 (tri (I (ValueIdx.ix1 ⟨(i 0).val, ValueIdx.idx2_lt0 i⟩)))))
    (A (ValueIdx.ix1 ⟨(i 0).val, ValueIdx.idx2_lt0 i⟩))

/-- Where every distance is a nonzero real the two arrays are one. -/
theorem outArr_eq (D : (⟨1, ![500000]⟩ : Shape).Idx → EReal) (hD : ∀ e, ∃ r : ℝ, r ≠ 0 ∧ D e = (r : EReal))
    (A : (⟨1, ![2000000]⟩ : Shape).Idx → EReal) (I : (⟨1, ![2000000]⟩ : Shape).Idx → BitVec 32) :
    outArr kerOut D A I = outArr refOut D A I := by
  funext i
  obtain ⟨r, hr, er⟩ := hD (ValueIdx.ix1 (tri (I (ValueIdx.ix1 ⟨(i 0).val, ValueIdx.idx2_lt0 i⟩))))
  unfold outArr
  rw [er]
  exact out_eq _ (ValueIdx.idx2_lt1 i) r hr _

end Cert.Sbl

end
-- ==== Proof.RefForms.lean ====
/-
  What the reference's intermediate arrays hold, as functions of the three argument arrays that matter:
  D (edge distances), A (triplet angles), I (triplet → edge index words). Each is the array form of one of the
  scalar functions of the specification: the scaled distance d = D/5, the envelope, the three literal tables
  (Bessel zeros z, radial normalisations N, angular normalisations Y, row l of a table being entries 6l … 6l+5),
  the arguments x = d · z_{l,r} of the Bessel functions of order l, the members j_n(x) of the upward recurrence,
  the radial basis N_{l,r} j_l(x), the Legendre polynomials of cos A, and the two integer arrays from which the
  looked-up edge is chosen. The read of the reference is stated stretch by stretch over these forms.
-/
import proofs.«110041_j46024869543995_2_alg».proof.Proof.Spec

noncomputable section

namespace Cert.Sbl

open Idealize.ShloMosaic Idealize.ShloMosaic.ValueIdx

/-- Index types of the literal shapes. -/
abbrev E1 := (⟨1, ![500000]⟩ : Shape).Idx
abbrev T1 := (⟨1, ![2000000]⟩ : Shape).Idx
abbrev E6 := (⟨2, ![500000, 6]⟩ : Shape).Idx
abbrev E76 := (⟨3, ![500000, 7, 6]⟩ : Shape).Idx
abbrev T7 := (⟨2, ![2000000, 7]⟩ : Shape).Idx
abbrev R6 := (⟨1, ![6]⟩ : Shape).Idx
abbrev L76 := (⟨2, ![7, 6]⟩ : Shape).Idx
abbrev L7 := (⟨1, ![7]⟩ : Shape).Idx

/-- d = D/5 on every edge. -/
def dArr (D : E1 → EReal) : E1 → EReal := fun e => dd (D e)

/-- The envelope of every edge (before the cutoff's normalisation). -/
def envArr (D : E1 → EReal) : E1 → EReal := fun e => envR (dd (D e))

/-- The table of Bessel zeros, the table of radial normalisations, the angular normalisations. -/
def zTab : L76 → EReal := fun i => w (zW (6 * (i 0).val + (i 1).val))
def bTab : L76 → EReal := fun i => w (bW (6 * (i 0).val + (i 1).val))
def yTab : L7 → EReal := fun i => w (yW (i 0).val)

/-- Row l of the radial normalisations. -/
def bRow (l : ℕ) : R6 → EReal := fun i => w (bW (6 * l + (i 0).val))

/-- x = d · z_{l,r} for every edge and radial index. -/
def xArr (D : E1 → EReal) (l : ℕ) : E6 → EReal :=
  fun i => dd (D (ix1 ⟨(i 0).val, idx2_lt0 i⟩)) * w (zW (6 * l + (i 1).val))

/-- Member n of the upward recurrence at x = d · z_{l,r}. -/
def jArr (D : E1 → EReal) (l n : ℕ) : E6 → EReal :=
  fun i => besR (Ideal.sin (xArr D l i)) (Ideal.cos (xArr D l i)) (xArr D l i) n

/-- The radial basis of order l: N_{l,r} · j_l(d z_{l,r}). -/
def rbfArr (D : E1 → EReal) (l : ℕ) : E6 → EReal := fun i => w (bW (6 * l + (i 1).val)) * jArr D l l i

/-- One f32 word on every edge and radial index. -/
def cArr (b : BitVec 32) : E6 → EReal := fun _ => w b

/-- The radial basis of all orders times the normalised envelope. -/
def rbfEnv (D : E1 → EReal) : E76 → EReal :=
  fun i => scaleR (dd (D (ix1 ⟨(i 0).val, (i 0).isLt⟩)))
    * (w (bW (6 * (i 1).val + (i 2).val))
        * besR (Ideal.sin (dd (D (ix1 ⟨(i 0).val, (i 0).isLt⟩)) * w (zW (6 * (i 1).val + (i 2).val))))
            (Ideal.cos (dd (D (ix1 ⟨(i 0).val, (i 0).isLt⟩)) * w (zW (6 * (i 1).val + (i 2).val))))
            (dd (D (ix1 ⟨(i 0).val, (i 0).isLt⟩)) * w (zW (6 * (i 1).val + (i 2).val))) (i 1).val)

/-- cos A of every triplet; the constant one; the Legendre polynomial of order l at cos A. -/
def ctArr (A : T1 → EReal) : T1 → EReal := fun t => Ideal.cos (A t)
def onesArr : T1 → EReal := fun _ => w 0x3F800000#32
def legArr (A : T1 → EReal) (l : ℕ) : T1 → EReal := fun t => leg l (Ideal.cos (A t))

/-- The first product of the step to order 5: (9 · cos A) · P_4(cos A). -/
def p5Arr (A : T1 → EReal) : T1 → EReal := fun t => (w (fw 9) * Ideal.cos (A t)) * leg 4 (Ideal.cos (A t))

/-- The angular basis: Y_l · P_l(cos A) for every triplet and order. -/
def sphArr (A : T1 → EReal) : T7 → EReal :=
  fun i => w (yW (i 1).val) * leg (i 1).val (Ideal.cos (A (ix1 ⟨(i 0).val, idx2_lt0 i⟩)))

/-- Whether a triplet's index word is negative; the word plus the number of edges. -/
def negArr (I : T1 → BitVec 32) : T1 → BitVec 1 := fun t => IntOp.cmpi .slt (I t) 0#32
def addArr (I : T1 → BitVec 32) : T1 → BitVec 32 := fun t => IntOp.addi (I t) 500000#32

end Cert.Sbl

end
-- ==== Proof.Pre.lean ====
/-
  What the precondition gives: it is the conjunction of three "for every entry" tests, each a fold of "and" over a
  comparison array, so it being all ones says every entry passes every test. For the distances: |D e| < +∞ rules out
  both infinities, so D e is a real, and D e ≠ 0 is the third test itself.
-/
import proofs.«110041_j46024869543995_2_alg».proof.Defs
import Idealize.ShloMosaic.Lib.ReduceAll
import Idealize.ShloMosaic.Lib.ValueIdx
import Idealize.ShloMosaic.PureOps.Ideal.Laws

noncomputable section

namespace Cert.PreFacts

open Idealize.ShloMosaic

instance : Subsingleton Cert.Pre_finite_inputs.S_.Idx := ⟨fun a b => funext fun d => d.elim0⟩

/-- Under the precondition every distance is a nonzero real. -/
theorem dist_real_ne_zero [Cert.Pre_finite_inputs.Facts] (D : FVec Ideal Cert.Pre_finite_inputs.S500000 .f32)
    (A : FVec Ideal Cert.Pre_finite_inputs.S2000000 .f32) (I K : IVec Cert.Pre_finite_inputs.S2000000 32)
    (hpre : Cert.Pre_finite_inputs.fn (F := Ideal) D A I K = fun _ => 1#1) (e : Cert.Pre_finite_inputs.S500000.Idx) :
    ∃ r : ℝ, r ≠ 0 ∧ D e = (r : EReal) := by
  have h0 := congrFun hpre ValueIdx.ix0
  dsimp only [Cert.Pre_finite_inputs.fn] at h0
  obtain ⟨h12, h3⟩ := IntOp.andi_eq_one.1 h0
  obtain ⟨h1, _⟩ := IntOp.andi_eq_one.1 h12
  have hfin : Ideal.cmp .olt (max (D e) (-(D e))) (Ideal.ofBits .f32 0x7F800000#32) = 1#1 :=
    Host.reduce_andi_all _ _ _ _ _ h1 e
  have hne : Ideal.cmp .une (D e) (Ideal.ofBits .f32 0x00000000#32) = 1#1 :=
    Host.reduce_andi_all _ _ _ _ _ h3 e
  have htop : Ideal.ofBits .f32 0x7F800000#32 = (⊤ : EReal) := by simp [Ideal.ofBits, Ideal.ieee]
  rw [htop] at hfin
  rw [Ideal.ofBits_zero_f32] at hne
  have hlt : max (D e) (-(D e)) < ⊤ := by
    by_contra hc
    simp [Ideal.cmp, hc] at hfin
  have hnz : D e ≠ 0 := by
    intro hc
    simp [Ideal.cmp, hc] at hne
  induction h : D e using EReal.rec with
  | bot => rw [h] at hlt; simp at hlt
  | top => rw [h] at hlt; simp at hlt
  | coe r => exact ⟨r, fun hr => hnz (by rw [h, hr]; rfl), rfl⟩

end Cert.PreFacts

end
-- ==== Proof.RefOps.lean ====
import proofs.«110041_j46024869543995_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Window 0 of @main: its 60 operations, in order. -/
abbrev ops0 : List (HloOp τ sig (Elt F)) :=
  [ StableHlo.nullary main_cst (fun i => FloatOps.ofBits .f32 (lit0 (S7x6.rowMajor i))),
    StableHlo.nullary main_cst_0 (fun i => FloatOps.ofBits .f32 (lit1 (S7x6.rowMajor i))),
    StableHlo.nullary main_cst_1 (fun i => FloatOps.ofBits .f32 (lit2 (S7.rowMajor i))),
    StableHlo.nullary main_cst_2 (constant S_ .f32 0x3E4CCCCD#32),
    StableHlo.unary main_cst_2 main_v0 (broadcastInDim S500000 ![] bcast_S_S500000 : (⟨S_, .f32⟩ : BufTy).Contents (Elt F) → (⟨S500000, .f32⟩ : BufTy).Contents (Elt F)),
    StableHlo.binary main_arg0 main_v0 main_v1 (mulf : (⟨S500000, .f32⟩ : BufTy).Contents (Elt F) → (⟨S500000, .f32⟩ : BufTy).Contents (Elt F) → (⟨S500000, .f32⟩ : BufTy).Contents (Elt F)),
    StableHlo.nullary main_cst_3 (constant S_ .f32 0x3F800000#32),
    StableHlo.unary main_cst_3 main_v2 (broadcastInDim S500000 ![] bcast_S_S500000 : (⟨S_, .f32⟩ : BufTy).Contents (Elt F) → (⟨S500000, .f32⟩ : BufTy).Contents (Elt F)),
    StableHlo.binary main_v2 main_v1 main_v3 (Host.divf : (⟨S500000, .f32⟩ : BufTy).Contents (Elt F) → (⟨S500000, .f32⟩ : BufTy).Contents (Elt F) → (⟨S500000, .f32⟩ : BufTy).Contents (Elt F)),
    StableHlo.binary main_v1 main_v1 main_v4 (mulf : (⟨S500000, .f32⟩ : BufTy).Contents (Elt F) → (⟨S500000, .f32⟩ : BufTy).Contents (Elt F) → (⟨S500000, .f32⟩ : BufTy).Contents (Elt F)),
    StableHlo.binary main_v4 main_v4 main_v5 (mulf : (⟨S500000, .f32⟩ : BufTy).Contents (Elt F) → (⟨S500000, .f32⟩ : BufTy).Contents (Elt F) → (⟨S500000, .f32⟩ : BufTy).Contents (Elt F)),
    StableHlo.binary main_v1 main_v5 main_v6 (mulf : (⟨S500000, .f32⟩ : BufTy).Contents (Elt F) → (⟨S500000, .f32⟩ : BufTy).Contents (Elt F) → (⟨S500000, .f32⟩ : BufTy).Contents (Elt F)),
    StableHlo.nullary main_cst_4 (constant S_ .f32 0xC1E00000#32),
    StableHlo.unary main_cst_4 main_v7 (broadcastInDim S500000 ![] bcast_S_S500000 : (⟨S_, .f32⟩ : BufTy).Contents (Elt F) → (⟨S500000, .f32⟩ : BufTy).Contents (Elt F)),
    StableHlo.binary main_v7 main_v6 main_v8 (mulf : (⟨S500000, .f32⟩ : BufTy).Contents (Elt F) → (⟨S500000, .f32⟩ : BufTy).Contents (Elt F) → (⟨S500000, .f32⟩ : BufTy).Contents (Elt F)),
    StableHlo.binary main_v3 main_v8 main_v9 (addf : (⟨S500000, .f32⟩ : BufTy).Contents (Elt F) → (⟨S500000, .f32⟩ : BufTy).Contents (Elt F) → (⟨S500000, .f32⟩ : BufTy).Contents (Elt F)),
    StableHlo.binary main_v1 main_v1 main_v10 (mulf : (⟨S500000, .f32⟩ : BufTy).Contents (Elt F) → (⟨S500000, .f32⟩ : BufTy).Contents (Elt F) → (⟨S500000, .f32⟩ : BufTy).Contents (Elt F)),
    StableHlo.binary main_v10 main_v10 main_v11 (mulf : (⟨S500000, .f32⟩ : BufTy).Contents (Elt F) → (⟨S500000, .f32⟩ : BufTy).Contents (Elt F) → (⟨S500000, .f32⟩ : BufTy).Contents (Elt F)),
    StableHlo.binary main_v10 main_v11 main_v12 (mulf : (⟨S500000, .f32⟩ : BufTy).Contents (Elt F) → (⟨S500000, .f32⟩ : BufTy).Contents (Elt F) → (⟨S500000, .f32⟩ : BufTy).Contents (Elt F)),
    StableHlo.nullary main_cst_5 (constant S_ .f32 0x42400000#32),
    StableHlo.unary main_cst_5 main_v13 (broadcastInDim S500000 ![] bcast_S_S500000 : (⟨S_, .f32⟩ : BufTy).Contents (Elt F) → (⟨S500000, .f32⟩ : BufTy).Contents (Elt F)),
    StableHlo.binary main_v13 main_v12 main_v14 (mulf : (⟨S500000, .f32⟩ : BufTy).Contents (Elt F) → (⟨S500000, .f32⟩ : BufTy).Contents (Elt F) → (⟨S500000, .f32⟩ : BufTy).Contents (Elt F)),
    StableHlo.binary main_v9 main_v14 main_v15 (addf : (⟨S500000, .f32⟩ : BufTy).Contents (Elt F) → (⟨S500000, .f32⟩ : BufTy).Contents (Elt F) → (⟨S500000, .f32⟩ : BufTy).Contents (Elt F)),
    StableHlo.binary main_v1 main_v1 main_v16 (mulf : (⟨S500000, .f32⟩ : BufTy).Contents (Elt F) → (⟨S500000, .f32⟩ : BufTy).Contents (Elt F) → (⟨S500000, .f32⟩ : BufTy).Contents (Elt F)),
    StableHlo.binary main_v1 main_v16 main_v17 (mulf : (⟨S500000, .f32⟩ : BufTy).Contents (Elt F) → (⟨S500000, .f32⟩ : BufTy).Contents (Elt F) → (⟨S500000, .f32⟩ : BufTy).Contents (Elt F)),
    StableHlo.binary main_v16 main_v16 main_v18 (mulf : (⟨S500000, .f32⟩ : BufTy).Contents (Elt F) → (⟨S500000, .f32⟩ : BufTy).Contents (Elt F) → (⟨S500000, .f32⟩ : BufTy).Contents (Elt F)),
    StableHlo.binary main_v17 main_v18 main_v19 (mulf : (⟨S500000, .f32⟩ : BufTy).Contents (Elt F) → (⟨S500000, .f32⟩ : BufTy).Contents (Elt F) → (⟨S500000, .f32⟩ : BufTy).Contents (Elt F)),
    StableHlo.nullary main_cst_6 (constant S_ .f32 0xC1A80000#32),
    StableHlo.unary main_cst_6 main_v20 (broadcastInDim S500000 ![] bcast_S_S500000 : (⟨S_, .f32⟩ : BufTy).Contents (Elt F) → (⟨S500000, .f32⟩ : BufTy).Contents (Elt F)),
    StableHlo.binary main_v20 main_v19 main_v21 (mulf : (⟨S500000, .f32⟩ : BufTy).Contents (Elt F) → (⟨S500000, .f32⟩ : BufTy).Contents (Elt F) → (⟨S500000, .f32⟩ : BufTy).Contents (Elt F)),
    StableHlo.binary main_v15 main_v21 main_v22 (addf : (⟨S500000, .f32⟩ : BufTy).Contents (Elt F) → (⟨S500000, .f32⟩ : BufTy).Contents (Elt F) → (⟨S500000, .f32⟩ : BufTy).Contents (Elt F)),
    StableHlo.nullary main_cst_7 (constant S_ .f32 0x3F800000#32),
    StableHlo.unary main_cst_7 main_v23 (broadcastInDim S500000 ![] bcast_S_S500000 : (⟨S_, .f32⟩ : BufTy).Contents (Elt F) → (⟨S500000, .f32⟩ : BufTy).Contents (Elt F)),
    StableHlo.binary main_v1 main_v23 main_v24 (cmpf .olt : (⟨S500000, .f32⟩ : BufTy).Contents (Elt F) → (⟨S500000, .f32⟩ : BufTy).Contents (Elt F) → (⟨S500000, .i1⟩ : BufTy).Contents (Elt F)),
    StableHlo.nullary main_cst_8 (constant S_ .f32 0x00000000#32),
    StableHlo.unary main_cst_8 main_v25 (broadcastInDim S500000 ![] bcast_S_S500000 : (⟨S_, .f32⟩ : BufTy).Contents (Elt F) → (⟨S500000, .f32⟩ : BufTy).Contents (Elt F)),
    StableHlo.TRef.ternary (.of main_v24) (.of main_v22) (.of main_v25) main_call0.v0 select,
    StableHlo.unary main_cst_0 main_v27 ((extractStridedSlice S1x6 ![0, 0] · slices_S7x6_S1x6_0_0) : (⟨S7x6, .f32⟩ : BufTy).Contents (Elt F) → (⟨S1x6, .f32⟩ : BufTy).Contents (Elt F)),
    StableHlo.reshape main_v27 main_v28 rfl shapeCasts_S1x6_S6,
    StableHlo.unary main_v1 main_v29 (broadcastInDim S500000x1 ![0] bcast_S500000_S500000x1_0 : (⟨S500000, .f32⟩ : BufTy).Contents (Elt F) → (⟨S500000x1, .f32⟩ : BufTy).Contents (Elt F)),
    StableHlo.unary main_cst main_v30 ((extractStridedSlice S1x6 ![0, 0] · slices_S7x6_S1x6_0_0) : (⟨S7x6, .f32⟩ : BufTy).Contents (Elt F) → (⟨S1x6, .f32⟩ : BufTy).Contents (Elt F)),
    StableHlo.reshape main_v30 main_v31 rfl shapeCasts_S1x6_S6,
    StableHlo.unary main_v31 main_v32 (broadcastInDim S1x6 ![1] bcast_S6_S1x6_1 : (⟨S6, .f32⟩ : BufTy).Contents (Elt F) → (⟨S1x6, .f32⟩ : BufTy).Contents (Elt F)),
    StableHlo.unary main_v29 main_v33 (broadcastInDim S500000x6 ![0, 1] bcast_S500000x1_S500000x6_0_1 : (⟨S500000x1, .f32⟩ : BufTy).Contents (Elt F) → (⟨S500000x6, .f32⟩ : BufTy).Contents (Elt F)),
    StableHlo.unary main_v32 main_v34 (broadcastInDim S500000x6 ![0, 1] bcast_S1x6_S500000x6_0_1 : (⟨S1x6, .f32⟩ : BufTy).Contents (Elt F) → (⟨S500000x6, .f32⟩ : BufTy).Contents (Elt F)),
    StableHlo.binary main_v33 main_v34 main_v35 (mulf : (⟨S500000x6, .f32⟩ : BufTy).Contents (Elt F) → (⟨S500000x6, .f32⟩ : BufTy).Contents (Elt F) → (⟨S500000x6, .f32⟩ : BufTy).Contents (Elt F)),
    StableHlo.unary main_v35 main_v36 (Host.sin : (⟨S500000x6, .f32⟩ : BufTy).Contents (Elt F) → (⟨S500000x6, .f32⟩ : BufTy).Contents (Elt F)),
    StableHlo.binary main_v36 main_v35 main_v37 (Host.divf : (⟨S500000x6, .f32⟩ : BufTy).Contents (Elt F) → (⟨S500000x6, .f32⟩ : BufTy).Contents (Elt F) → (⟨S500000x6, .f32⟩ : BufTy).Contents (Elt F)),
    StableHlo.unary main_v28 main_v38 (broadcastInDim S1x6 ![1] bcast_S6_S1x6_1 : (⟨S6, .f32⟩ : BufTy).Contents (Elt F) → (⟨S1x6, .f32⟩ : BufTy).Contents (Elt F)),
    StableHlo.unary main_v38 main_v39 (broadcastInDim S500000x6 ![0, 1] bcast_S1x6_S500000x6_0_1 : (⟨S1x6, .f32⟩ : BufTy).Contents (Elt F) → (⟨S500000x6, .f32⟩ : BufTy).Contents (Elt F)),
    StableHlo.binary main_v39 main_v37 main_v40 (mulf : (⟨S500000x6, .f32⟩ : BufTy).Contents (Elt F) → (⟨S500000x6, .f32⟩ : BufTy).Contents (Elt F) → (⟨S500000x6, .f32⟩ : BufTy).Contents (Elt F)),
    StableHlo.unary main_cst_0 main_v41 ((extractStridedSlice S1x6 ![1, 0] · slices_S7x6_S1x6_1_0) : (⟨S7x6, .f32⟩ : BufTy).Contents (Elt F) → (⟨S1x6, .f32⟩ : BufTy).Contents (Elt F)),
    StableHlo.reshape main_v41 main_v42 rfl shapeCasts_S1x6_S6,
    StableHlo.unary main_v1 main_v43 (broadcastInDim S500000x1 ![0] bcast_S500000_S500000x1_0 : (⟨S500000, .f32⟩ : BufTy).Contents (Elt F) → (⟨S500000x1, .f32⟩ : BufTy).Contents (Elt F)),
    StableHlo.unary main_cst main_v44 ((extractStridedSlice S1x6 ![1, 0] · slices_S7x6_S1x6_1_0) : (⟨S7x6, .f32⟩ : BufTy).Contents (Elt F) → (⟨S1x6, .f32⟩ : BufTy).Contents (Elt F)),
    StableHlo.reshape main_v44 main_v45 rfl shapeCasts_S1x6_S6,
    StableHlo.unary main_v45 main_v46 (broadcastInDim S1x6 ![1] bcast_S6_S1x6_1 : (⟨S6, .f32⟩ : BufTy).Contents (Elt F) → (⟨S1x6, .f32⟩ : BufTy).Contents (Elt F)),
    StableHlo.unary main_v43 main_v47 (broadcastInDim S500000x6 ![0, 1] bcast_S500000x1_S500000x6_0_1 : (⟨S500000x1, .f32⟩ : BufTy).Contents (Elt F) → (⟨S500000x6, .f32⟩ : BufTy).Contents (Elt F)),
    StableHlo.unary main_v46 main_v48 (broadcastInDim S500000x6 ![0, 1] bcast_S1x6_S500000x6_0_1 : (⟨S1x6, .f32⟩ : BufTy).Contents (Elt F) → (⟨S500000x6, .f32⟩ : BufTy).Contents (Elt F)),
    StableHlo.binary main_v47 main_v48 main_v49 (mulf : (⟨S500000x6, .f32⟩ : BufTy).Contents (Elt F) → (⟨S500000x6, .f32⟩ : BufTy).Contents (Elt F) → (⟨S500000x6, .f32⟩ : BufTy).Contents (Elt F)) ]

theorem ops0_sub : (ops0 : List (HloOp τ sig (Elt F))).Forall fun op => op.bufs ⊆ tcRefs τ sig :=
  ⟨nullary_bufs_sub .., nullary_bufs_sub .., nullary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., ternary_bufs_sub .., unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub ..⟩

/-- Window 1 of @main: its 60 operations, in order. -/
abbrev ops1 : List (HloOp τ sig (Elt F)) :=
  [ StableHlo.unary main_v49 main_v50 (Host.sin : (⟨S500000x6, .f32⟩ : BufTy).Contents (Elt F) → (⟨S500000x6, .f32⟩ : BufTy).Contents (Elt F)),
    StableHlo.binary main_v50 main_v49 main_v51 (Host.divf : (⟨S500000x6, .f32⟩ : BufTy).Contents (Elt F) → (⟨S500000x6, .f32⟩ : BufTy).Contents (Elt F) → (⟨S500000x6, .f32⟩ : BufTy).Contents (Elt F)),
    StableHlo.unary main_v49 main_v52 (Host.sin : (⟨S500000x6, .f32⟩ : BufTy).Contents (Elt F) → (⟨S500000x6, .f32⟩ : BufTy).Contents (Elt F)),
    StableHlo.binary main_v49 main_v49 main_v53 (mulf : (⟨S500000x6, .f32⟩ : BufTy).Contents (Elt F) → (⟨S500000x6, .f32⟩ : BufTy).Contents (Elt F) → (⟨S500000x6, .f32⟩ : BufTy).Contents (Elt F)),
    StableHlo.binary main_v52 main_v53 main_v54 (Host.divf : (⟨S500000x6, .f32⟩ : BufTy).Contents (Elt F) → (⟨S500000x6, .f32⟩ : BufTy).Contents (Elt F) → (⟨S500000x6, .f32⟩ : BufTy).Contents (Elt F)),
    StableHlo.unary main_v49 main_v55 (Host.cos : (⟨S500000x6, .f32⟩ : BufTy).Contents (Elt F) → (⟨S500000x6, .f32⟩ : BufTy).Contents (Elt F)),
    StableHlo.binary main_v55 main_v49 main_v56 (Host.divf : (⟨S500000x6, .f32⟩ : BufTy).Contents (Elt F) → (⟨S500000x6, .f32⟩ : BufTy).Contents (Elt F) → (⟨S500000x6, .f32⟩ : BufTy).Contents (Elt F)),
    StableHlo.binary main_v54 main_v56 main_v57 (subf : (⟨S500000x6, .f32⟩ : BufTy).Contents (Elt F) → (⟨S500000x6, .f32⟩ : BufTy).Contents (Elt F) → (⟨S500000x6, .f32⟩ : BufTy).Contents (Elt F)),
    StableHlo.unary main_v42 main_v58 (broadcastInDim S1x6 ![1] bcast_S6_S1x6_1 : (⟨S6, .f32⟩ : BufTy).Contents (Elt F) → (⟨S1x6, .f32⟩ : BufTy).Contents (Elt F)),
    StableHlo.unary main_v58 main_v59 (broadcastInDim S500000x6 ![0, 1] bcast_S1x6_S500000x6_0_1 : (⟨S1x6, .f32⟩ : BufTy).Contents (Elt F) → (⟨S500000x6, .f32⟩ : BufTy).Contents (Elt F)),
    StableHlo.binary main_v59 main_v57 main_v60 (mulf : (⟨S500000x6, .f32⟩ : BufTy).Contents (Elt F) → (⟨S500000x6, .f32⟩ : BufTy).Contents (Elt F) → (⟨S500000x6, .f32⟩ : BufTy).Contents (Elt F)),
    StableHlo.unary main_cst_0 main_v61 ((extractStridedSlice S1x6 ![2, 0] · slices_S7x6_S1x6_2_0) : (⟨S7x6, .f32⟩ : BufTy).Contents (Elt F) → (⟨S1x6, .f32⟩ : BufTy).Contents (Elt F)),
    StableHlo.reshape main_v61 main_v62 rfl shapeCasts_S1x6_S6,
    StableHlo.unary main_v1 main_v63 (broadcastInDim S500000x1 ![0] bcast_S500000_S500000x1_0 : (⟨S500000, .f32⟩ : BufTy).Contents (Elt F) → (⟨S500000x1, .f32⟩ : BufTy).Contents (Elt F)),
    StableHlo.unary main_cst main_v64 ((extractStridedSlice S1x6 ![2, 0] · slices_S7x6_S1x6_2_0) : (⟨S7x6, .f32⟩ : BufTy).Contents (Elt F) → (⟨S1x6, .f32⟩ : BufTy).Contents (Elt F)),
    StableHlo.reshape main_v64 main_v65 rfl shapeCasts_S1x6_S6,
    StableHlo.unary main_v65 main_v66 (broadcastInDim S1x6 ![1] bcast_S6_S1x6_1 : (⟨S6, .f32⟩ : BufTy).Contents (Elt F) → (⟨S1x6, .f32⟩ : BufTy).Contents (Elt F)),
    StableHlo.unary main_v63 main_v67 (broadcastInDim S500000x6 ![0, 1] bcast_S500000x1_S500000x6_0_1 : (⟨S500000x1, .f32⟩ : BufTy).Contents (Elt F) → (⟨S500000x6, .f32⟩ : BufTy).Contents (Elt F)),
    StableHlo.unary main_v66 main_v68 (broadcastInDim S500000x6 ![0, 1] bcast_S1x6_S500000x6_0_1 : (⟨S1x6, .f32⟩ : BufTy).Contents (Elt F) → (⟨S500000x6, .f32⟩ : BufTy).Contents (Elt F)),
    StableHlo.binary main_v67 main_v68 main_v69 (mulf : (⟨S500000x6, .f32⟩ : BufTy).Contents (Elt F) → (⟨S500000x6, .f32⟩ : BufTy).Contents (Elt F) → (⟨S500000x6, .f32⟩ : BufTy).Contents (Elt F)),
    StableHlo.unary main_v69 main_v70 (Host.sin : (⟨S500000x6, .f32⟩ : BufTy).Contents (Elt F) → (⟨S500000x6, .f32⟩ : BufTy).Contents (Elt F)),
    StableHlo.binary main_v70 main_v69 main_v71 (Host.divf : (⟨S500000x6, .f32⟩ : BufTy).Contents (Elt F) → (⟨S500000x6, .f32⟩ : BufTy).Contents (Elt F) → (⟨S500000x6, .f32⟩ : BufTy).Contents (Elt F)),
    StableHlo.unary main_v69 main_v72 (Host.sin : (⟨S500000x6, .f32⟩ : BufTy).Contents (Elt F) → (⟨S500000x6, .f32⟩ : BufTy).Contents (Elt F)),
    StableHlo.binary main_v69 main_v69 main_v73 (mulf : (⟨S500000x6, .f32⟩ : BufTy).Contents (Elt F) → (⟨S500000x6, .f32⟩ : BufTy).Contents (Elt F) → (⟨S500000x6, .f32⟩ : BufTy).Contents (Elt F)),
    StableHlo.binary main_v72 main_v73 main_v74 (Host.divf : (⟨S500000x6, .f32⟩ : BufTy).Contents (Elt F) → (⟨S500000x6, .f32⟩ : BufTy).Contents (Elt F) → (⟨S500000x6, .f32⟩ : BufTy).Contents (Elt F)),
    StableHlo.unary main_v69 main_v75 (Host.cos : (⟨S500000x6, .f32⟩ : BufTy).Contents (Elt F) → (⟨S500000x6, .f32⟩ : BufTy).Contents (Elt F)),
    StableHlo.binary main_v75 main_v69 main_v76 (Host.divf : (⟨S500000x6, .f32⟩ : BufTy).Contents (Elt F) → (⟨S500000x6, .f32⟩ : BufTy).Contents (Elt F) → (⟨S500000x6, .f32⟩ : BufTy).Contents (Elt F)),
    StableHlo.binary main_v74 main_v76 main_v77 (subf : (⟨S500000x6, .f32⟩ : BufTy).Contents (Elt F) → (⟨S500000x6, .f32⟩ : BufTy).Contents (Elt F) → (⟨S500000x6, .f32⟩ : BufTy).Contents (Elt F)),
    StableHlo.nullary main_cst_9 (constant S_ .f32 0x40400000#32),
    StableHlo.unary main_cst_9 main_v78 (broadcastInDim S500000x6 ![] bcast_S_S500000x6 : (⟨S_, .f32⟩ : BufTy).Contents (Elt F) → (⟨S500000x6, .f32⟩ : BufTy).Contents (Elt F)),
    StableHlo.binary main_v78 main_v69 main_v79 (Host.divf : (⟨S500000x6, .f32⟩ : BufTy).Contents (Elt F) → (⟨S500000x6, .f32⟩ : BufTy).Contents (Elt F) → (⟨S500000x6, .f32⟩ : BufTy).Contents (Elt F)),
    StableHlo.binary main_v79 main_v77 main_v80 (mulf : (⟨S500000x6, .f32⟩ : BufTy).Contents (Elt F) → (⟨S500000x6, .f32⟩ : BufTy).Contents (Elt F) → (⟨S500000x6, .f32⟩ : BufTy).Contents (Elt F)),
    StableHlo.binary main_v80 main_v71 main_v81 (subf : (⟨S500000x6, .f32⟩ : BufTy).Contents (Elt F) → (⟨S500000x6, .f32⟩ : BufTy).Contents (Elt F) → (⟨S500000x6, .f32⟩ : BufTy).Contents (Elt F)),
    StableHlo.unary main_v62 main_v82 (broadcastInDim S1x6 ![1] bcast_S6_S1x6_1 : (⟨S6, .f32⟩ : BufTy).Contents (Elt F) → (⟨S1x6, .f32⟩ : BufTy).Contents (Elt F)),
    StableHlo.unary main_v82 main_v83 (broadcastInDim S500000x6 ![0, 1] bcast_S1x6_S500000x6_0_1 : (⟨S1x6, .f32⟩ : BufTy).Contents (Elt F) → (⟨S500000x6, .f32⟩ : BufTy).Contents (Elt F)),
    StableHlo.binary main_v83 main_v81 main_v84 (mulf : (⟨S500000x6, .f32⟩ : BufTy).Contents (Elt F) → (⟨S500000x6, .f32⟩ : BufTy).Contents (Elt F) → (⟨S500000x6, .f32⟩ : BufTy).Contents (Elt F)),
    StableHlo.unary main_cst_0 main_v85 ((extractStridedSlice S1x6 ![3, 0] · slices_S7x6_S1x6_3_0) : (⟨S7x6, .f32⟩ : BufTy).Contents (Elt F) → (⟨S1x6, .f32⟩ : BufTy).Contents (Elt F)),
    StableHlo.reshape main_v85 main_v86 rfl shapeCasts_S1x6_S6,
    StableHlo.unary main_v1 main_v87 (broadcastInDim S500000x1 ![0] bcast_S500000_S500000x1_0 : (⟨S500000, .f32⟩ : BufTy).Contents (Elt F) → (⟨S500000x1, .f32⟩ : BufTy).Contents (Elt F)),
    StableHlo.unary main_cst main_v88 ((extractStridedSlice S1x6 ![3, 0] · slices_S7x6_S1x6_3_0) : (⟨S7x6, .f32⟩ : BufTy).Contents (Elt F) → (⟨S1x6, .f32⟩ : BufTy).Contents (Elt F)),
    StableHlo.reshape main_v88 main_v89 rfl shapeCasts_S1x6_S6,
    StableHlo.unary main_v89 main_v90 (broadcastInDim S1x6 ![1] bcast_S6_S1x6_1 : (⟨S6, .f32⟩ : BufTy).Contents (Elt F) → (⟨S1x6, .f32⟩ : BufTy).Contents (Elt F)),
    StableHlo.unary main_v87 main_v91 (broadcastInDim S500000x6 ![0, 1] bcast_S500000x1_S500000x6_0_1 : (⟨S500000x1, .f32⟩ : BufTy).Contents (Elt F) → (⟨S500000x6, .f32⟩ : BufTy).Contents (Elt F)),
    StableHlo.unary main_v90 main_v92 (broadcastInDim S500000x6 ![0, 1] bcast_S1x6_S500000x6_0_1 : (⟨S1x6, .f32⟩ : BufTy).Contents (Elt F) → (⟨S500000x6, .f32⟩ : BufTy).Contents (Elt F)),
    StableHlo.binary main_v91 main_v92 main_v93 (mulf : (⟨S500000x6, .f32⟩ : BufTy).Contents (Elt F) → (⟨S500000x6, .f32⟩ : BufTy).Contents (Elt F) → (⟨S500000x6, .f32⟩ : BufTy).Contents (Elt F)),
    StableHlo.unary main_v93 main_v94 (Host.sin : (⟨S500000x6, .f32⟩ : BufTy).Contents (Elt F) → (⟨S500000x6, .f32⟩ : BufTy).Contents (Elt F)),
    StableHlo.binary main_v94 main_v93 main_v95 (Host.divf : (⟨S500000x6, .f32⟩ : BufTy).Contents (Elt F) → (⟨S500000x6, .f32⟩ : BufTy).Contents (Elt F) → (⟨S500000x6, .f32⟩ : BufTy).Contents (Elt F)),
    StableHlo.unary main_v93 main_v96 (Host.sin : (⟨S500000x6, .f32⟩ : BufTy).Contents (Elt F) → (⟨S500000x6, .f32⟩ : BufTy).Contents (Elt F)),
    StableHlo.binary main_v93 main_v93 main_v97 (mulf : (⟨S500000x6, .f32⟩ : BufTy).Contents (Elt F) → (⟨S500000x6, .f32⟩ : BufTy).Contents (Elt F) → (⟨S500000x6, .f32⟩ : BufTy).Contents (Elt F)),
    StableHlo.binary main_v96 main_v97 main_v98 (Host.divf : (⟨S500000x6, .f32⟩ : BufTy).Contents (Elt F) → (⟨S500000x6, .f32⟩ : BufTy).Contents (Elt F) → (⟨S500000x6, .f32⟩ : BufTy).Contents (Elt F)),
    StableHlo.unary main_v93 main_v99 (Host.cos : (⟨S500000x6, .f32⟩ : BufTy).Contents (Elt F) → (⟨S500000x6, .f32⟩ : BufTy).Contents (Elt F)),
    StableHlo.binary main_v99 main_v93 main_v100 (Host.divf : (⟨S500000x6, .f32⟩ : BufTy).Contents (Elt F) → (⟨S500000x6, .f32⟩ : BufTy).Contents (Elt F) → (⟨S500000x6, .f32⟩ : BufTy).Contents (Elt F)),
    StableHlo.binary main_v98 main_v100 main_v101 (subf : (⟨S500000x6, .f32⟩ : BufTy).Contents (Elt F) → (⟨S500000x6, .f32⟩ : BufTy).Contents (Elt F) → (⟨S500000x6, .f32⟩ : BufTy).Contents (Elt F)),
    StableHlo.nullary main_cst_10 (constant S_ .f32 0x40400000#32),
    StableHlo.unary main_cst_10 main_v102 (broadcastInDim S500000x6 ![] bcast_S_S500000x6 : (⟨S_, .f32⟩ : BufTy).Contents (Elt F) → (⟨S500000x6, .f32⟩ : BufTy).Contents (Elt F)),
    StableHlo.binary main_v102 main_v93 main_v103 (Host.divf : (⟨S500000x6, .f32⟩ : BufTy).Contents (Elt F) → (⟨S500000x6, .f32⟩ : BufTy).Contents (Elt F) → (⟨S500000x6, .f32⟩ : BufTy).Contents (Elt F)),
    StableHlo.binary main_v103 main_v101 main_v104 (mulf : (⟨S500000x6, .f32⟩ : BufTy).Contents (Elt F) → (⟨S500000x6, .f32⟩ : BufTy).Contents (Elt F) → (⟨S500000x6, .f32⟩ : BufTy).Contents (Elt F)),
    StableHlo.binary main_v104 main_v95 main_v105 (subf : (⟨S500000x6, .f32⟩ : BufTy).Contents (Elt F) → (⟨S500000x6, .f32⟩ : BufTy).Contents (Elt F) → (⟨S500000x6, .f32⟩ : BufTy).Contents (Elt F)),
    StableHlo.nullary main_cst_11 (constant S_ .f32 0x40A00000#32),
    StableHlo.unary main_cst_11 main_v106 (broadcastInDim S500000x6 ![] bcast_S_S500000x6 : (⟨S_, .f32⟩ : BufTy).Contents (Elt F) → (⟨S500000x6, .f32⟩ : BufTy).Contents (Elt F)) ]

theorem ops1_sub : (ops1 : List (HloOp τ sig (Elt F))).Forall fun op => op.bufs ⊆ tcRefs τ sig :=
  ⟨unary_bufs_sub .., binary_bufs_sub .., unary_bufs_sub .., binary_bufs_sub .., binary_bufs_sub .., unary_bufs_sub .., binary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub ..⟩

/-- Window 2 of @main: its 60 operations, in order. -/
abbrev ops2 : List (HloOp τ sig (Elt F)) :=
  [ StableHlo.binary main_v106 main_v93 main_v107 (Host.divf : (⟨S500000x6, .f32⟩ : BufTy).Contents (Elt F) → (⟨S500000x6, .f32⟩ : BufTy).Contents (Elt F) → (⟨S500000x6, .f32⟩ : BufTy).Contents (Elt F)),
    StableHlo.binary main_v107 main_v105 main_v108 (mulf : (⟨S500000x6, .f32⟩ : BufTy).Contents (Elt F) → (⟨S500000x6, .f32⟩ : BufTy).Contents (Elt F) → (⟨S500000x6, .f32⟩ : BufTy).Contents (Elt F)),
    StableHlo.binary main_v108 main_v101 main_v109 (subf : (⟨S500000x6, .f32⟩ : BufTy).Contents (Elt F) → (⟨S500000x6, .f32⟩ : BufTy).Contents (Elt F) → (⟨S500000x6, .f32⟩ : BufTy).Contents (Elt F)),
    StableHlo.unary main_v86 main_v110 (broadcastInDim S1x6 ![1] bcast_S6_S1x6_1 : (⟨S6, .f32⟩ : BufTy).Contents (Elt F) → (⟨S1x6, .f32⟩ : BufTy).Contents (Elt F)),
    StableHlo.unary main_v110 main_v111 (broadcastInDim S500000x6 ![0, 1] bcast_S1x6_S500000x6_0_1 : (⟨S1x6, .f32⟩ : BufTy).Contents (Elt F) → (⟨S500000x6, .f32⟩ : BufTy).Contents (Elt F)),
    StableHlo.binary main_v111 main_v109 main_v112 (mulf : (⟨S500000x6, .f32⟩ : BufTy).Contents (Elt F) → (⟨S500000x6, .f32⟩ : BufTy).Contents (Elt F) → (⟨S500000x6, .f32⟩ : BufTy).Contents (Elt F)),
    StableHlo.unary main_cst_0 main_v113 ((extractStridedSlice S1x6 ![4, 0] · slices_S7x6_S1x6_4_0) : (⟨S7x6, .f32⟩ : BufTy).Contents (Elt F) → (⟨S1x6, .f32⟩ : BufTy).Contents (Elt F)),
    StableHlo.reshape main_v113 main_v114 rfl shapeCasts_S1x6_S6,
    StableHlo.unary main_v1 main_v115 (broadcastInDim S500000x1 ![0] bcast_S500000_S500000x1_0 : (⟨S500000, .f32⟩ : BufTy).Contents (Elt F) → (⟨S500000x1, .f32⟩ : BufTy).Contents (Elt F)),
    StableHlo.unary main_cst main_v116 ((extractStridedSlice S1x6 ![4, 0] · slices_S7x6_S1x6_4_0) : (⟨S7x6, .f32⟩ : BufTy).Contents (Elt F) → (⟨S1x6, .f32⟩ : BufTy).Contents (Elt F)),
    StableHlo.reshape main_v116 main_v117 rfl shapeCasts_S1x6_S6,
    StableHlo.unary main_v117 main_v118 (broadcastInDim S1x6 ![1] bcast_S6_S1x6_1 : (⟨S6, .f32⟩ : BufTy).Contents (Elt F) → (⟨S1x6, .f32⟩ : BufTy).Contents (Elt F)),
    StableHlo.unary main_v115 main_v119 (broadcastInDim S500000x6 ![0, 1] bcast_S500000x1_S500000x6_0_1 : (⟨S500000x1, .f32⟩ : BufTy).Contents (Elt F) → (⟨S500000x6, .f32⟩ : BufTy).Contents (Elt F)),
    StableHlo.unary main_v118 main_v120 (broadcastInDim S500000x6 ![0, 1] bcast_S1x6_S500000x6_0_1 : (⟨S1x6, .f32⟩ : BufTy).Contents (Elt F) → (⟨S500000x6, .f32⟩ : BufTy).Contents (Elt F)),
    StableHlo.binary main_v119 main_v120 main_v121 (mulf : (⟨S500000x6, .f32⟩ : BufTy).Contents (Elt F) → (⟨S500000x6, .f32⟩ : BufTy).Contents (Elt F) → (⟨S500000x6, .f32⟩ : BufTy).Contents (Elt F)),
    StableHlo.unary main_v121 main_v122 (Host.sin : (⟨S500000x6, .f32⟩ : BufTy).Contents (Elt F) → (⟨S500000x6, .f32⟩ : BufTy).Contents (Elt F)),
    StableHlo.binary main_v122 main_v121 main_v123 (Host.divf : (⟨S500000x6, .f32⟩ : BufTy).Contents (Elt F) → (⟨S500000x6, .f32⟩ : BufTy).Contents (Elt F) → (⟨S500000x6, .f32⟩ : BufTy).Contents (Elt F)),
    StableHlo.unary main_v121 main_v124 (Host.sin : (⟨S500000x6, .f32⟩ : BufTy).Contents (Elt F) → (⟨S500000x6, .f32⟩ : BufTy).Contents (Elt F)),
    StableHlo.binary main_v121 main_v121 main_v125 (mulf : (⟨S500000x6, .f32⟩ : BufTy).Contents (Elt F) → (⟨S500000x6, .f32⟩ : BufTy).Contents (Elt F) → (⟨S500000x6, .f32⟩ : BufTy).Contents (Elt F)),
    StableHlo.binary main_v124 main_v125 main_v126 (Host.divf : (⟨S500000x6, .f32⟩ : BufTy).Contents (Elt F) → (⟨S500000x6, .f32⟩ : BufTy).Contents (Elt F) → (⟨S500000x6, .f32⟩ : BufTy).Contents (Elt F)),
    StableHlo.unary main_v121 main_v127 (Host.cos : (⟨S500000x6, .f32⟩ : BufTy).Contents (Elt F) → (⟨S500000x6, .f32⟩ : BufTy).Contents (Elt F)),
    StableHlo.binary main_v127 main_v121 main_v128 (Host.divf : (⟨S500000x6, .f32⟩ : BufTy).Contents (Elt F) → (⟨S500000x6, .f32⟩ : BufTy).Contents (Elt F) → (⟨S500000x6, .f32⟩ : BufTy).Contents (Elt F)),
    StableHlo.binary main_v126 main_v128 main_v129 (subf : (⟨S500000x6, .f32⟩ : BufTy).Contents (Elt F) → (⟨S500000x6, .f32⟩ : BufTy).Contents (Elt F) → (⟨S500000x6, .f32⟩ : BufTy).Contents (Elt F)),
    StableHlo.nullary main_cst_12 (constant S_ .f32 0x40400000#32),
    StableHlo.unary main_cst_12 main_v130 (broadcastInDim S500000x6 ![] bcast_S_S500000x6 : (⟨S_, .f32⟩ : BufTy).Contents (Elt F) → (⟨S500000x6, .f32⟩ : BufTy).Contents (Elt F)),
    StableHlo.binary main_v130 main_v121 main_v131 (Host.divf : (⟨S500000x6, .f32⟩ : BufTy).Contents (Elt F) → (⟨S500000x6, .f32⟩ : BufTy).Contents (Elt F) → (⟨S500000x6, .f32⟩ : BufTy).Contents (Elt F)),
    StableHlo.binary main_v131 main_v129 main_v132 (mulf : (⟨S500000x6, .f32⟩ : BufTy).Contents (Elt F) → (⟨S500000x6, .f32⟩ : BufTy).Contents (Elt F) → (⟨S500000x6, .f32⟩ : BufTy).Contents (Elt F)),
    StableHlo.binary main_v132 main_v123 main_v133 (subf : (⟨S500000x6, .f32⟩ : BufTy).Contents (Elt F) → (⟨S500000x6, .f32⟩ : BufTy).Contents (Elt F) → (⟨S500000x6, .f32⟩ : BufTy).Contents (Elt F)),
    StableHlo.nullary main_cst_13 (constant S_ .f32 0x40A00000#32),
    StableHlo.unary main_cst_13 main_v134 (broadcastInDim S500000x6 ![] bcast_S_S500000x6 : (⟨S_, .f32⟩ : BufTy).Contents (Elt F) → (⟨S500000x6, .f32⟩ : BufTy).Contents (Elt F)),
    StableHlo.binary main_v134 main_v121 main_v135 (Host.divf : (⟨S500000x6, .f32⟩ : BufTy).Contents (Elt F) → (⟨S500000x6, .f32⟩ : BufTy).Contents (Elt F) → (⟨S500000x6, .f32⟩ : BufTy).Contents (Elt F)),
    StableHlo.binary main_v135 main_v133 main_v136 (mulf : (⟨S500000x6, .f32⟩ : BufTy).Contents (Elt F) → (⟨S500000x6, .f32⟩ : BufTy).Contents (Elt F) → (⟨S500000x6, .f32⟩ : BufTy).Contents (Elt F)),
    StableHlo.binary main_v136 main_v129 main_v137 (subf : (⟨S500000x6, .f32⟩ : BufTy).Contents (Elt F) → (⟨S500000x6, .f32⟩ : BufTy).Contents (Elt F) → (⟨S500000x6, .f32⟩ : BufTy).Contents (Elt F)),
    StableHlo.nullary main_cst_14 (constant S_ .f32 0x40E00000#32),
    StableHlo.unary main_cst_14 main_v138 (broadcastInDim S500000x6 ![] bcast_S_S500000x6 : (⟨S_, .f32⟩ : BufTy).Contents (Elt F) → (⟨S500000x6, .f32⟩ : BufTy).Contents (Elt F)),
    StableHlo.binary main_v138 main_v121 main_v139 (Host.divf : (⟨S500000x6, .f32⟩ : BufTy).Contents (Elt F) → (⟨S500000x6, .f32⟩ : BufTy).Contents (Elt F) → (⟨S500000x6, .f32⟩ : BufTy).Contents (Elt F)),
    StableHlo.binary main_v139 main_v137 main_v140 (mulf : (⟨S500000x6, .f32⟩ : BufTy).Contents (Elt F) → (⟨S500000x6, .f32⟩ : BufTy).Contents (Elt F) → (⟨S500000x6, .f32⟩ : BufTy).Contents (Elt F)),
    StableHlo.binary main_v140 main_v133 main_v141 (subf : (⟨S500000x6, .f32⟩ : BufTy).Contents (Elt F) → (⟨S500000x6, .f32⟩ : BufTy).Contents (Elt F) → (⟨S500000x6, .f32⟩ : BufTy).Contents (Elt F)),
    StableHlo.unary main_v114 main_v142 (broadcastInDim S1x6 ![1] bcast_S6_S1x6_1 : (⟨S6, .f32⟩ : BufTy).Contents (Elt F) → (⟨S1x6, .f32⟩ : BufTy).Contents (Elt F)),
    StableHlo.unary main_v142 main_v143 (broadcastInDim S500000x6 ![0, 1] bcast_S1x6_S500000x6_0_1 : (⟨S1x6, .f32⟩ : BufTy).Contents (Elt F) → (⟨S500000x6, .f32⟩ : BufTy).Contents (Elt F)),
    StableHlo.binary main_v143 main_v141 main_v144 (mulf : (⟨S500000x6, .f32⟩ : BufTy).Contents (Elt F) → (⟨S500000x6, .f32⟩ : BufTy).Contents (Elt F) → (⟨S500000x6, .f32⟩ : BufTy).Contents (Elt F)),
    StableHlo.unary main_cst_0 main_v145 ((extractStridedSlice S1x6 ![5, 0] · slices_S7x6_S1x6_5_0) : (⟨S7x6, .f32⟩ : BufTy).Contents (Elt F) → (⟨S1x6, .f32⟩ : BufTy).Contents (Elt F)),
    StableHlo.reshape main_v145 main_v146 rfl shapeCasts_S1x6_S6,
    StableHlo.unary main_v1 main_v147 (broadcastInDim S500000x1 ![0] bcast_S500000_S500000x1_0 : (⟨S500000, .f32⟩ : BufTy).Contents (Elt F) → (⟨S500000x1, .f32⟩ : BufTy).Contents (Elt F)),
    StableHlo.unary main_cst main_v148 ((extractStridedSlice S1x6 ![5, 0] · slices_S7x6_S1x6_5_0) : (⟨S7x6, .f32⟩ : BufTy).Contents (Elt F) → (⟨S1x6, .f32⟩ : BufTy).Contents (Elt F)),
    StableHlo.reshape main_v148 main_v149 rfl shapeCasts_S1x6_S6,
    StableHlo.unary main_v149 main_v150 (broadcastInDim S1x6 ![1] bcast_S6_S1x6_1 : (⟨S6, .f32⟩ : BufTy).Contents (Elt F) → (⟨S1x6, .f32⟩ : BufTy).Contents (Elt F)),
    StableHlo.unary main_v147 main_v151 (broadcastInDim S500000x6 ![0, 1] bcast_S500000x1_S500000x6_0_1 : (⟨S500000x1, .f32⟩ : BufTy).Contents (Elt F) → (⟨S500000x6, .f32⟩ : BufTy).Contents (Elt F)),
    StableHlo.unary main_v150 main_v152 (broadcastInDim S500000x6 ![0, 1] bcast_S1x6_S500000x6_0_1 : (⟨S1x6, .f32⟩ : BufTy).Contents (Elt F) → (⟨S500000x6, .f32⟩ : BufTy).Contents (Elt F)),
    StableHlo.binary main_v151 main_v152 main_v153 (mulf : (⟨S500000x6, .f32⟩ : BufTy).Contents (Elt F) → (⟨S500000x6, .f32⟩ : BufTy).Contents (Elt F) → (⟨S500000x6, .f32⟩ : BufTy).Contents (Elt F)),
    StableHlo.unary main_v153 main_v154 (Host.sin : (⟨S500000x6, .f32⟩ : BufTy).Contents (Elt F) → (⟨S500000x6, .f32⟩ : BufTy).Contents (Elt F)),
    StableHlo.binary main_v154 main_v153 main_v155 (Host.divf : (⟨S500000x6, .f32⟩ : BufTy).Contents (Elt F) → (⟨S500000x6, .f32⟩ : BufTy).Contents (Elt F) → (⟨S500000x6, .f32⟩ : BufTy).Contents (Elt F)),
    StableHlo.unary main_v153 main_v156 (Host.sin : (⟨S500000x6, .f32⟩ : BufTy).Contents (Elt F) → (⟨S500000x6, .f32⟩ : BufTy).Contents (Elt F)),
    StableHlo.binary main_v153 main_v153 main_v157 (mulf : (⟨S500000x6, .f32⟩ : BufTy).Contents (Elt F) → (⟨S500000x6, .f32⟩ : BufTy).Contents (Elt F) → (⟨S500000x6, .f32⟩ : BufTy).Contents (Elt F)),
    StableHlo.binary main_v156 main_v157 main_v158 (Host.divf : (⟨S500000x6, .f32⟩ : BufTy).Contents (Elt F) → (⟨S500000x6, .f32⟩ : BufTy).Contents (Elt F) → (⟨S500000x6, .f32⟩ : BufTy).Contents (Elt F)),
    StableHlo.unary main_v153 main_v159 (Host.cos : (⟨S500000x6, .f32⟩ : BufTy).Contents (Elt F) → (⟨S500000x6, .f32⟩ : BufTy).Contents (Elt F)),
    StableHlo.binary main_v159 main_v153 main_v160 (Host.divf : (⟨S500000x6, .f32⟩ : BufTy).Contents (Elt F) → (⟨S500000x6, .f32⟩ : BufTy).Contents (Elt F) → (⟨S500000x6, .f32⟩ : BufTy).Contents (Elt F)),
    StableHlo.binary main_v158 main_v160 main_v161 (subf : (⟨S500000x6, .f32⟩ : BufTy).Contents (Elt F) → (⟨S500000x6, .f32⟩ : BufTy).Contents (Elt F) → (⟨S500000x6, .f32⟩ : BufTy).Contents (Elt F)),
    StableHlo.nullary main_cst_15 (constant S_ .f32 0x40400000#32),
    StableHlo.unary main_cst_15 main_v162 (broadcastInDim S500000x6 ![] bcast_S_S500000x6 : (⟨S_, .f32⟩ : BufTy).Contents (Elt F) → (⟨S500000x6, .f32⟩ : BufTy).Contents (Elt F)) ]

theorem ops2_sub : (ops2 : List (HloOp τ sig (Elt F))).Forall fun op => op.bufs ⊆ tcRefs τ sig :=
  ⟨binary_bufs_sub .., binary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub ..⟩

/-- Window 3 of @main: its 60 operations, in order. -/
abbrev ops3 : List (HloOp τ sig (Elt F)) :=
  [ StableHlo.binary main_v162 main_v153 main_v163 (Host.divf : (⟨S500000x6, .f32⟩ : BufTy).Contents (Elt F) → (⟨S500000x6, .f32⟩ : BufTy).Contents (Elt F) → (⟨S500000x6, .f32⟩ : BufTy).Contents (Elt F)),
    StableHlo.binary main_v163 main_v161 main_v164 (mulf : (⟨S500000x6, .f32⟩ : BufTy).Contents (Elt F) → (⟨S500000x6, .f32⟩ : BufTy).Contents (Elt F) → (⟨S500000x6, .f32⟩ : BufTy).Contents (Elt F)),
    StableHlo.binary main_v164 main_v155 main_v165 (subf : (⟨S500000x6, .f32⟩ : BufTy).Contents (Elt F) → (⟨S500000x6, .f32⟩ : BufTy).Contents (Elt F) → (⟨S500000x6, .f32⟩ : BufTy).Contents (Elt F)),
    StableHlo.nullary main_cst_16 (constant S_ .f32 0x40A00000#32),
    StableHlo.unary main_cst_16 main_v166 (broadcastInDim S500000x6 ![] bcast_S_S500000x6 : (⟨S_, .f32⟩ : BufTy).Contents (Elt F) → (⟨S500000x6, .f32⟩ : BufTy).Contents (Elt F)),
    StableHlo.binary main_v166 main_v153 main_v167 (Host.divf : (⟨S500000x6, .f32⟩ : BufTy).Contents (Elt F) → (⟨S500000x6, .f32⟩ : BufTy).Contents (Elt F) → (⟨S500000x6, .f32⟩ : BufTy).Contents (Elt F)),
    StableHlo.binary main_v167 main_v165 main_v168 (mulf : (⟨S500000x6, .f32⟩ : BufTy).Contents (Elt F) → (⟨S500000x6, .f32⟩ : BufTy).Contents (Elt F) → (⟨S500000x6, .f32⟩ : BufTy).Contents (Elt F)),
    StableHlo.binary main_v168 main_v161 main_v169 (subf : (⟨S500000x6, .f32⟩ : BufTy).Contents (Elt F) → (⟨S500000x6, .f32⟩ : BufTy).Contents (Elt F) → (⟨S500000x6, .f32⟩ : BufTy).Contents (Elt F)),
    StableHlo.nullary main_cst_17 (constant S_ .f32 0x40E00000#32),
    StableHlo.unary main_cst_17 main_v170 (broadcastInDim S500000x6 ![] bcast_S_S500000x6 : (⟨S_, .f32⟩ : BufTy).Contents (Elt F) → (⟨S500000x6, .f32⟩ : BufTy).Contents (Elt F)),
    StableHlo.binary main_v170 main_v153 main_v171 (Host.divf : (⟨S500000x6, .f32⟩ : BufTy).Contents (Elt F) → (⟨S500000x6, .f32⟩ : BufTy).Contents (Elt F) → (⟨S500000x6, .f32⟩ : BufTy).Contents (Elt F)),
    StableHlo.binary main_v171 main_v169 main_v172 (mulf : (⟨S500000x6, .f32⟩ : BufTy).Contents (Elt F) → (⟨S500000x6, .f32⟩ : BufTy).Contents (Elt F) → (⟨S500000x6, .f32⟩ : BufTy).Contents (Elt F)),
    StableHlo.binary main_v172 main_v165 main_v173 (subf : (⟨S500000x6, .f32⟩ : BufTy).Contents (Elt F) → (⟨S500000x6, .f32⟩ : BufTy).Contents (Elt F) → (⟨S500000x6, .f32⟩ : BufTy).Contents (Elt F)),
    StableHlo.nullary main_cst_18 (constant S_ .f32 0x41100000#32),
    StableHlo.unary main_cst_18 main_v174 (broadcastInDim S500000x6 ![] bcast_S_S500000x6 : (⟨S_, .f32⟩ : BufTy).Contents (Elt F) → (⟨S500000x6, .f32⟩ : BufTy).Contents (Elt F)),
    StableHlo.binary main_v174 main_v153 main_v175 (Host.divf : (⟨S500000x6, .f32⟩ : BufTy).Contents (Elt F) → (⟨S500000x6, .f32⟩ : BufTy).Contents (Elt F) → (⟨S500000x6, .f32⟩ : BufTy).Contents (Elt F)),
    StableHlo.binary main_v175 main_v173 main_v176 (mulf : (⟨S500000x6, .f32⟩ : BufTy).Contents (Elt F) → (⟨S500000x6, .f32⟩ : BufTy).Contents (Elt F) → (⟨S500000x6, .f32⟩ : BufTy).Contents (Elt F)),
    StableHlo.binary main_v176 main_v169 main_v177 (subf : (⟨S500000x6, .f32⟩ : BufTy).Contents (Elt F) → (⟨S500000x6, .f32⟩ : BufTy).Contents (Elt F) → (⟨S500000x6, .f32⟩ : BufTy).Contents (Elt F)),
    StableHlo.unary main_v146 main_v178 (broadcastInDim S1x6 ![1] bcast_S6_S1x6_1 : (⟨S6, .f32⟩ : BufTy).Contents (Elt F) → (⟨S1x6, .f32⟩ : BufTy).Contents (Elt F)),
    StableHlo.unary main_v178 main_v179 (broadcastInDim S500000x6 ![0, 1] bcast_S1x6_S500000x6_0_1 : (⟨S1x6, .f32⟩ : BufTy).Contents (Elt F) → (⟨S500000x6, .f32⟩ : BufTy).Contents (Elt F)),
    StableHlo.binary main_v179 main_v177 main_v180 (mulf : (⟨S500000x6, .f32⟩ : BufTy).Contents (Elt F) → (⟨S500000x6, .f32⟩ : BufTy).Contents (Elt F) → (⟨S500000x6, .f32⟩ : BufTy).Contents (Elt F)),
    StableHlo.unary main_cst_0 main_v181 ((extractStridedSlice S1x6 ![6, 0] · slices_S7x6_S1x6_6_0) : (⟨S7x6, .f32⟩ : BufTy).Contents (Elt F) → (⟨S1x6, .f32⟩ : BufTy).Contents (Elt F)),
    StableHlo.reshape main_v181 main_v182 rfl shapeCasts_S1x6_S6,
    StableHlo.unary main_v1 main_v183 (broadcastInDim S500000x1 ![0] bcast_S500000_S500000x1_0 : (⟨S500000, .f32⟩ : BufTy).Contents (Elt F) → (⟨S500000x1, .f32⟩ : BufTy).Contents (Elt F)),
    StableHlo.unary main_cst main_v184 ((extractStridedSlice S1x6 ![6, 0] · slices_S7x6_S1x6_6_0) : (⟨S7x6, .f32⟩ : BufTy).Contents (Elt F) → (⟨S1x6, .f32⟩ : BufTy).Contents (Elt F)),
    StableHlo.reshape main_v184 main_v185 rfl shapeCasts_S1x6_S6,
    StableHlo.unary main_v185 main_v186 (broadcastInDim S1x6 ![1] bcast_S6_S1x6_1 : (⟨S6, .f32⟩ : BufTy).Contents (Elt F) → (⟨S1x6, .f32⟩ : BufTy).Contents (Elt F)),
    StableHlo.unary main_v183 main_v187 (broadcastInDim S500000x6 ![0, 1] bcast_S500000x1_S500000x6_0_1 : (⟨S500000x1, .f32⟩ : BufTy).Contents (Elt F) → (⟨S500000x6, .f32⟩ : BufTy).Contents (Elt F)),
    StableHlo.unary main_v186 main_v188 (broadcastInDim S500000x6 ![0, 1] bcast_S1x6_S500000x6_0_1 : (⟨S1x6, .f32⟩ : BufTy).Contents (Elt F) → (⟨S500000x6, .f32⟩ : BufTy).Contents (Elt F)),
    StableHlo.binary main_v187 main_v188 main_v189 (mulf : (⟨S500000x6, .f32⟩ : BufTy).Contents (Elt F) → (⟨S500000x6, .f32⟩ : BufTy).Contents (Elt F) → (⟨S500000x6, .f32⟩ : BufTy).Contents (Elt F)),
    StableHlo.unary main_v189 main_v190 (Host.sin : (⟨S500000x6, .f32⟩ : BufTy).Contents (Elt F) → (⟨S500000x6, .f32⟩ : BufTy).Contents (Elt F)),
    StableHlo.binary main_v190 main_v189 main_v191 (Host.divf : (⟨S500000x6, .f32⟩ : BufTy).Contents (Elt F) → (⟨S500000x6, .f32⟩ : BufTy).Contents (Elt F) → (⟨S500000x6, .f32⟩ : BufTy).Contents (Elt F)),
    StableHlo.unary main_v189 main_v192 (Host.sin : (⟨S500000x6, .f32⟩ : BufTy).Contents (Elt F) → (⟨S500000x6, .f32⟩ : BufTy).Contents (Elt F)),
    StableHlo.binary main_v189 main_v189 main_v193 (mulf : (⟨S500000x6, .f32⟩ : BufTy).Contents (Elt F) → (⟨S500000x6, .f32⟩ : BufTy).Contents (Elt F) → (⟨S500000x6, .f32⟩ : BufTy).Contents (Elt F)),
    StableHlo.binary main_v192 main_v193 main_v194 (Host.divf : (⟨S500000x6, .f32⟩ : BufTy).Contents (Elt F) → (⟨S500000x6, .f32⟩ : BufTy).Contents (Elt F) → (⟨S500000x6, .f32⟩ : BufTy).Contents (Elt F)),
    StableHlo.unary main_v189 main_v195 (Host.cos : (⟨S500000x6, .f32⟩ : BufTy).Contents (Elt F) → (⟨S500000x6, .f32⟩ : BufTy).Contents (Elt F)),
    StableHlo.binary main_v195 main_v189 main_v196 (Host.divf : (⟨S500000x6, .f32⟩ : BufTy).Contents (Elt F) → (⟨S500000x6, .f32⟩ : BufTy).Contents (Elt F) → (⟨S500000x6, .f32⟩ : BufTy).Contents (Elt F)),
    StableHlo.binary main_v194 main_v196 main_v197 (subf : (⟨S500000x6, .f32⟩ : BufTy).Contents (Elt F) → (⟨S500000x6, .f32⟩ : BufTy).Contents (Elt F) → (⟨S500000x6, .f32⟩ : BufTy).Contents (Elt F)),
    StableHlo.nullary main_cst_19 (constant S_ .f32 0x40400000#32),
    StableHlo.unary main_cst_19 main_v198 (broadcastInDim S500000x6 ![] bcast_S_S500000x6 : (⟨S_, .f32⟩ : BufTy).Contents (Elt F) → (⟨S500000x6, .f32⟩ : BufTy).Contents (Elt F)),
    StableHlo.binary main_v198 main_v189 main_v199 (Host.divf : (⟨S500000x6, .f32⟩ : BufTy).Contents (Elt F) → (⟨S500000x6, .f32⟩ : BufTy).Contents (Elt F) → (⟨S500000x6, .f32⟩ : BufTy).Contents (Elt F)),
    StableHlo.binary main_v199 main_v197 main_v200 (mulf : (⟨S500000x6, .f32⟩ : BufTy).Contents (Elt F) → (⟨S500000x6, .f32⟩ : BufTy).Contents (Elt F) → (⟨S500000x6, .f32⟩ : BufTy).Contents (Elt F)),
    StableHlo.binary main_v200 main_v191 main_v201 (subf : (⟨S500000x6, .f32⟩ : BufTy).Contents (Elt F) → (⟨S500000x6, .f32⟩ : BufTy).Contents (Elt F) → (⟨S500000x6, .f32⟩ : BufTy).Contents (Elt F)),
    StableHlo.nullary main_cst_20 (constant S_ .f32 0x40A00000#32),
    StableHlo.unary main_cst_20 main_v202 (broadcastInDim S500000x6 ![] bcast_S_S500000x6 : (⟨S_, .f32⟩ : BufTy).Contents (Elt F) → (⟨S500000x6, .f32⟩ : BufTy).Contents (Elt F)),
    StableHlo.binary main_v202 main_v189 main_v203 (Host.divf : (⟨S500000x6, .f32⟩ : BufTy).Contents (Elt F) → (⟨S500000x6, .f32⟩ : BufTy).Contents (Elt F) → (⟨S500000x6, .f32⟩ : BufTy).Contents (Elt F)),
    StableHlo.binary main_v203 main_v201 main_v204 (mulf : (⟨S500000x6, .f32⟩ : BufTy).Contents (Elt F) → (⟨S500000x6, .f32⟩ : BufTy).Contents (Elt F) → (⟨S500000x6, .f32⟩ : BufTy).Contents (Elt F)),
    StableHlo.binary main_v204 main_v197 main_v205 (subf : (⟨S500000x6, .f32⟩ : BufTy).Contents (Elt F) → (⟨S500000x6, .f32⟩ : BufTy).Contents (Elt F) → (⟨S500000x6, .f32⟩ : BufTy).Contents (Elt F)),
    StableHlo.nullary main_cst_21 (constant S_ .f32 0x40E00000#32),
    StableHlo.unary main_cst_21 main_v206 (broadcastInDim S500000x6 ![] bcast_S_S500000x6 : (⟨S_, .f32⟩ : BufTy).Contents (Elt F) → (⟨S500000x6, .f32⟩ : BufTy).Contents (Elt F)),
    StableHlo.binary main_v206 main_v189 main_v207 (Host.divf : (⟨S500000x6, .f32⟩ : BufTy).Contents (Elt F) → (⟨S500000x6, .f32⟩ : BufTy).Contents (Elt F) → (⟨S500000x6, .f32⟩ : BufTy).Contents (Elt F)),
    StableHlo.binary main_v207 main_v205 main_v208 (mulf : (⟨S500000x6, .f32⟩ : BufTy).Contents (Elt F) → (⟨S500000x6, .f32⟩ : BufTy).Contents (Elt F) → (⟨S500000x6, .f32⟩ : BufTy).Contents (Elt F)),
    StableHlo.binary main_v208 main_v201 main_v209 (subf : (⟨S500000x6, .f32⟩ : BufTy).Contents (Elt F) → (⟨S500000x6, .f32⟩ : BufTy).Contents (Elt F) → (⟨S500000x6, .f32⟩ : BufTy).Contents (Elt F)),
    StableHlo.nullary main_cst_22 (constant S_ .f32 0x41100000#32),
    StableHlo.unary main_cst_22 main_v210 (broadcastInDim S500000x6 ![] bcast_S_S500000x6 : (⟨S_, .f32⟩ : BufTy).Contents (Elt F) → (⟨S500000x6, .f32⟩ : BufTy).Contents (Elt F)),
    StableHlo.binary main_v210 main_v189 main_v211 (Host.divf : (⟨S500000x6, .f32⟩ : BufTy).Contents (Elt F) → (⟨S500000x6, .f32⟩ : BufTy).Contents (Elt F) → (⟨S500000x6, .f32⟩ : BufTy).Contents (Elt F)),
    StableHlo.binary main_v211 main_v209 main_v212 (mulf : (⟨S500000x6, .f32⟩ : BufTy).Contents (Elt F) → (⟨S500000x6, .f32⟩ : BufTy).Contents (Elt F) → (⟨S500000x6, .f32⟩ : BufTy).Contents (Elt F)),
    StableHlo.binary main_v212 main_v205 main_v213 (subf : (⟨S500000x6, .f32⟩ : BufTy).Contents (Elt F) → (⟨S500000x6, .f32⟩ : BufTy).Contents (Elt F) → (⟨S500000x6, .f32⟩ : BufTy).Contents (Elt F)),
    StableHlo.nullary main_cst_23 (constant S_ .f32 0x41300000#32),
    StableHlo.unary main_cst_23 main_v214 (broadcastInDim S500000x6 ![] bcast_S_S500000x6 : (⟨S_, .f32⟩ : BufTy).Contents (Elt F) → (⟨S500000x6, .f32⟩ : BufTy).Contents (Elt F)) ]

theorem ops3_sub : (ops3 : List (HloOp τ sig (Elt F))).Forall fun op => op.bufs ⊆ tcRefs τ sig :=
  ⟨binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub ..⟩

/-- Window 4 of @main: its 60 operations, in order. -/
abbrev ops4 : List (HloOp τ sig (Elt F)) :=
  [ StableHlo.binary main_v214 main_v189 main_v215 (Host.divf : (⟨S500000x6, .f32⟩ : BufTy).Contents (Elt F) → (⟨S500000x6, .f32⟩ : BufTy).Contents (Elt F) → (⟨S500000x6, .f32⟩ : BufTy).Contents (Elt F)),
    StableHlo.binary main_v215 main_v213 main_v216 (mulf : (⟨S500000x6, .f32⟩ : BufTy).Contents (Elt F) → (⟨S500000x6, .f32⟩ : BufTy).Contents (Elt F) → (⟨S500000x6, .f32⟩ : BufTy).Contents (Elt F)),
    StableHlo.binary main_v216 main_v209 main_v217 (subf : (⟨S500000x6, .f32⟩ : BufTy).Contents (Elt F) → (⟨S500000x6, .f32⟩ : BufTy).Contents (Elt F) → (⟨S500000x6, .f32⟩ : BufTy).Contents (Elt F)),
    StableHlo.unary main_v182 main_v218 (broadcastInDim S1x6 ![1] bcast_S6_S1x6_1 : (⟨S6, .f32⟩ : BufTy).Contents (Elt F) → (⟨S1x6, .f32⟩ : BufTy).Contents (Elt F)),
    StableHlo.unary main_v218 main_v219 (broadcastInDim S500000x6 ![0, 1] bcast_S1x6_S500000x6_0_1 : (⟨S1x6, .f32⟩ : BufTy).Contents (Elt F) → (⟨S500000x6, .f32⟩ : BufTy).Contents (Elt F)),
    StableHlo.binary main_v219 main_v217 main_v220 (mulf : (⟨S500000x6, .f32⟩ : BufTy).Contents (Elt F) → (⟨S500000x6, .f32⟩ : BufTy).Contents (Elt F) → (⟨S500000x6, .f32⟩ : BufTy).Contents (Elt F)),
    StableHlo.unary main_v40 main_v221 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v60 main_v222 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v84 main_v223 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v112 main_v224 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v144 main_v225 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v180 main_v226 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v220 main_v227 (broadcastInDim S500000x1x6 ![0, 2] bcast_S500000x6_S500000x1x6_0_2 : (⟨S500000x6, .f32⟩ : BufTy).Contents (Elt F) → (⟨S500000x1x6, .f32⟩ : BufTy).Contents (Elt F)),
    StableHlo.nary ![main_v221, main_v222, main_v223, main_v224, main_v225, main_v226, main_v227] main_v228 (fun u => concatenate S500000x7x6 1 [⟨S500000x1x6, u 0⟩, ⟨S500000x1x6, u 1⟩, ⟨S500000x1x6, u 2⟩, ⟨S500000x1x6, u 3⟩, ⟨S500000x1x6, u 4⟩, ⟨S500000x1x6, u 5⟩, ⟨S500000x1x6, u 6⟩] concatenates_S500000x1x6_S500000x1x6_S500000x1x6_S500000x1x6_S500000x1x6_S500000x1x6_S500000x1x6_S500000x7x6_d1),
    StableHlo.nullary main_cst_24 (constant S_ .f32 0x3DB72DBF#32),
    StableHlo.unary main_cst_24 main_v229 (broadcastInDim S500000 ![] bcast_S_S500000 : (⟨S_, .f32⟩ : BufTy).Contents (Elt F) → (⟨S500000, .f32⟩ : BufTy).Contents (Elt F)),
    StableHlo.binary main_v26 main_v229 main_v230 (mulf : (⟨S500000, .f32⟩ : BufTy).Contents (Elt F) → (⟨S500000, .f32⟩ : BufTy).Contents (Elt F) → (⟨S500000, .f32⟩ : BufTy).Contents (Elt F)),
    StableHlo.unary main_v230 main_v231 (broadcastInDim S500000x1x1 ![0] bcast_S500000_S500000x1x1_0 : (⟨S500000, .f32⟩ : BufTy).Contents (Elt F) → (⟨S500000x1x1, .f32⟩ : BufTy).Contents (Elt F)),
    StableHlo.unary main_v231 main_v232 (broadcastInDim S500000x7x6 ![0, 1, 2] bcast_S500000x1x1_S500000x7x6_0_1_2 : (⟨S500000x1x1, .f32⟩ : BufTy).Contents (Elt F) → (⟨S500000x7x6, .f32⟩ : BufTy).Contents (Elt F)),
    StableHlo.binary main_v232 main_v228 main_v233 (mulf : (⟨S500000x7x6, .f32⟩ : BufTy).Contents (Elt F) → (⟨S500000x7x6, .f32⟩ : BufTy).Contents (Elt F) → (⟨S500000x7x6, .f32⟩ : BufTy).Contents (Elt F)),
    StableHlo.unary main_arg1 main_v234 (Host.cos : (⟨S2000000, .f32⟩ : BufTy).Contents (Elt F) → (⟨S2000000, .f32⟩ : BufTy).Contents (Elt F)),
    StableHlo.nullary main_cst_25 (constant S_ .f32 0x3F800000#32),
    StableHlo.unary main_cst_25 main_v235 (broadcastInDim S2000000 ![] bcast_S_S2000000 : (⟨S_, .f32⟩ : BufTy).Contents (Elt F) → (⟨S2000000, .f32⟩ : BufTy).Contents (Elt F)),
    StableHlo.nullary main_cst_26 (constant S_ .f32 0x40400000#32),
    StableHlo.unary main_cst_26 main_v236 (broadcastInDim S2000000 ![] bcast_S_S2000000 : (⟨S_, .f32⟩ : BufTy).Contents (Elt F) → (⟨S2000000, .f32⟩ : BufTy).Contents (Elt F)),
    StableHlo.binary main_v236 main_v234 main_v237 (mulf : (⟨S2000000, .f32⟩ : BufTy).Contents (Elt F) → (⟨S2000000, .f32⟩ : BufTy).Contents (Elt F) → (⟨S2000000, .f32⟩ : BufTy).Contents (Elt F)),
    StableHlo.binary main_v237 main_v234 main_v238 (mulf : (⟨S2000000, .f32⟩ : BufTy).Contents (Elt F) → (⟨S2000000, .f32⟩ : BufTy).Contents (Elt F) → (⟨S2000000, .f32⟩ : BufTy).Contents (Elt F)),
    StableHlo.nullary main_cst_27 (constant S_ .f32 0x3F800000#32),
    StableHlo.unary main_cst_27 main_v239 (broadcastInDim S2000000 ![] bcast_S_S2000000 : (⟨S_, .f32⟩ : BufTy).Contents (Elt F) → (⟨S2000000, .f32⟩ : BufTy).Contents (Elt F)),
    StableHlo.binary main_v239 main_v235 main_v240 (mulf : (⟨S2000000, .f32⟩ : BufTy).Contents (Elt F) → (⟨S2000000, .f32⟩ : BufTy).Contents (Elt F) → (⟨S2000000, .f32⟩ : BufTy).Contents (Elt F)),
    StableHlo.binary main_v238 main_v240 main_v241 (subf : (⟨S2000000, .f32⟩ : BufTy).Contents (Elt F) → (⟨S2000000, .f32⟩ : BufTy).Contents (Elt F) → (⟨S2000000, .f32⟩ : BufTy).Contents (Elt F)),
    StableHlo.nullary main_cst_28 (constant S_ .f32 0x40000000#32),
    StableHlo.unary main_cst_28 main_v242 (broadcastInDim S2000000 ![] bcast_S_S2000000 : (⟨S_, .f32⟩ : BufTy).Contents (Elt F) → (⟨S2000000, .f32⟩ : BufTy).Contents (Elt F)),
    StableHlo.binary main_v241 main_v242 main_v243 (Host.divf : (⟨S2000000, .f32⟩ : BufTy).Contents (Elt F) → (⟨S2000000, .f32⟩ : BufTy).Contents (Elt F) → (⟨S2000000, .f32⟩ : BufTy).Contents (Elt F)),
    StableHlo.nullary main_cst_29 (constant S_ .f32 0x40A00000#32),
    StableHlo.unary main_cst_29 main_v244 (broadcastInDim S2000000 ![] bcast_S_S2000000 : (⟨S_, .f32⟩ : BufTy).Contents (Elt F) → (⟨S2000000, .f32⟩ : BufTy).Contents (Elt F)),
    StableHlo.binary main_v244 main_v234 main_v245 (mulf : (⟨S2000000, .f32⟩ : BufTy).Contents (Elt F) → (⟨S2000000, .f32⟩ : BufTy).Contents (Elt F) → (⟨S2000000, .f32⟩ : BufTy).Contents (Elt F)),
    StableHlo.binary main_v245 main_v243 main_v246 (mulf : (⟨S2000000, .f32⟩ : BufTy).Contents (Elt F) → (⟨S2000000, .f32⟩ : BufTy).Contents (Elt F) → (⟨S2000000, .f32⟩ : BufTy).Contents (Elt F)),
    StableHlo.nullary main_cst_30 (constant S_ .f32 0x40000000#32),
    StableHlo.unary main_cst_30 main_v247 (broadcastInDim S2000000 ![] bcast_S_S2000000 : (⟨S_, .f32⟩ : BufTy).Contents (Elt F) → (⟨S2000000, .f32⟩ : BufTy).Contents (Elt F)),
    StableHlo.binary main_v247 main_v234 main_v248 (mulf : (⟨S2000000, .f32⟩ : BufTy).Contents (Elt F) → (⟨S2000000, .f32⟩ : BufTy).Contents (Elt F) → (⟨S2000000, .f32⟩ : BufTy).Contents (Elt F)),
    StableHlo.binary main_v246 main_v248 main_v249 (subf : (⟨S2000000, .f32⟩ : BufTy).Contents (Elt F) → (⟨S2000000, .f32⟩ : BufTy).Contents (Elt F) → (⟨S2000000, .f32⟩ : BufTy).Contents (Elt F)),
    StableHlo.nullary main_cst_31 (constant S_ .f32 0x40400000#32),
    StableHlo.unary main_cst_31 main_v250 (broadcastInDim S2000000 ![] bcast_S_S2000000 : (⟨S_, .f32⟩ : BufTy).Contents (Elt F) → (⟨S2000000, .f32⟩ : BufTy).Contents (Elt F)),
    StableHlo.binary main_v249 main_v250 main_v251 (Host.divf : (⟨S2000000, .f32⟩ : BufTy).Contents (Elt F) → (⟨S2000000, .f32⟩ : BufTy).Contents (Elt F) → (⟨S2000000, .f32⟩ : BufTy).Contents (Elt F)),
    StableHlo.nullary main_cst_32 (constant S_ .f32 0x40E00000#32),
    StableHlo.unary main_cst_32 main_v252 (broadcastInDim S2000000 ![] bcast_S_S2000000 : (⟨S_, .f32⟩ : BufTy).Contents (Elt F) → (⟨S2000000, .f32⟩ : BufTy).Contents (Elt F)),
    StableHlo.binary main_v252 main_v234 main_v253 (mulf : (⟨S2000000, .f32⟩ : BufTy).Contents (Elt F) → (⟨S2000000, .f32⟩ : BufTy).Contents (Elt F) → (⟨S2000000, .f32⟩ : BufTy).Contents (Elt F)),
    StableHlo.binary main_v253 main_v251 main_v254 (mulf : (⟨S2000000, .f32⟩ : BufTy).Contents (Elt F) → (⟨S2000000, .f32⟩ : BufTy).Contents (Elt F) → (⟨S2000000, .f32⟩ : BufTy).Contents (Elt F)),
    StableHlo.nullary main_cst_33 (constant S_ .f32 0x40400000#32),
    StableHlo.unary main_cst_33 main_v255 (broadcastInDim S2000000 ![] bcast_S_S2000000 : (⟨S_, .f32⟩ : BufTy).Contents (Elt F) → (⟨S2000000, .f32⟩ : BufTy).Contents (Elt F)),
    StableHlo.binary main_v255 main_v243 main_v256 (mulf : (⟨S2000000, .f32⟩ : BufTy).Contents (Elt F) → (⟨S2000000, .f32⟩ : BufTy).Contents (Elt F) → (⟨S2000000, .f32⟩ : BufTy).Contents (Elt F)),
    StableHlo.binary main_v254 main_v256 main_v257 (subf : (⟨S2000000, .f32⟩ : BufTy).Contents (Elt F) → (⟨S2000000, .f32⟩ : BufTy).Contents (Elt F) → (⟨S2000000, .f32⟩ : BufTy).Contents (Elt F)),
    StableHlo.nullary main_cst_34 (constant S_ .f32 0x40800000#32),
    StableHlo.unary main_cst_34 main_v258 (broadcastInDim S2000000 ![] bcast_S_S2000000 : (⟨S_, .f32⟩ : BufTy).Contents (Elt F) → (⟨S2000000, .f32⟩ : BufTy).Contents (Elt F)),
    StableHlo.binary main_v257 main_v258 main_v259 (Host.divf : (⟨S2000000, .f32⟩ : BufTy).Contents (Elt F) → (⟨S2000000, .f32⟩ : BufTy).Contents (Elt F) → (⟨S2000000, .f32⟩ : BufTy).Contents (Elt F)),
    StableHlo.nullary main_cst_35 (constant S_ .f32 0x41100000#32),
    StableHlo.unary main_cst_35 main_v260 (broadcastInDim S2000000 ![] bcast_S_S2000000 : (⟨S_, .f32⟩ : BufTy).Contents (Elt F) → (⟨S2000000, .f32⟩ : BufTy).Contents (Elt F)),
    StableHlo.binary main_v260 main_v234 main_v261 (mulf : (⟨S2000000, .f32⟩ : BufTy).Contents (Elt F) → (⟨S2000000, .f32⟩ : BufTy).Contents (Elt F) → (⟨S2000000, .f32⟩ : BufTy).Contents (Elt F)),
    StableHlo.binary main_v261 main_v259 main_v262 (mulf : (⟨S2000000, .f32⟩ : BufTy).Contents (Elt F) → (⟨S2000000, .f32⟩ : BufTy).Contents (Elt F) → (⟨S2000000, .f32⟩ : BufTy).Contents (Elt F)) ]

theorem ops4_sub : (ops4 : List (HloOp τ sig (Elt F))).Forall fun op => op.bufs ⊆ tcRefs τ sig :=
  ⟨binary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., unary_bufs_sub .., nary_bufs_sub .., nullary_bufs_sub .., unary_bufs_sub .., binary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩

/-- Window 5 of @main: its 60 operations, in order. -/
abbrev ops5 : List (HloOp τ sig (Elt F)) :=
  [ StableHlo.nullary main_cst_36 (constant S_ .f32 0x40800000#32),
    StableHlo.unary main_cst_36 main_v263 (broadcastInDim S2000000 ![] bcast_S_S2000000 : (⟨S_, .f32⟩ : BufTy).Contents (Elt F) → (⟨S2000000, .f32⟩ : BufTy).Contents (Elt F)),
    StableHlo.binary main_v263 main_v251 main_v264 (mulf : (⟨S2000000, .f32⟩ : BufTy).Contents (Elt F) → (⟨S2000000, .f32⟩ : BufTy).Contents (Elt F) → (⟨S2000000, .f32⟩ : BufTy).Contents (Elt F)),
    StableHlo.binary main_v262 main_v264 main_v265 (subf : (⟨S2000000, .f32⟩ : BufTy).Contents (Elt F) → (⟨S2000000, .f32⟩ : BufTy).Contents (Elt F) → (⟨S2000000, .f32⟩ : BufTy).Contents (Elt F)),
    StableHlo.nullary main_cst_37 (constant S_ .f32 0x40A00000#32),
    StableHlo.unary main_cst_37 main_v266 (broadcastInDim S2000000 ![] bcast_S_S2000000 : (⟨S_, .f32⟩ : BufTy).Contents (Elt F) → (⟨S2000000, .f32⟩ : BufTy).Contents (Elt F)),
    StableHlo.binary main_v265 main_v266 main_v267 (Host.divf : (⟨S2000000, .f32⟩ : BufTy).Contents (Elt F) → (⟨S2000000, .f32⟩ : BufTy).Contents (Elt F) → (⟨S2000000, .f32⟩ : BufTy).Contents (Elt F)),
    StableHlo.nullary main_cst_38 (constant S_ .f32 0x41300000#32),
    StableHlo.unary main_cst_38 main_v268 (broadcastInDim S2000000 ![] bcast_S_S2000000 : (⟨S_, .f32⟩ : BufTy).Contents (Elt F) → (⟨S2000000, .f32⟩ : BufTy).Contents (Elt F)),
    StableHlo.binary main_v268 main_v234 main_v269 (mulf : (⟨S2000000, .f32⟩ : BufTy).Contents (Elt F) → (⟨S2000000, .f32⟩ : BufTy).Contents (Elt F) → (⟨S2000000, .f32⟩ : BufTy).Contents (Elt F)),
    StableHlo.binary main_v269 main_v267 main_v270 (mulf : (⟨S2000000, .f32⟩ : BufTy).Contents (Elt F) → (⟨S2000000, .f32⟩ : BufTy).Contents (Elt F) → (⟨S2000000, .f32⟩ : BufTy).Contents (Elt F)),
    StableHlo.nullary main_cst_39 (constant S_ .f32 0x40A00000#32),
    StableHlo.unary main_cst_39 main_v271 (broadcastInDim S2000000 ![] bcast_S_S2000000 : (⟨S_, .f32⟩ : BufTy).Contents (Elt F) → (⟨S2000000, .f32⟩ : BufTy).Contents (Elt F)),
    StableHlo.binary main_v271 main_v259 main_v272 (mulf : (⟨S2000000, .f32⟩ : BufTy).Contents (Elt F) → (⟨S2000000, .f32⟩ : BufTy).Contents (Elt F) → (⟨S2000000, .f32⟩ : BufTy).Contents (Elt F)),
    StableHlo.binary main_v270 main_v272 main_v273 (subf : (⟨S2000000, .f32⟩ : BufTy).Contents (Elt F) → (⟨S2000000, .f32⟩ : BufTy).Contents (Elt F) → (⟨S2000000, .f32⟩ : BufTy).Contents (Elt F)),
    StableHlo.nullary main_cst_40 (constant S_ .f32 0x40C00000#32),
    StableHlo.unary main_cst_40 main_v274 (broadcastInDim S2000000 ![] bcast_S_S2000000 : (⟨S_, .f32⟩ : BufTy).Contents (Elt F) → (⟨S2000000, .f32⟩ : BufTy).Contents (Elt F)),
    StableHlo.binary main_v273 main_v274 main_v275 (Host.divf : (⟨S2000000, .f32⟩ : BufTy).Contents (Elt F) → (⟨S2000000, .f32⟩ : BufTy).Contents (Elt F) → (⟨S2000000, .f32⟩ : BufTy).Contents (Elt F)),
    StableHlo.unary main_cst_1 main_v276 ((extractStridedSlice S1 ![0] · slices_S7_S1_0) : (⟨S7, .f32⟩ : BufTy).Contents (Elt F) → (⟨S1, .f32⟩ : BufTy).Contents (Elt F)),
    StableHlo.reshape main_v276 main_v277 rfl shapeCasts_S1_S_,
    StableHlo.unary main_v277 main_v278 (broadcastInDim S2000000 ![] bcast_S_S2000000 : (⟨S_, .f32⟩ : BufTy).Contents (Elt F) → (⟨S2000000, .f32⟩ : BufTy).Contents (Elt F)),
    StableHlo.binary main_v278 main_v235 main_v279 (mulf : (⟨S2000000, .f32⟩ : BufTy).Contents (Elt F) → (⟨S2000000, .f32⟩ : BufTy).Contents (Elt F) → (⟨S2000000, .f32⟩ : BufTy).Contents (Elt F)),
    StableHlo.unary main_cst_1 main_v280 ((extractStridedSlice S1 ![1] · slices_S7_S1_1) : (⟨S7, .f32⟩ : BufTy).Contents (Elt F) → (⟨S1, .f32⟩ : BufTy).Contents (Elt F)),
    StableHlo.reshape main_v280 main_v281 rfl shapeCasts_S1_S_,
    StableHlo.unary main_v281 main_v282 (broadcastInDim S2000000 ![] bcast_S_S2000000 : (⟨S_, .f32⟩ : BufTy).Contents (Elt F) → (⟨S2000000, .f32⟩ : BufTy).Contents (Elt F)),
    StableHlo.binary main_v282 main_v234 main_v283 (mulf : (⟨S2000000, .f32⟩ : BufTy).Contents (Elt F) → (⟨S2000000, .f32⟩ : BufTy).Contents (Elt F) → (⟨S2000000, .f32⟩ : BufTy).Contents (Elt F)),
    StableHlo.unary main_cst_1 main_v284 ((extractStridedSlice S1 ![2] · slices_S7_S1_2) : (⟨S7, .f32⟩ : BufTy).Contents (Elt F) → (⟨S1, .f32⟩ : BufTy).Contents (Elt F)),
    StableHlo.reshape main_v284 main_v285 rfl shapeCasts_S1_S_,
    StableHlo.unary main_v285 main_v286 (broadcastInDim S2000000 ![] bcast_S_S2000000 : (⟨S_, .f32⟩ : BufTy).Contents (Elt F) → (⟨S2000000, .f32⟩ : BufTy).Contents (Elt F)),
    StableHlo.binary main_v286 main_v243 main_v287 (mulf : (⟨S2000000, .f32⟩ : BufTy).Contents (Elt F) → (⟨S2000000, .f32⟩ : BufTy).Contents (Elt F) → (⟨S2000000, .f32⟩ : BufTy).Contents (Elt F)),
    StableHlo.unary main_cst_1 main_v288 ((extractStridedSlice S1 ![3] · slices_S7_S1_3) : (⟨S7, .f32⟩ : BufTy).Contents (Elt F) → (⟨S1, .f32⟩ : BufTy).Contents (Elt F)),
    StableHlo.reshape main_v288 main_v289 rfl shapeCasts_S1_S_,
    StableHlo.unary main_v289 main_v290 (broadcastInDim S2000000 ![] bcast_S_S2000000 : (⟨S_, .f32⟩ : BufTy).Contents (Elt F) → (⟨S2000000, .f32⟩ : BufTy).Contents (Elt F)),
    StableHlo.binary main_v290 main_v251 main_v291 (mulf : (⟨S2000000, .f32⟩ : BufTy).Contents (Elt F) → (⟨S2000000, .f32⟩ : BufTy).Contents (Elt F) → (⟨S2000000, .f32⟩ : BufTy).Contents (Elt F)),
    StableHlo.unary main_cst_1 main_v292 ((extractStridedSlice S1 ![4] · slices_S7_S1_4) : (⟨S7, .f32⟩ : BufTy).Contents (Elt F) → (⟨S1, .f32⟩ : BufTy).Contents (Elt F)),
    StableHlo.reshape main_v292 main_v293 rfl shapeCasts_S1_S_,
    StableHlo.unary main_v293 main_v294 (broadcastInDim S2000000 ![] bcast_S_S2000000 : (⟨S_, .f32⟩ : BufTy).Contents (Elt F) → (⟨S2000000, .f32⟩ : BufTy).Contents (Elt F)),
    StableHlo.binary main_v294 main_v259 main_v295 (mulf : (⟨S2000000, .f32⟩ : BufTy).Contents (Elt F) → (⟨S2000000, .f32⟩ : BufTy).Contents (Elt F) → (⟨S2000000, .f32⟩ : BufTy).Contents (Elt F)),
    StableHlo.unary main_cst_1 main_v296 ((extractStridedSlice S1 ![5] · slices_S7_S1_5) : (⟨S7, .f32⟩ : BufTy).Contents (Elt F) → (⟨S1, .f32⟩ : BufTy).Contents (Elt F)),
    StableHlo.reshape main_v296 main_v297 rfl shapeCasts_S1_S_,
    StableHlo.unary main_v297 main_v298 (broadcastInDim S2000000 ![] bcast_S_S2000000 : (⟨S_, .f32⟩ : BufTy).Contents (Elt F) → (⟨S2000000, .f32⟩ : BufTy).Contents (Elt F)),
    StableHlo.binary main_v298 main_v267 main_v299 (mulf : (⟨S2000000, .f32⟩ : BufTy).Contents (Elt F) → (⟨S2000000, .f32⟩ : BufTy).Contents (Elt F) → (⟨S2000000, .f32⟩ : BufTy).Contents (Elt F)),
    StableHlo.unary main_cst_1 main_v300 ((extractStridedSlice S1 ![6] · slices_S7_S1_6) : (⟨S7, .f32⟩ : BufTy).Contents (Elt F) → (⟨S1, .f32⟩ : BufTy).Contents (Elt F)),
    StableHlo.reshape main_v300 main_v301 rfl shapeCasts_S1_S_,
    StableHlo.unary main_v301 main_v302 (broadcastInDim S2000000 ![] bcast_S_S2000000 : (⟨S_, .f32⟩ : BufTy).Contents (Elt F) → (⟨S2000000, .f32⟩ : BufTy).Contents (Elt F)),
    StableHlo.binary main_v302 main_v275 main_v303 (mulf : (⟨S2000000, .f32⟩ : BufTy).Contents (Elt F) → (⟨S2000000, .f32⟩ : BufTy).Contents (Elt F) → (⟨S2000000, .f32⟩ : BufTy).Contents (Elt F)),
    StableHlo.unary main_v279 main_v304 (broadcastInDim S2000000x1 ![0] bcast_S2000000_S2000000x1_0 : (⟨S2000000, .f32⟩ : BufTy).Contents (Elt F) → (⟨S2000000x1, .f32⟩ : BufTy).Contents (Elt F)),
    StableHlo.unary main_v283 main_v305 (broadcastInDim S2000000x1 ![0] bcast_S2000000_S2000000x1_0 : (⟨S2000000, .f32⟩ : BufTy).Contents (Elt F) → (⟨S2000000x1, .f32⟩ : BufTy).Contents (Elt F)),
    StableHlo.unary main_v287 main_v306 (broadcastInDim S2000000x1 ![0] bcast_S2000000_S2000000x1_0 : (⟨S2000000, .f32⟩ : BufTy).Contents (Elt F) → (⟨S2000000x1, .f32⟩ : BufTy).Contents (Elt F)),
    StableHlo.unary main_v291 main_v307 (broadcastInDim S2000000x1 ![0] bcast_S2000000_S2000000x1_0 : (⟨S2000000, .f32⟩ : BufTy).Contents (Elt F) → (⟨S2000000x1, .f32⟩ : BufTy).Contents (Elt F)),
    StableHlo.unary main_v295 main_v308 (broadcastInDim S2000000x1 ![0] bcast_S2000000_S2000000x1_0 : (⟨S2000000, .f32⟩ : BufTy).Contents (Elt F) → (⟨S2000000x1, .f32⟩ : BufTy).Contents (Elt F)),
    StableHlo.unary main_v299 main_v309 (broadcastInDim S2000000x1 ![0] bcast_S2000000_S2000000x1_0 : (⟨S2000000, .f32⟩ : BufTy).Contents (Elt F) → (⟨S2000000x1, .f32⟩ : BufTy).Contents (Elt F)),
    StableHlo.unary main_v303 main_v310 (broadcastInDim S2000000x1 ![0] bcast_S2000000_S2000000x1_0 : (⟨S2000000, .f32⟩ : BufTy).Contents (Elt F) → (⟨S2000000x1, .f32⟩ : BufTy).Contents (Elt F)),
    StableHlo.nary ![main_v304, main_v305, main_v306, main_v307, main_v308, main_v309, main_v310] main_v311 (fun u => concatenate S2000000x7 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩] concatenates_S2000000x1_S2000000x1_S2000000x1_S2000000x1_S2000000x1_S2000000x1_S2000000x1_S2000000x7_d1),
    StableHlo.nullary main_c (constantI S_ 32 0#32),
    StableHlo.unary main_c main_v312 (broadcastInDim S2000000 ![] bcast_S_S2000000 : (⟨S_, .i32⟩ : BufTy).Contents (Elt F) → (⟨S2000000, .i32⟩ : BufTy).Contents (Elt F)),
    StableHlo.binary main_arg2 main_v312 main_v313 (cmpi .slt : (⟨S2000000, .i32⟩ : BufTy).Contents (Elt F) → (⟨S2000000, .i32⟩ : BufTy).Contents (Elt F) → (⟨S2000000, .i1⟩ : BufTy).Contents (Elt F)),
    StableHlo.nullary main_c_41 (constantI S_ 32 500000#32),
    StableHlo.unary main_c_41 main_v314 (broadcastInDim S2000000 ![] bcast_S_S2000000 : (⟨S_, .i32⟩ : BufTy).Contents (Elt F) → (⟨S2000000, .i32⟩ : BufTy).Contents (Elt F)),
    StableHlo.binary main_arg2 main_v314 main_v315 (addi : (⟨S2000000, .i32⟩ : BufTy).Contents (Elt F) → (⟨S2000000, .i32⟩ : BufTy).Contents (Elt F) → (⟨S2000000, .i32⟩ : BufTy).Contents (Elt F)) ]

theorem ops5_sub : (ops5 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., unary_bufs_sub .., unary_bufs_sub .., unary_bufs_sub .., unary_bufs_sub .., unary_bufs_sub .., unary_bufs_sub .., nary_bufs_sub .., nullary_bufs_sub .., unary_bufs_sub .., binary_bufs_sub .., nullary_bufs_sub .., unary_bufs_sub .., binary_bufs_sub ..⟩

/-- Window 6 of @main: its 7 operations, in order. -/
abbrev ops6 : List (HloOp τ sig (Elt F)) :=
  [ StableHlo.ternary main_v313 main_v315 main_arg2 main_v316 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v316 main_v317 (broadcastInDim S2000000x1 ![0] bcast_S2000000_S2000000x1_0 : (⟨S2000000, .i32⟩ : BufTy).Contents (Elt F) → (⟨S2000000x1, .i32⟩ : BufTy).Contents (Elt F)),
    StableHlo.binary main_v233 main_v317 main_v318 ((fun x i => Host.gather gather_S500000x7x6_S2000000x1_S2000000x7x6_12_0_n_n_0_1_176 x i) : (⟨S500000x7x6, .f32⟩ : BufTy).Contents (Elt F) → (⟨S2000000x1, .i32⟩ : BufTy).Contents (Elt F) → (⟨S2000000x7x6, .f32⟩ : BufTy).Contents (Elt F)),
    StableHlo.unary main_v311 main_v319 (broadcastInDim S2000000x7x1 ![0, 1] bcast_S2000000x7_S2000000x7x1_0_1 : (⟨S2000000x7, .f32⟩ : BufTy).Contents (Elt F) → (⟨S2000000x7x1, .f32⟩ : BufTy).Contents (Elt F)),
    StableHlo.unary main_v319 main_v320 (broadcastInDim S2000000x7x6 ![0, 1, 2] bcast_S2000000x7x1_S2000000x7x6_0_1_2 : (⟨S2000000x7x1, .f32⟩ : BufTy).Contents (Elt F) → (⟨S2000000x7x6, .f32⟩ : BufTy).Contents (Elt F)),
    StableHlo.binary main_v318 main_v320 main_v321 (mulf : (⟨S2000000x7x6, .f32⟩ : BufTy).Contents (Elt F) → (⟨S2000000x7x6, .f32⟩ : BufTy).Contents (Elt F) → (⟨S2000000x7x6, .f32⟩ : BufTy).Contents (Elt F)),
    StableHlo.reshape main_v321 main_v322 rfl shapeCasts_S2000000x7x6_S2000000x42 ]

theorem ops6_sub : (ops6 : List (HloOp τ sig (Elt F))).Forall fun op => op.bufs ⊆ tcRefs τ sig :=
  ⟨ternary_bufs_sub .., unary_bufs_sub .., binary_bufs_sub .., unary_bufs_sub .., unary_bufs_sub .., binary_bufs_sub .., reshape_bufs_sub ..⟩

end Cert.ReferenceIdeal.Line

end
-- ==== Proof.RefRun.lean ====
/-
  The reference's run. @main is seven windows run in order and each window is the straight line of its host
  operations, so @main is the straight line of all of them: every weakly fair execution terminates, nothing
  faults, and every buffer ends at the fold of the operations' results over the launch contents. Nothing is
  computed here; what the fold holds at the result buffer is read elsewhere.
-/
import proofs.«110041_j46024869543995_2_alg».proof.Proof.RefOps

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first window holds the one call: its body's single operation stands at the call site. -/
theorem part0_eq (d : Dev nD) : main_part0 (F := F) d = seq ops0 := by
  simp only [main_part0, fn_where.body, seq, bind_assoc, pure_bind]
  rfl
theorem part1_eq (d : Dev nD) : main_part1 (F := F) d = seq ops1 := rfl
theorem part2_eq (d : Dev nD) : main_part2 (F := F) d = seq ops2 := rfl
theorem part3_eq (d : Dev nD) : main_part3 (F := F) d = seq ops3 := rfl
theorem part4_eq (d : Dev nD) : main_part4 (F := F) d = seq ops4 := rfl
theorem part5_eq (d : Dev nD) : main_part5 (F := F) d = seq ops5 := rfl
theorem part6_eq (d : Dev nD) : main_part6 (F := F) d = seq ops6 := rfl

/-- @main's operations, in order: the windows' lists one after the other. -/
abbrev ops : List (HloOp τ sig (Elt F)) := ops0 ++ (ops1 ++ (ops2 ++ (ops3 ++ (ops4 ++ (ops5 ++ ops6)))))

theorem main_eq (d : Dev nD) : main (F := F) d = seq ops := by
  simp only [ops, seq_append, ← part0_eq d, ← part1_eq d, ← part2_eq d, ← part3_eq d, ← part4_eq d, ← part5_eq d, ← part6_eq d]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  simp only [ops, List.mem_append] at h
  rcases h with h | h | h | h | h | h | h
  · exact List.forall_iff_forall_mem.1 ops0_sub op h
  · exact List.forall_iff_forall_mem.1 ops1_sub op h
  · exact List.forall_iff_forall_mem.1 ops2_sub op h
  · exact List.forall_iff_forall_mem.1 ops3_sub op h
  · exact List.forall_iff_forall_mem.1 ops4_sub op h
  · exact List.forall_iff_forall_mem.1 ops5_sub op h
  · exact List.forall_iff_forall_mem.1 ops6_sub op h

theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops4_fresh : ∀ op ∈ (ops4 : List (HloOp τ sig (Elt F))), op.fresh = ∅ := by
  intro _ h; (repeat (cases h with | head => rfl | tail _ h => ?_)); exact nomatch h
theorem ops5_fresh : ∀ op ∈ (ops5 : List (HloOp τ sig (Elt F))), op.fresh = ∅ := by
  intro _ h; (repeat (cases h with | head => rfl | tail _ h => ?_)); exact nomatch h
theorem ops6_fresh : ∀ op ∈ (ops6 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h | h
  · exact ops0_fresh op h
  · exact ops1_fresh op h
  · exact ops2_fresh op h
  · exact ops3_fresh op h
  · exact ops4_fresh op h
  · exact ops5_fresh op h
  · exact ops6_fresh op h

/-- Every weakly fair execution of @main terminates, and every final state has each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Line

end
-- ==== Proof.RefKeep.lean ====
/-
  What each stretch of the reference leaves alone. A host operation writes one buffer, its own result; so a
  buffer that is the result of no operation of a stretch holds after the stretch what it held before. Stated
  per stretch for the buffers a later stretch still reads (and the four arguments, which nothing writes).
-/
import proofs.«110041_j46024869543995_2_alg».proof.Proof.RefOps

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The buffer named in the goal is the result of no operation of the listed stretch. -/
macro "keeps " l:ident : tactic => `(tactic| (
  refine StableHlo.after_of_forall_not_mem _ _ (List.forall_iff_forall_mem.mp ?_)
  simp only [$l:ident, List.Forall, StableHlo.TRef.ternary, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

set_option maxHeartbeats 4000000 in
theorem keep0 (W : Valuation τ sig (Elt F)) :
    ∀ b ∈ ([main_arg0, main_arg1, main_arg2, main_arg3] : List (Ref sig .tc)),
      after ops0 W (Proc.devRef .tc b) = W (Proc.devRef .tc b) := by
  intro b hb
  simp only [List.mem_cons, List.mem_nil_iff, or_false] at hb
  rcases hb with rfl | rfl | rfl | rfl
  all_goals keeps ops0

set_option maxHeartbeats 4000000 in
theorem keep1 (W : Valuation τ sig (Elt F)) :
    ∀ b ∈ ([main_arg0, main_arg1, main_arg2, main_arg3, main_cst, main_cst_0, main_cst_1, main_v1, main_v26, main_v40] : List (Ref sig .tc)),
      after ops1 W (Proc.devRef .tc b) = W (Proc.devRef .tc b) := by
  intro b hb
  simp only [List.mem_cons, List.mem_nil_iff, or_false] at hb
  rcases hb with rfl | rfl | rfl | rfl | rfl | rfl | rfl | rfl | rfl | rfl
  all_goals keeps ops1

set_option maxHeartbeats 4000000 in
theorem keep2 (W : Valuation τ sig (Elt F)) :
    ∀ b ∈ ([main_arg0, main_arg1, main_arg2, main_arg3, main_cst, main_cst_0, main_cst_1, main_v1, main_v26, main_v40, main_v60, main_v84] : List (Ref sig .tc)),
      after ops2 W (Proc.devRef .tc b) = W (Proc.devRef .tc b) := by
  intro b hb
  simp only [List.mem_cons, List.mem_nil_iff, or_false] at hb
  rcases hb with rfl | rfl | rfl | rfl | rfl | rfl | rfl | rfl | rfl | rfl | rfl | rfl
  all_goals keeps ops2

set_option maxHeartbeats 4000000 in
theorem keep3 (W : Valuation τ sig (Elt F)) :
    ∀ b ∈ ([main_arg0, main_arg1, main_arg2, main_arg3, main_cst_1, main_v26, main_v40, main_v60, main_v84, main_v112, main_v144] : List (Ref sig .tc)),
      after ops3 W (Proc.devRef .tc b) = W (Proc.devRef .tc b) := by
  intro b hb
  simp only [List.mem_cons, List.mem_nil_iff, or_false] at hb
  rcases hb with rfl | rfl | rfl | rfl | rfl | rfl | rfl | rfl | rfl | rfl | rfl
  all_goals keeps ops3

set_option maxHeartbeats 4000000 in
theorem keep4 (W : Valuation τ sig (Elt F)) :
    ∀ b ∈ ([main_arg0, main_arg1, main_arg2, main_arg3, main_cst_1] : List (Ref sig .tc)),
      after ops4 W (Proc.devRef .tc b) = W (Proc.devRef .tc b) := by
  intro b hb
  simp only [List.mem_cons, List.mem_nil_iff, or_false] at hb
  rcases hb with rfl | rfl | rfl | rfl | rfl
  all_goals keeps ops4

set_option maxHeartbeats 4000000 in
theorem keep5 (W : Valuation τ sig (Elt F)) :
    ∀ b ∈ ([main_arg0, main_arg1, main_arg2, main_arg3, main_v233] : List (Ref sig .tc)),
      after ops5 W (Proc.devRef .tc b) = W (Proc.devRef .tc b) := by
  intro b hb
  simp only [List.mem_cons, List.mem_nil_iff, or_false] at hb
  rcases hb with rfl | rfl | rfl | rfl | rfl
  all_goals keeps ops5

set_option maxHeartbeats 4000000 in
theorem keep6 (W : Valuation τ sig (Elt F)) :
    ∀ b ∈ ([main_arg0, main_arg1, main_arg2, main_arg3] : List (Ref sig .tc)),
      after ops6 W (Proc.devRef .tc b) = W (Proc.devRef .tc b) := by
  intro b hb
  simp only [List.mem_cons, List.mem_nil_iff, or_false] at hb
  rcases hb with rfl | rfl | rfl | rfl
  all_goals keeps ops6

end Cert.ReferenceIdeal.Line

end
-- ==== Proof.RefWin0.lean ====
/-
  Window 0 of the reference, read buffer by buffer: the three literal tables are the tables of Bessel zeros, radial
  normalisations and angular normalisations; d = D · f32(1/5); the envelope in the reference's grouping of the powers;
  order 0 of the radial basis N_{0,r} · sin x / x; row 1 of the radial normalisations; and x = d · z_{1,r} for order 1.
  Each buffer's contents after the window is the composition of the operations that feed it; read at one index, every
  elementwise operation is the scalar operation, a row broadcast reads the row, a column broadcast reads the column, and a
  row cut from a table reads the table.
-/
import proofs.«110041_j46024869543995_2_alg».proof.Proof.RefOps
import proofs.«110041_j46024869543995_2_alg».proof.Proof.RefForms
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Line

open Cert.ReferenceIdeal Cert.ReferenceIdeal.Gen Idealize.ShloMosaic Idealize.ShloMosaic.TcCoe Idealize.ShloMosaic.StableHlo Cert.Sbl
open Idealize.ShloMosaic.ValueIdx

/-! ## Reading the layout operations and the host's elementwise operations at an index -/

/-- The host's quotient, sine and cosine read at an index are the scalar operations. -/
theorem hdivf_apply_0 {s : Shape} {φ : FTy} (a b : FVec Ideal s φ) (i : s.Idx) : Host.divf a b i = Ideal.div (a i) (b i) := rfl
theorem hsin_apply_0 {s : Shape} {φ : FTy} (a : FVec Ideal s φ) (i : s.Idx) : Host.sin a i = Ideal.sin (a i) := rfl
theorem hcos_apply_0 {s : Shape} {φ : FTy} (a : FVec Ideal s φ) (i : s.Idx) : Host.cos a i = Ideal.cos (a i) := rfl

/-- One word broadcast to a whole array reads that word everywhere. -/
theorem splat_apply_0 (t : Shape) (h : S_.BroadcastsInDim t (![] : Fin 0 → Fin t.rank)) (b : BitVec 32) (j : t.Idx) :
    broadcastInDim t ![] h (constant (F := Ideal) S_ .f32 b) j = w b := rfl

/-- A row of six broadcast over all edges reads, at (e, r), the row at r. -/
theorem rowBcast_apply_0 {α : Type} (v : S6.Idx → α) (h1 : S6.BroadcastsInDim S1x6 (![1] : Fin 1 → Fin S1x6.rank))
    (h2 : S1x6.BroadcastsInDim S500000x6 (![0, 1] : Fin 2 → Fin S500000x6.rank)) (e : Fin 500000) (r : Fin 6) :
    broadcastInDim S500000x6 ![0, 1] h2 (broadcastInDim S1x6 ![1] h1 v) (ix2 e r) = v (ix1 r) := by
  refine (broadcastInDim_apply _ h2 _ (ix2 e r) (ix2 (0 : Fin 1) r) fun a => ?_).trans
    (broadcastInDim_apply _ h1 _ (ix2 (0 : Fin 1) r) (ix1 r) fun a => ?_)
  · match a with
    | ⟨0, _⟩ => rfl
    | ⟨1, _⟩ => rfl
  · match a with
    | ⟨0, _⟩ => rfl

/-- A column over the edges broadcast along the six radial indices reads, at (e, r), the column at e. -/
theorem colBcast_apply_0 {α : Type} (v : S500000.Idx → α) (h1 : S500000.BroadcastsInDim S500000x1 (![0] : Fin 1 → Fin S500000x1.rank))
    (h2 : S500000x1.BroadcastsInDim S500000x6 (![0, 1] : Fin 2 → Fin S500000x6.rank)) (e : Fin 500000) (r : Fin 6) :
    broadcastInDim S500000x6 ![0, 1] h2 (broadcastInDim S500000x1 ![0] h1 v) (ix2 e r) = v (ix1 e) := by
  refine (broadcastInDim_apply _ h2 _ (ix2 e r) (ix2 e (0 : Fin 1)) fun a => ?_).trans
    (broadcastInDim_apply _ h1 _ (ix2 e (0 : Fin 1)) (ix1 e) fun a => ?_)
  · match a with
    | ⟨0, _⟩ => rfl
    | ⟨1, _⟩ => rfl
  · match a with
    | ⟨0, _⟩ => rfl

/-- Row l of a 7 × 6 table, cut out and flattened to six entries, reads the table at (l, r). -/
theorem row_apply_0 {α : Type} (o : Nat) (T : S7x6.Idx → α) (h : S7x6.Slices ![o, 0] S1x6) (hn : S1x6.ShapeCasts S6)
    (l : Fin 7) (hl : l.val = o) (r : Fin 6) :
    shapeCast S6 (extractStridedSlice S1x6 ![o, 0] T h) hn (ix1 r) = T (ix2 l r) :=
  (shapeCast_1a_a_apply _ hn r).trans (slice2_axis0_apply o T h (0 : Fin 1) r l (by rw [hl]; rfl))

/-! ## The three literal tables -/

theorem lit0_apply_0 (l : Fin 7) (r : Fin 6) :
    FloatOps.ofBits (F := Ideal) .f32 (lit0 (S7x6.rowMajor (ix2 l r))) = w (zW (6 * l.val + r.val)) := by
  fin_cases l <;> fin_cases r <;> rfl

theorem lit1_apply_0 (l : Fin 7) (r : Fin 6) :
    FloatOps.ofBits (F := Ideal) .f32 (lit1 (S7x6.rowMajor (ix2 l r))) = w (bW (6 * l.val + r.val)) := by
  fin_cases l <;> fin_cases r <;> rfl

theorem lit2_apply_0 (l : Fin 7) :
    FloatOps.ofBits (F := Ideal) .f32 (lit2 (S7.rowMajor (ix1 l))) = w (yW l.val) := by
  fin_cases l <;> rfl

/-- Reads a product, difference or quotient of broadcast rows and columns at the entry (e, r). -/
local macro "read_at" : tactic => `(tactic| (
  simp only [mulf_apply, subf_apply, addf_apply, hdivf_apply_0, hsin_apply_0, hcos_apply_0]
  repeat rw [rowBcast_apply_0]
  repeat rw [colBcast_apply_0]
  repeat rw [splat_apply_0]
  beta_reduce
  try simp only [mulf_apply]))

/-! ## The buffers that hold six entries -/

theorem ty_v28 : (main_v28 : Ref sig .tc).ty = ⟨S6, .f32⟩ := rfl
theorem ty_v31 : (main_v31 : Ref sig .tc).ty = ⟨S6, .f32⟩ := rfl
theorem ty_v42 : (main_v42 : Ref sig .tc).ty = ⟨S6, .f32⟩ := rfl
theorem ty_v45 : (main_v45 : Ref sig .tc).ty = ⟨S6, .f32⟩ := rfl

/-! ## Window 0, buffer by buffer -/

variable (W : Valuation τ sig (Elt Ideal)) (D : E1 → EReal)

theorem w0_cst : after ops0 W (main_cst : DevRef τ sig) = zTab := by
  after_results_simp
  funext i
  obtain ⟨l, r, rfl⟩ : ∃ (l : Fin 7) (r : Fin 6), i = ix2 l r := ⟨i 0, i 1, eq_ix2 i⟩
  exact lit0_apply_0 l r

theorem w0_cst_0 : after ops0 W (main_cst_0 : DevRef τ sig) = bTab := by
  after_results_simp
  funext i
  obtain ⟨l, r, rfl⟩ : ∃ (l : Fin 7) (r : Fin 6), i = ix2 l r := ⟨i 0, i 1, eq_ix2 i⟩
  exact lit1_apply_0 l r

theorem w0_cst_1 : after ops0 W (main_cst_1 : DevRef τ sig) = yTab := by
  after_results_simp
  funext i
  obtain ⟨l, rfl⟩ : ∃ l : Fin 7, i = ix1 l := ⟨i 0, eq_ix1 i⟩
  exact lit2_apply_0 l

/-- d = D · f32(1/5). -/
theorem w0_v1 (hD : W (main_arg0 : DevRef τ sig) = D) : after ops0 W (main_v1 : DevRef τ sig) = dArr D := by
  after_results_simp
  rw [hD]
  funext i
  rfl

/-- The envelope: 1/d − 28 d⁵ + 48 d⁶ − 21 d⁷ with d⁵ = d·(d²·d²), d⁶ = d²·(d²·d²), d⁷ = (d·d²)·(d²·d²), chosen where d < 1. -/
theorem w0_v26 (hD : W (main_arg0 : DevRef τ sig) = D) : after ops0 W (main_v26 : DevRef τ sig) = envArr D := by
  after_results_simp
  rw [hD]
  funext i
  rfl

/-- Order 0 of the radial basis: N_{0,r} · sin x / x at x = d · z_{0,r}. -/
theorem w0_v40 (hD : W (main_arg0 : DevRef τ sig) = D) : after ops0 W (main_v40 : DevRef τ sig) = rbfArr D 0 := by
  after_results_simp
  dsimp only [ty_v28, ty_v31]
  rw [hD]
  funext i
  obtain ⟨e, r, rfl⟩ : ∃ (e : Fin 500000) (r : Fin 6), i = ix2 e r := ⟨i 0, i 1, eq_ix2 i⟩
  read_at
  repeat rw [row_apply_0 0 _ _ _ (0 : Fin 7) rfl]
  beta_reduce
  simp only [lit0_apply_0, lit1_apply_0]
  rfl

/-- Row 1 of the radial normalisations. -/
theorem w0_v42 : after ops0 W (main_v42 : DevRef τ sig) = bRow 1 := by
  after_results_simp
  dsimp only [ty_v42]
  funext i
  obtain ⟨r, rfl⟩ : ∃ r : Fin 6, i = ix1 r := ⟨i 0, eq_ix1 i⟩
  rw [row_apply_0 1 _ _ _ (1 : Fin 7) rfl]
  exact lit1_apply_0 1 r

/-- x = d · z_{1,r} for order 1. -/
theorem w0_v49 (hD : W (main_arg0 : DevRef τ sig) = D) : after ops0 W (main_v49 : DevRef τ sig) = xArr D 1 := by
  after_results_simp
  dsimp only [ty_v45]
  rw [hD]
  funext i
  obtain ⟨e, r, rfl⟩ : ∃ (e : Fin 500000) (r : Fin 6), i = ix2 e r := ⟨i 0, i 1, eq_ix2 i⟩
  read_at
  repeat rw [row_apply_0 1 _ _ _ (1 : Fin 7) rfl]
  beta_reduce
  simp only [lit0_apply_0]
  rfl

/-- Window 0: from the edge distances D to the tables, d, the envelope, order 0 of the radial basis, and row 1 and x of order 1. -/
theorem win0 (W : Valuation τ sig (Elt Ideal)) (D : E1 → EReal) (hD : W (main_arg0 : DevRef τ sig) = D) :
    after ops0 W (main_cst : DevRef τ sig) = zTab
  ∧ after ops0 W (main_cst_0 : DevRef τ sig) = bTab
  ∧ after ops0 W (main_cst_1 : DevRef τ sig) = yTab
  ∧ after ops0 W (main_v1 : DevRef τ sig) = dArr D
  ∧ after ops0 W (main_v26 : DevRef τ sig) = envArr D
  ∧ after ops0 W (main_v40 : DevRef τ sig) = rbfArr D 0
  ∧ after ops0 W (main_v42 : DevRef τ sig) = bRow 1
  ∧ after ops0 W (main_v49 : DevRef τ sig) = xArr D 1 :=
  ⟨w0_cst W, w0_cst_0 W, w0_cst_1 W, w0_v1 W D hD, w0_v26 W D hD, w0_v40 W D hD, w0_v42 W, w0_v49 W D hD⟩

end Cert.ReferenceIdeal.Line

end
-- ==== Proof.RefWin1.lean ====
/-
  Window 1 of the reference, read buffer by buffer, from what window 0 left: d on every edge, the tables of Bessel zeros
  and radial normalisations, row 1 of the normalisations and x = d · z_{1,r}. It holds order 1 of the radial basis
  (j_1 = sin x / (x·x) − cos x / x), order 2 whole (x = d · z_{2,r}, j_0, j_1, j_2 = (3/x)·j_1 − j_0), and of order 3 the row of
  normalisations, x = d · z_{3,r}, j_1, j_2 and the word of 5 on every entry. Read at one index, every elementwise operation
  is the scalar operation, a row broadcast reads the row, a column broadcast reads the column, and a row cut from a table
  reads the table; the members of the recurrence are then the specification's by unfolding it.
-/
import proofs.«110041_j46024869543995_2_alg».proof.Proof.RefOps
import proofs.«110041_j46024869543995_2_alg».proof.Proof.RefForms
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Line

open Cert.ReferenceIdeal Cert.ReferenceIdeal.Gen Idealize.ShloMosaic Idealize.ShloMosaic.TcCoe Idealize.ShloMosaic.StableHlo Cert.Sbl
open Idealize.ShloMosaic.ValueIdx

/-! ## Reading the layout operations and the host's elementwise operations at an index -/

/-- The host's quotient, sine and cosine read at an index are the scalar operations. -/
theorem hdivf_apply_1 {s : Shape} {φ : FTy} (a b : FVec Ideal s φ) (i : s.Idx) : Host.divf a b i = Ideal.div (a i) (b i) := rfl
theorem hsin_apply_1 {s : Shape} {φ : FTy} (a : FVec Ideal s φ) (i : s.Idx) : Host.sin a i = Ideal.sin (a i) := rfl
theorem hcos_apply_1 {s : Shape} {φ : FTy} (a : FVec Ideal s φ) (i : s.Idx) : Host.cos a i = Ideal.cos (a i) := rfl

/-- One word broadcast to a whole array reads that word everywhere. -/
theorem splat_apply_1 (t : Shape) (h : S_.BroadcastsInDim t (![] : Fin 0 → Fin t.rank)) (b : BitVec 32) (j : t.Idx) :
    broadcastInDim t ![] h (constant (F := Ideal) S_ .f32 b) j = w b := rfl

/-- A row of six broadcast over all edges reads, at (e, r), the row at r. -/
theorem rowBcast_apply_1 {α : Type} (v : S6.Idx → α) (h1 : S6.BroadcastsInDim S1x6 (![1] : Fin 1 → Fin S1x6.rank))
    (h2 : S1x6.BroadcastsInDim S500000x6 (![0, 1] : Fin 2 → Fin S500000x6.rank)) (e : Fin 500000) (r : Fin 6) :
    broadcastInDim S500000x6 ![0, 1] h2 (broadcastInDim S1x6 ![1] h1 v) (ix2 e r) = v (ix1 r) := by
  refine (broadcastInDim_apply _ h2 _ (ix2 e r) (ix2 (0 : Fin 1) r) fun a => ?_).trans
    (broadcastInDim_apply _ h1 _ (ix2 (0 : Fin 1) r) (ix1 r) fun a => ?_)
  · match a with
    | ⟨0, _⟩ => rfl
    | ⟨1, _⟩ => rfl
  · match a with
    | ⟨0, _⟩ => rfl

/-- A column over the edges broadcast along the six radial indices reads, at (e, r), the column at e. -/
theorem colBcast_apply_1 {α : Type} (v : S500000.Idx → α) (h1 : S500000.BroadcastsInDim S500000x1 (![0] : Fin 1 → Fin S500000x1.rank))
    (h2 : S500000x1.BroadcastsInDim S500000x6 (![0, 1] : Fin 2 → Fin S500000x6.rank)) (e : Fin 500000) (r : Fin 6) :
    broadcastInDim S500000x6 ![0, 1] h2 (broadcastInDim S500000x1 ![0] h1 v) (ix2 e r) = v (ix1 e) := by
  refine (broadcastInDim_apply _ h2 _ (ix2 e r) (ix2 e (0 : Fin 1)) fun a => ?_).trans
    (broadcastInDim_apply _ h1 _ (ix2 e (0 : Fin 1)) (ix1 e) fun a => ?_)
  · match a with
    | ⟨0, _⟩ => rfl
    | ⟨1, _⟩ => rfl
  · match a with
    | ⟨0, _⟩ => rfl

/-- Row l of a 7 × 6 table, cut out and flattened to six entries, reads the table at (l, r). -/
theorem row_apply_1 {α : Type} (o : Nat) (T : S7x6.Idx → α) (h : S7x6.Slices ![o, 0] S1x6) (hn : S1x6.ShapeCasts S6)
    (l : Fin 7) (hl : l.val = o) (r : Fin 6) :
    shapeCast S6 (extractStridedSlice S1x6 ![o, 0] T h) hn (ix1 r) = T (ix2 l r) :=
  (shapeCast_1a_a_apply _ hn r).trans (slice2_axis0_apply o T h (0 : Fin 1) r l (by rw [hl]; rfl))

/-- Reads a product, difference or quotient of broadcast rows and columns at the entry (e, r). -/
local macro "read_at" : tactic => `(tactic| (
  simp only [mulf_apply, subf_apply, addf_apply, hdivf_apply_1, hsin_apply_1, hcos_apply_1]
  repeat rw [rowBcast_apply_1]
  repeat rw [colBcast_apply_1]
  repeat rw [splat_apply_1]
  beta_reduce
  try simp only [mulf_apply]))

/-! ## The buffers that hold six entries -/

theorem ty_v62 : (main_v62 : Ref sig .tc).ty = ⟨S6, .f32⟩ := rfl
theorem ty_v65 : (main_v65 : Ref sig .tc).ty = ⟨S6, .f32⟩ := rfl
theorem ty_v86 : (main_v86 : Ref sig .tc).ty = ⟨S6, .f32⟩ := rfl
theorem ty_v89 : (main_v89 : Ref sig .tc).ty = ⟨S6, .f32⟩ := rfl

/-! ## Window 1, buffer by buffer -/

variable (W : Valuation τ sig (Elt Ideal)) (D : E1 → EReal)

/-- Order 1 of the radial basis: N_{1,r} · (sin x / (x·x) − cos x / x) at x = d · z_{1,r}. -/
theorem w1_v60 (h42 : W (main_v42 : DevRef τ sig) = bRow 1) (h49 : W (main_v49 : DevRef τ sig) = xArr D 1) :
    after ops1 W (main_v60 : DevRef τ sig) = rbfArr D 1 := by
  after_results_simp
  rw [h42, h49]
  funext i
  obtain ⟨e, r, rfl⟩ : ∃ (e : Fin 500000) (r : Fin 6), i = ix2 e r := ⟨i 0, i 1, eq_ix2 i⟩
  read_at
  rfl

/-- Order 2 of the radial basis: N_{2,r} · ((3/x)·j_1 − j_0) at x = d · z_{2,r}. -/
theorem w1_v84 (h1 : W (main_v1 : DevRef τ sig) = dArr D) (hz : W (main_cst : DevRef τ sig) = zTab)
    (hb : W (main_cst_0 : DevRef τ sig) = bTab) : after ops1 W (main_v84 : DevRef τ sig) = rbfArr D 2 := by
  after_results_simp
  dsimp only [ty_v62, ty_v65]
  rw [h1, hz, hb]
  funext i
  obtain ⟨e, r, rfl⟩ : ∃ (e : Fin 500000) (r : Fin 6), i = ix2 e r := ⟨i 0, i 1, eq_ix2 i⟩
  read_at
  repeat rw [row_apply_1 2 _ _ _ (2 : Fin 7) rfl]
  rfl

/-- Row 3 of the radial normalisations. -/
theorem w1_v86 (hb : W (main_cst_0 : DevRef τ sig) = bTab) : after ops1 W (main_v86 : DevRef τ sig) = bRow 3 := by
  after_results_simp
  dsimp only [ty_v86]
  rw [hb]
  funext i
  obtain ⟨r, rfl⟩ : ∃ r : Fin 6, i = ix1 r := ⟨i 0, eq_ix1 i⟩
  rw [row_apply_1 3 _ _ _ (3 : Fin 7) rfl]
  rfl

/-- x = d · z_{3,r} for order 3. -/
theorem w1_v93 (h1 : W (main_v1 : DevRef τ sig) = dArr D) (hz : W (main_cst : DevRef τ sig) = zTab) :
    after ops1 W (main_v93 : DevRef τ sig) = xArr D 3 := by
  after_results_simp
  dsimp only [ty_v89]
  rw [h1, hz]
  funext i
  obtain ⟨e, r, rfl⟩ : ∃ (e : Fin 500000) (r : Fin 6), i = ix2 e r := ⟨i 0, i 1, eq_ix2 i⟩
  read_at
  repeat rw [row_apply_1 3 _ _ _ (3 : Fin 7) rfl]
  rfl

/-- j_1 = sin x / (x·x) − cos x / x at x = d · z_{3,r}. -/
theorem w1_v101 (h1 : W (main_v1 : DevRef τ sig) = dArr D) (hz : W (main_cst : DevRef τ sig) = zTab) :
    after ops1 W (main_v101 : DevRef τ sig) = jArr D 3 1 := by
  after_results_simp
  dsimp only [ty_v89]
  rw [h1, hz]
  funext i
  obtain ⟨e, r, rfl⟩ : ∃ (e : Fin 500000) (r : Fin 6), i = ix2 e r := ⟨i 0, i 1, eq_ix2 i⟩
  read_at
  repeat rw [row_apply_1 3 _ _ _ (3 : Fin 7) rfl]
  rfl

/-- j_2 = (3/x)·j_1 − j_0 at x = d · z_{3,r}. -/
theorem w1_v105 (h1 : W (main_v1 : DevRef τ sig) = dArr D) (hz : W (main_cst : DevRef τ sig) = zTab) :
    after ops1 W (main_v105 : DevRef τ sig) = jArr D 3 2 := by
  after_results_simp
  dsimp only [ty_v89]
  rw [h1, hz]
  funext i
  obtain ⟨e, r, rfl⟩ : ∃ (e : Fin 500000) (r : Fin 6), i = ix2 e r := ⟨i 0, i 1, eq_ix2 i⟩
  read_at
  repeat rw [row_apply_1 3 _ _ _ (3 : Fin 7) rfl]
  rfl

/-- The word of 5 on every entry. -/
theorem w1_v106 : after ops1 W (main_v106 : DevRef τ sig) = cArr (fw 5) := by
  after_results_simp
  funext i
  rfl

/-- Window 1: orders 1 and 2 of the radial basis, and of order 3 the row of normalisations, x, j_1, j_2 and the word of 5. -/
theorem win1 (W : Valuation τ sig (Elt Ideal)) (D : E1 → EReal)
    (h1 : W (main_v1 : DevRef τ sig) = dArr D) (hz : W (main_cst : DevRef τ sig) = zTab) (hb : W (main_cst_0 : DevRef τ sig) = bTab)
    (h42 : W (main_v42 : DevRef τ sig) = bRow 1) (h49 : W (main_v49 : DevRef τ sig) = xArr D 1) :
    after ops1 W (main_v60 : DevRef τ sig) = rbfArr D 1
  ∧ after ops1 W (main_v84 : DevRef τ sig) = rbfArr D 2
  ∧ after ops1 W (main_v86 : DevRef τ sig) = bRow 3
  ∧ after ops1 W (main_v93 : DevRef τ sig) = xArr D 3
  ∧ after ops1 W (main_v101 : DevRef τ sig) = jArr D 3 1
  ∧ after ops1 W (main_v105 : DevRef τ sig) = jArr D 3 2
  ∧ after ops1 W (main_v106 : DevRef τ sig) = cArr (fw 5) :=
  ⟨w1_v60 W D h42 h49, w1_v84 W D h1 hz hb, w1_v86 W hb, w1_v93 W D h1 hz, w1_v101 W D h1 hz, w1_v105 W D h1 hz, w1_v106 W⟩

end Cert.ReferenceIdeal.Line

end
-- ==== Proof.RefWin2.lean ====
/-
  The third stretch of the reference (its operations %107 … %162), read on whole arrays: the last step of the
  upward recurrence of order 3 and its radial basis N_{3,r} j_3(x); order 4 whole — the argument x = d · z_{4,r},
  j_0 = sin x / x, j_1 = sin x / (x·x) − cos x / x, three steps j_{k+2} = ((2k+3)/x) j_{k+1} − j_k, the basis
  N_{4,r} j_4(x) —; and of order 5 the row of normalisations, the argument, j_0, j_1 and the constant 3 of the
  next step. Every elementwise operation read at an entry is the scalar operation; a broadcast, a slice of a
  table and a reshape read one entry of their operand, which is named here once for each pattern of the stretch.
-/
import proofs.«110041_j46024869543995_2_alg».proof.Proof.RefOps
import proofs.«110041_j46024869543995_2_alg».proof.Proof.RefForms
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Line

open Cert.ReferenceIdeal Cert.ReferenceIdeal.Gen Idealize.ShloMosaic Idealize.ShloMosaic.TcCoe Idealize.ShloMosaic.StableHlo Cert.Sbl
open Idealize.ShloMosaic.ValueIdx

/-! ## The pieces the stretch is made of, as functions of arrays -/

/-- One f32 word spread over every edge and radial index. -/
private def splat (b : BitVec 32) : E6 → EReal :=
  broadcastInDim S500000x6 ![] bcast_S_S500000x6 (constant (F := Ideal) S_ .f32 b)

/-- A vector of six spread over every edge: entry (e, r) is entry r of the vector. -/
private def rowB (r : R6 → EReal) : E6 → EReal :=
  broadcastInDim S500000x6 ![0, 1] bcast_S1x6_S500000x6_0_1 (broadcastInDim S1x6 ![1] bcast_S6_S1x6_1 r)

/-- A vector over the edges spread over the six radial indices: entry (e, r) is entry e of the vector. -/
private def colB (d : E1 → EReal) : E6 → EReal :=
  broadcastInDim S500000x6 ![0, 1] bcast_S500000x1_S500000x6_0_1 (broadcastInDim S500000x1 ![0] bcast_S500000_S500000x1_0 d)

/-- Row o of a [7, 6] table, cut out and flattened to a vector of six. -/
private def tabRow (t : L76 → EReal) (o : ℕ) (h : S7x6.Slices ![o, 0] S1x6) : R6 → EReal :=
  fun i => shapeCast S6 (extractStridedSlice S1x6 ![o, 0] t h) shapeCasts_S1x6_S6 i

/-- The argument array: the edge vector times row o of the table. -/
private def xOf (d : E1 → EReal) (t : L76 → EReal) (o : ℕ) (h : S7x6.Slices ![o, 0] S1x6) : E6 → EReal :=
  mulf (F := Ideal) (s := S500000x6) (φ := .f32) (colB d) (rowB (tabRow t o h))

/-- j_0 = sin x / x, j_1 = sin x / (x·x) − cos x / x, and one step of the upward recurrence, on whole arrays. -/
private def j0Of (x : E6 → EReal) : E6 → EReal :=
  Host.divf (F := Ideal) (s := S500000x6) (φ := .f32) (Host.sin (F := Ideal) (s := S500000x6) (φ := .f32) x) x
private def j1Of (x : E6 → EReal) : E6 → EReal :=
  subf (F := Ideal) (s := S500000x6) (φ := .f32)
    (Host.divf (F := Ideal) (s := S500000x6) (φ := .f32) (Host.sin (F := Ideal) (s := S500000x6) (φ := .f32) x)
      (mulf (F := Ideal) (s := S500000x6) (φ := .f32) x x))
    (Host.divf (F := Ideal) (s := S500000x6) (φ := .f32) (Host.cos (F := Ideal) (s := S500000x6) (φ := .f32) x) x)
private def stepA (c x a b : E6 → EReal) : E6 → EReal :=
  subf (F := Ideal) (s := S500000x6) (φ := .f32)
    (mulf (F := Ideal) (s := S500000x6) (φ := .f32) (Host.divf (F := Ideal) (s := S500000x6) (φ := .f32) c x) a) b

/-- The upward recurrence from its start, the factor of step k being the word of 2k+3 spread over the array. -/
private def jOf (x : E6 → EReal) : ℕ → E6 → EReal
  | 0 => j0Of x
  | 1 => j1Of x
  | (k + 2) => stepA (splat (fw (2 * k + 3))) x (jOf x (k + 1)) (jOf x k)

/-! ## What the pieces hold, entry by entry -/

private theorem col_at (d : E1 → EReal) (p : Fin 500000) (q : Fin 6) : colB d (ix2 p q) = d (ix1 p) :=
  (broadcastInDim_apply _ _ _ (ix2 p q) (ix2 p (0 : Fin 1)) fun a => by
    match a with
    | ⟨0, _⟩ => rfl
    | ⟨1, _⟩ => rfl).trans
  (broadcastInDim_apply _ _ d (ix2 p (0 : Fin 1)) (ix1 p) fun a => by
    match a with
    | ⟨0, _⟩ => rfl)

private theorem row_at (r : R6 → EReal) (p : Fin 500000) (q : Fin 6) : rowB r (ix2 p q) = r (ix1 q) :=
  (broadcastInDim_apply _ _ _ (ix2 p q) (ix2 (0 : Fin 1) q) fun a => by
    match a with
    | ⟨0, _⟩ => rfl
    | ⟨1, _⟩ => rfl).trans
  (broadcastInDim_apply _ _ r (ix2 (0 : Fin 1) q) (ix1 q) fun a => by
    match a with
    | ⟨0, _⟩ => rfl)

private theorem tab_at (t : L76 → EReal) (o : ℕ) (ho : o < 7) (h : S7x6.Slices ![o, 0] S1x6) (q : Fin 6) :
    tabRow t o h (ix1 q) = t (ix2 ⟨o, ho⟩ q) :=
  (shapeCast_1a_a_apply _ _ q).trans (slice2_axis0_apply o t h (0 : Fin 1) q ⟨o, ho⟩ rfl)

private theorem splat_eq (b : BitVec 32) : splat b = cArr b := rfl

/-- Row l of the table of radial normalisations. -/
private theorem tabRow_b (l : ℕ) (hl : l < 7) (h : S7x6.Slices ![l, 0] S1x6) : tabRow bTab l h = bRow l := by
  funext i
  obtain ⟨q, rfl⟩ : ∃ q : Fin 6, i = ix1 q := ⟨i 0, eq_ix1 i⟩
  exact (tab_at bTab l hl h q).trans rfl

/-- x = d · z_{l,r}. -/
private theorem xOf_eq (D : E1 → EReal) (l : ℕ) (hl : l < 7) (h : S7x6.Slices ![l, 0] S1x6) : xOf (dArr D) zTab l h = xArr D l := by
  funext i
  obtain ⟨p, q, rfl⟩ : ∃ (p : Fin 500000) (q : Fin 6), i = ix2 p q := ⟨i 0, i 1, eq_ix2 i⟩
  exact (congrArg₂ (· * ·) (col_at (dArr D) p q) ((row_at _ p q).trans (tab_at zTab l hl h q))).trans rfl

/-- N_{l,r} · j_l(x). -/
private theorem rbf_eq (D : E1 → EReal) (l : ℕ) :
    mulf (F := Ideal) (s := S500000x6) (φ := .f32) (rowB (bRow l)) (jArr D l l) = rbfArr D l := by
  funext i
  obtain ⟨p, q, rfl⟩ : ∃ (p : Fin 500000) (q : Fin 6), i = ix2 p q := ⟨i 0, i 1, eq_ix2 i⟩
  exact (congrArg (· * jArr D l l (ix2 p q)) (row_at (bRow l) p q)).trans rfl

private theorem j0Of_eq (D : E1 → EReal) (l : ℕ) : j0Of (xArr D l) = jArr D l 0 := rfl
private theorem j1Of_eq (D : E1 → EReal) (l : ℕ) : j1Of (xArr D l) = jArr D l 1 := rfl

/-- One step of the recurrence: j_{k+2} = ((2k+3)/x) · j_{k+1} − j_k. -/
private theorem stepA_eq (D : E1 → EReal) (l k c n1 n2 : ℕ) (hc : c = 2 * k + 3) (h1 : n1 = k + 1) (h2 : n2 = k + 2) :
    stepA (cArr (fw c)) (xArr D l) (jArr D l n1) (jArr D l k) = jArr D l n2 := by
  subst hc h1 h2
  rfl

private theorem jOf_eq (D : E1 → EReal) (l : ℕ) : ∀ n : ℕ, jOf (xArr D l) n = jArr D l n
  | 0 => j0Of_eq D l
  | 1 => j1Of_eq D l
  | (k + 2) => by
    rw [jOf, splat_eq, jOf_eq D l (k + 1), jOf_eq D l k]
    exact stepA_eq D l k _ _ _ rfl rfl rfl

/-! ## The stretch: each result as the pieces applied to the buffers the stretch finds -/

private theorem e112 (W : Valuation τ sig (Elt Ideal)) :
    after ops2 W (main_v112 : DevRef τ sig)
      = mulf (F := Ideal) (s := S500000x6) (φ := .f32) (rowB (W (main_v86 : DevRef τ sig)))
          (stepA (W (main_v106 : DevRef τ sig)) (W (main_v93 : DevRef τ sig)) (W (main_v105 : DevRef τ sig)) (W (main_v101 : DevRef τ sig))) := by
  after_results_simp <;> rfl

private theorem e144 (W : Valuation τ sig (Elt Ideal)) :
    after ops2 W (main_v144 : DevRef τ sig)
      = mulf (F := Ideal) (s := S500000x6) (φ := .f32) (rowB (tabRow (W (main_cst_0 : DevRef τ sig)) 4 slices_S7x6_S1x6_4_0))
          (jOf (xOf (W (main_v1 : DevRef τ sig)) (W (main_cst : DevRef τ sig)) 4 slices_S7x6_S1x6_4_0) 4) := by
  after_results_simp <;> rfl

private theorem e146 (W : Valuation τ sig (Elt Ideal)) :
    after ops2 W (main_v146 : DevRef τ sig)
      = tabRow (W (main_cst_0 : DevRef τ sig)) 5 slices_S7x6_S1x6_5_0 := by
  after_results_simp <;> rfl

private theorem e153 (W : Valuation τ sig (Elt Ideal)) :
    after ops2 W (main_v153 : DevRef τ sig)
      = xOf (W (main_v1 : DevRef τ sig)) (W (main_cst : DevRef τ sig)) 5 slices_S7x6_S1x6_5_0 := by
  after_results_simp <;> rfl

private theorem e155 (W : Valuation τ sig (Elt Ideal)) :
    after ops2 W (main_v155 : DevRef τ sig)
      = j0Of (xOf (W (main_v1 : DevRef τ sig)) (W (main_cst : DevRef τ sig)) 5 slices_S7x6_S1x6_5_0) := by
  after_results_simp <;> rfl

private theorem e161 (W : Valuation τ sig (Elt Ideal)) :
    after ops2 W (main_v161 : DevRef τ sig)
      = j1Of (xOf (W (main_v1 : DevRef τ sig)) (W (main_cst : DevRef τ sig)) 5 slices_S7x6_S1x6_5_0) := by
  after_results_simp <;> rfl

private theorem e162 (W : Valuation τ sig (Elt Ideal)) :
    after ops2 W (main_v162 : DevRef τ sig)
      = splat (fw 3) := by
  after_results_simp <;> rfl

/-! ## The stretch's results in closed form -/

theorem win2 (W : Valuation τ sig (Elt Ideal)) (D : E1 → EReal)
    (h1 : W (main_v1 : DevRef τ sig) = dArr D) (hz : W (main_cst : DevRef τ sig) = zTab) (hb : W (main_cst_0 : DevRef τ sig) = bTab)
    (h86 : W (main_v86 : DevRef τ sig) = bRow 3) (h93 : W (main_v93 : DevRef τ sig) = xArr D 3)
    (h101 : W (main_v101 : DevRef τ sig) = jArr D 3 1) (h105 : W (main_v105 : DevRef τ sig) = jArr D 3 2)
    (h106 : W (main_v106 : DevRef τ sig) = cArr (fw 5)) :
    after ops2 W (main_v112 : DevRef τ sig) = rbfArr D 3
  ∧ after ops2 W (main_v144 : DevRef τ sig) = rbfArr D 4
  ∧ after ops2 W (main_v146 : DevRef τ sig) = bRow 5
  ∧ after ops2 W (main_v153 : DevRef τ sig) = xArr D 5
  ∧ after ops2 W (main_v155 : DevRef τ sig) = jArr D 5 0
  ∧ after ops2 W (main_v161 : DevRef τ sig) = jArr D 5 1
  ∧ after ops2 W (main_v162 : DevRef τ sig) = cArr (fw 3) := by
  refine ⟨?_, ?_, ?_, ?_, ?_, ?_, ?_⟩
  · -- order 3: the last step of the recurrence, then the row of normalisations
    rw [e112, h86, h106, h93, h105, h101, stepA_eq D 3 1 5 2 3 rfl rfl rfl, rbf_eq D 3]
  · -- order 4, whole
    rw [e144, h1, hz, hb, xOf_eq D 4 (by omega), jOf_eq D 4 4, tabRow_b 4 (by omega), rbf_eq D 4]
  · rw [e146, hb, tabRow_b 5 (by omega)]
  · rw [e153, h1, hz, xOf_eq D 5 (by omega)]
  · rw [e155, h1, hz, xOf_eq D 5 (by omega), j0Of_eq]
  · rw [e161, h1, hz, xOf_eq D 5 (by omega), j1Of_eq]
  · rw [e162, splat_eq]

end Cert.ReferenceIdeal.Line

end
-- ==== Proof.RefWin3.lean ====
/-
  The fourth stretch of the reference (its operations %163 … %214), read on whole arrays: four steps of the upward
  recurrence of order 5 from the j_0, j_1 the stretch finds, and the radial basis N_{5,r} j_5(x); and of order 6
  the row of normalisations, the argument x = d · z_{6,r}, the recurrence from j_0 = sin x / x and
  j_1 = sin x / (x·x) − cos x / x up to j_4 and j_5, and the constant 11 of the next step. Every elementwise
  operation read at an entry is the scalar operation; a broadcast, a slice of a table and a reshape read one
  entry of their operand, which is named here once for each pattern of the stretch.
-/
import proofs.«110041_j46024869543995_2_alg».proof.Proof.RefOps
import proofs.«110041_j46024869543995_2_alg».proof.Proof.RefForms
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Line

open Cert.ReferenceIdeal Cert.ReferenceIdeal.Gen Idealize.ShloMosaic Idealize.ShloMosaic.TcCoe Idealize.ShloMosaic.StableHlo Cert.Sbl
open Idealize.ShloMosaic.ValueIdx

/-! ## The pieces the stretch is made of, as functions of arrays -/

/-- One f32 word spread over every edge and radial index. -/
private def splat (b : BitVec 32) : E6 → EReal :=
  broadcastInDim S500000x6 ![] bcast_S_S500000x6 (constant (F := Ideal) S_ .f32 b)

/-- A vector of six spread over every edge: entry (e, r) is entry r of the vector. -/
private def rowB (r : R6 → EReal) : E6 → EReal :=
  broadcastInDim S500000x6 ![0, 1] bcast_S1x6_S500000x6_0_1 (broadcastInDim S1x6 ![1] bcast_S6_S1x6_1 r)

/-- A vector over the edges spread over the six radial indices: entry (e, r) is entry e of the vector. -/
private def colB (d : E1 → EReal) : E6 → EReal :=
  broadcastInDim S500000x6 ![0, 1] bcast_S500000x1_S500000x6_0_1 (broadcastInDim S500000x1 ![0] bcast_S500000_S500000x1_0 d)

/-- Row o of a [7, 6] table, cut out and flattened to a vector of six. -/
private def tabRow (t : L76 → EReal) (o : ℕ) (h : S7x6.Slices ![o, 0] S1x6) : R6 → EReal :=
  fun i => shapeCast S6 (extractStridedSlice S1x6 ![o, 0] t h) shapeCasts_S1x6_S6 i

/-- The argument array: the edge vector times row o of the table. -/
private def xOf (d : E1 → EReal) (t : L76 → EReal) (o : ℕ) (h : S7x6.Slices ![o, 0] S1x6) : E6 → EReal :=
  mulf (F := Ideal) (s := S500000x6) (φ := .f32) (colB d) (rowB (tabRow t o h))

/-- j_0 = sin x / x, j_1 = sin x / (x·x) − cos x / x, and one step of the upward recurrence, on whole arrays. -/
private def j0Of (x : E6 → EReal) : E6 → EReal :=
  Host.divf (F := Ideal) (s := S500000x6) (φ := .f32) (Host.sin (F := Ideal) (s := S500000x6) (φ := .f32) x) x
private def j1Of (x : E6 → EReal) : E6 → EReal :=
  subf (F := Ideal) (s := S500000x6) (φ := .f32)
    (Host.divf (F := Ideal) (s := S500000x6) (φ := .f32) (Host.sin (F := Ideal) (s := S500000x6) (φ := .f32) x)
      (mulf (F := Ideal) (s := S500000x6) (φ := .f32) x x))
    (Host.divf (F := Ideal) (s := S500000x6) (φ := .f32) (Host.cos (F := Ideal) (s := S500000x6) (φ := .f32) x) x)
private def stepA (c x a b : E6 → EReal) : E6 → EReal :=
  subf (F := Ideal) (s := S500000x6) (φ := .f32)
    (mulf (F := Ideal) (s := S500000x6) (φ := .f32) (Host.divf (F := Ideal) (s := S500000x6) (φ := .f32) c x) a) b

/-- The upward recurrence from its start, the factor of step k being the word of 2k+3 spread over the array. -/
private def jOf (x : E6 → EReal) : ℕ → E6 → EReal
  | 0 => j0Of x
  | 1 => j1Of x
  | (k + 2) => stepA (splat (fw (2 * k + 3))) x (jOf x (k + 1)) (jOf x k)

/-! ## What the pieces hold, entry by entry -/

private theorem col_at (d : E1 → EReal) (p : Fin 500000) (q : Fin 6) : colB d (ix2 p q) = d (ix1 p) :=
  (broadcastInDim_apply _ _ _ (ix2 p q) (ix2 p (0 : Fin 1)) fun a => by
    match a with
    | ⟨0, _⟩ => rfl
    | ⟨1, _⟩ => rfl).trans
  (broadcastInDim_apply _ _ d (ix2 p (0 : Fin 1)) (ix1 p) fun a => by
    match a with
    | ⟨0, _⟩ => rfl)

private theorem row_at (r : R6 → EReal) (p : Fin 500000) (q : Fin 6) : rowB r (ix2 p q) = r (ix1 q) :=
  (broadcastInDim_apply _ _ _ (ix2 p q) (ix2 (0 : Fin 1) q) fun a => by
    match a with
    | ⟨0, _⟩ => rfl
    | ⟨1, _⟩ => rfl).trans
  (broadcastInDim_apply _ _ r (ix2 (0 : Fin 1) q) (ix1 q) fun a => by
    match a with
    | ⟨0, _⟩ => rfl)

private theorem tab_at (t : L76 → EReal) (o : ℕ) (ho : o < 7) (h : S7x6.Slices ![o, 0] S1x6) (q : Fin 6) :
    tabRow t o h (ix1 q) = t (ix2 ⟨o, ho⟩ q) :=
  (shapeCast_1a_a_apply _ _ q).trans (slice2_axis0_apply o t h (0 : Fin 1) q ⟨o, ho⟩ rfl)

private theorem splat_eq (b : BitVec 32) : splat b = cArr b := rfl

/-- Row l of the table of radial normalisations. -/
private theorem tabRow_b (l : ℕ) (hl : l < 7) (h : S7x6.Slices ![l, 0] S1x6) : tabRow bTab l h = bRow l := by
  funext i
  obtain ⟨q, rfl⟩ : ∃ q : Fin 6, i = ix1 q := ⟨i 0, eq_ix1 i⟩
  exact (tab_at bTab l hl h q).trans rfl

/-- x = d · z_{l,r}. -/
private theorem xOf_eq (D : E1 → EReal) (l : ℕ) (hl : l < 7) (h : S7x6.Slices ![l, 0] S1x6) : xOf (dArr D) zTab l h = xArr D l := by
  funext i
  obtain ⟨p, q, rfl⟩ : ∃ (p : Fin 500000) (q : Fin 6), i = ix2 p q := ⟨i 0, i 1, eq_ix2 i⟩
  exact (congrArg₂ (· * ·) (col_at (dArr D) p q) ((row_at _ p q).trans (tab_at zTab l hl h q))).trans rfl

/-- N_{l,r} · j_l(x). -/
private theorem rbf_eq (D : E1 → EReal) (l : ℕ) :
    mulf (F := Ideal) (s := S500000x6) (φ := .f32) (rowB (bRow l)) (jArr D l l) = rbfArr D l := by
  funext i
  obtain ⟨p, q, rfl⟩ : ∃ (p : Fin 500000) (q : Fin 6), i = ix2 p q := ⟨i 0, i 1, eq_ix2 i⟩
  exact (congrArg (· * jArr D l l (ix2 p q)) (row_at (bRow l) p q)).trans rfl

private theorem j0Of_eq (D : E1 → EReal) (l : ℕ) : j0Of (xArr D l) = jArr D l 0 := rfl
private theorem j1Of_eq (D : E1 → EReal) (l : ℕ) : j1Of (xArr D l) = jArr D l 1 := rfl

/-- One step of the recurrence: j_{k+2} = ((2k+3)/x) · j_{k+1} − j_k. -/
private theorem stepA_eq (D : E1 → EReal) (l k c n1 n2 : ℕ) (hc : c = 2 * k + 3) (h1 : n1 = k + 1) (h2 : n2 = k + 2) :
    stepA (cArr (fw c)) (xArr D l) (jArr D l n1) (jArr D l k) = jArr D l n2 := by
  subst hc h1 h2
  rfl

private theorem jOf_eq (D : E1 → EReal) (l : ℕ) : ∀ n : ℕ, jOf (xArr D l) n = jArr D l n
  | 0 => j0Of_eq D l
  | 1 => j1Of_eq D l
  | (k + 2) => by
    rw [jOf, splat_eq, jOf_eq D l (k + 1), jOf_eq D l k]
    exact stepA_eq D l k _ _ _ rfl rfl rfl

/-! ## The stretch: each result as the pieces applied to the buffers the stretch finds -/

private theorem e180 (W : Valuation τ sig (Elt Ideal)) :
    after ops3 W (main_v180 : DevRef τ sig)
      = mulf (F := Ideal) (s := S500000x6) (φ := .f32) (rowB (W (main_v146 : DevRef τ sig)))
          (stepA (splat (fw 9)) (W (main_v153 : DevRef τ sig)) (stepA (splat (fw 7)) (W (main_v153 : DevRef τ sig)) (stepA (splat (fw 5)) (W (main_v153 : DevRef τ sig)) (stepA (W (main_v162 : DevRef τ sig)) (W (main_v153 : DevRef τ sig)) (W (main_v161 : DevRef τ sig)) (W (main_v155 : DevRef τ sig))) (W (main_v161 : DevRef τ sig))) (stepA (W (main_v162 : DevRef τ sig)) (W (main_v153 : DevRef τ sig)) (W (main_v161 : DevRef τ sig)) (W (main_v155 : DevRef τ sig)))) (stepA (splat (fw 5)) (W (main_v153 : DevRef τ sig)) (stepA (W (main_v162 : DevRef τ sig)) (W (main_v153 : DevRef τ sig)) (W (main_v161 : DevRef τ sig)) (W (main_v155 : DevRef τ sig))) (W (main_v161 : DevRef τ sig)))) := by
  after_results_simp <;> rfl

private theorem e182 (W : Valuation τ sig (Elt Ideal)) :
    after ops3 W (main_v182 : DevRef τ sig)
      = tabRow (W (main_cst_0 : DevRef τ sig)) 6 slices_S7x6_S1x6_6_0 := by
  after_results_simp <;> rfl

private theorem e189 (W : Valuation τ sig (Elt Ideal)) :
    after ops3 W (main_v189 : DevRef τ sig)
      = xOf (W (main_v1 : DevRef τ sig)) (W (main_cst : DevRef τ sig)) 6 slices_S7x6_S1x6_6_0 := by
  after_results_simp <;> rfl

private theorem e209 (W : Valuation τ sig (Elt Ideal)) :
    after ops3 W (main_v209 : DevRef τ sig)
      = jOf (xOf (W (main_v1 : DevRef τ sig)) (W (main_cst : DevRef τ sig)) 6 slices_S7x6_S1x6_6_0) 4 := by
  after_results_simp <;> rfl

private theorem e213 (W : Valuation τ sig (Elt Ideal)) :
    after ops3 W (main_v213 : DevRef τ sig)
      = jOf (xOf (W (main_v1 : DevRef τ sig)) (W (main_cst : DevRef τ sig)) 6 slices_S7x6_S1x6_6_0) 5 := by
  after_results_simp <;> rfl

private theorem e214 (W : Valuation τ sig (Elt Ideal)) :
    after ops3 W (main_v214 : DevRef τ sig)
      = splat (fw 11) := by
  after_results_simp <;> rfl

/-! ## The stretch's results in closed form -/

theorem win3 (W : Valuation τ sig (Elt Ideal)) (D : E1 → EReal)
    (h1 : W (main_v1 : DevRef τ sig) = dArr D) (hz : W (main_cst : DevRef τ sig) = zTab) (hb : W (main_cst_0 : DevRef τ sig) = bTab)
    (h146 : W (main_v146 : DevRef τ sig) = bRow 5) (h153 : W (main_v153 : DevRef τ sig) = xArr D 5)
    (h155 : W (main_v155 : DevRef τ sig) = jArr D 5 0) (h161 : W (main_v161 : DevRef τ sig) = jArr D 5 1)
    (h162 : W (main_v162 : DevRef τ sig) = cArr (fw 3)) :
    after ops3 W (main_v180 : DevRef τ sig) = rbfArr D 5
  ∧ after ops3 W (main_v182 : DevRef τ sig) = bRow 6
  ∧ after ops3 W (main_v189 : DevRef τ sig) = xArr D 6
  ∧ after ops3 W (main_v209 : DevRef τ sig) = jArr D 6 4
  ∧ after ops3 W (main_v213 : DevRef τ sig) = jArr D 6 5
  ∧ after ops3 W (main_v214 : DevRef τ sig) = cArr (fw 11) := by
  refine ⟨?_, ?_, ?_, ?_, ?_, ?_⟩
  · -- order 5: four steps of the recurrence from the j_0, j_1 the stretch finds, then the row of normalisations
    rw [e180, h146, h153, h155, h161, h162]
    simp only [splat_eq]
    rw [stepA_eq D 5 0 3 1 2 rfl rfl rfl, stepA_eq D 5 1 5 2 3 rfl rfl rfl, stepA_eq D 5 2 7 3 4 rfl rfl rfl,
      stepA_eq D 5 3 9 4 5 rfl rfl rfl, rbf_eq D 5]
  · rw [e182, hb, tabRow_b 6 (by omega)]
  · rw [e189, h1, hz, xOf_eq D 6 (by omega)]
  · -- order 6 up to j_4
    rw [e209, h1, hz, xOf_eq D 6 (by omega), jOf_eq D 6 4]
  · -- and j_5
    rw [e213, h1, hz, xOf_eq D 6 (by omega), jOf_eq D 6 5]
  · rw [e214, splat_eq]

end Cert.ReferenceIdeal.Line

end
-- ==== Proof.RefWin4R.lean ====
/-
  The radial half of the fifth stretch of the reference (its operations %215 … %233), read on whole arrays: the last
  step of the upward recurrence of order 6 and its radial basis N_{6,r} j_6(x); the seven orders' bases given a unit
  middle axis and joined along it, so that entry (e, l, r) of the joined array is entry (e, r) of order l; the
  envelope times the cutoff's normalisation, spread over the two new axes and multiplied in. The elementwise
  operations read at an entry are the scalar operations; a broadcast reads one entry of its operand; a join of
  pieces of extent one along the joined axis reads piece l.
-/
import proofs.«110041_j46024869543995_2_alg».proof.Proof.RefOps
import proofs.«110041_j46024869543995_2_alg».proof.Proof.RefForms
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Line

open Cert.ReferenceIdeal Cert.ReferenceIdeal.Gen Idealize.ShloMosaic Idealize.ShloMosaic.TcCoe Idealize.ShloMosaic.StableHlo Cert.Sbl
open Idealize.ShloMosaic.ValueIdx

/-- The contents after two lines run one after the other: the second line's fold over the first's. -/
private theorem after_app (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-! ## The pieces the stretch is made of, as functions of arrays -/

/-- A vector of six spread over every edge: entry (e, r) is entry r of the vector. -/
private def rowB (r : R6 → EReal) : E6 → EReal :=
  broadcastInDim S500000x6 ![0, 1] bcast_S1x6_S500000x6_0_1 (broadcastInDim S1x6 ![1] bcast_S6_S1x6_1 r)

/-- One step of the upward recurrence on whole arrays: (c / x) · a − b. -/
private def stepA (c x a b : E6 → EReal) : E6 → EReal :=
  subf (F := Ideal) (s := S500000x6) (φ := .f32)
    (mulf (F := Ideal) (s := S500000x6) (φ := .f32) (Host.divf (F := Ideal) (s := S500000x6) (φ := .f32) c x) a) b

/-- An [edges, 6] array given a unit middle axis. -/
private def up (x : E6 → EReal) : S500000x1x6.Idx → EReal :=
  broadcastInDim S500000x1x6 ![0, 2] bcast_S500000x6_S500000x1x6_0_2 x

/-- Seven [edges, 1, 6] arrays joined along the middle axis. -/
private def cat7 (u0 u1 u2 u3 u4 u5 u6 : S500000x1x6.Idx → EReal) : E76 → EReal :=
  concatenate S500000x7x6 1 [⟨S500000x1x6, u0⟩, ⟨S500000x1x6, u1⟩, ⟨S500000x1x6, u2⟩, ⟨S500000x1x6, u3⟩, ⟨S500000x1x6, u4⟩,
    ⟨S500000x1x6, u5⟩, ⟨S500000x1x6, u6⟩] concatenates_S500000x1x6_S500000x1x6_S500000x1x6_S500000x1x6_S500000x1x6_S500000x1x6_S500000x1x6_S500000x7x6_d1

/-- One f32 word on every edge; a vector over the edges spread over the orders and radial indices. -/
private def splatE (b : BitVec 32) : E1 → EReal := broadcastInDim S500000 ![] bcast_S_S500000 (constant (F := Ideal) S_ .f32 b)
private def spread (v : E1 → EReal) : E76 → EReal :=
  broadcastInDim S500000x7x6 ![0, 1, 2] bcast_S500000x1x1_S500000x7x6_0_1_2
    (broadcastInDim S500000x1x1 ![0] bcast_S500000_S500000x1x1_0 v)

/-! ## What the pieces hold, entry by entry -/

private theorem row_at (r : R6 → EReal) (p : Fin 500000) (q : Fin 6) : rowB r (ix2 p q) = r (ix1 q) :=
  (broadcastInDim_apply _ _ _ (ix2 p q) (ix2 (0 : Fin 1) q) fun a => by
    match a with
    | ⟨0, _⟩ => rfl
    | ⟨1, _⟩ => rfl).trans
  (broadcastInDim_apply _ _ r (ix2 (0 : Fin 1) q) (ix1 q) fun a => by
    match a with
    | ⟨0, _⟩ => rfl)

private theorem up_at (x : E6 → EReal) (e : Fin 500000) (r : Fin 6) : up x (ix3 e (0 : Fin 1) r) = x (ix2 e r) :=
  broadcastInDim_apply _ _ x (ix3 e (0 : Fin 1) r) (ix2 e r) fun a => by
    match a with
    | ⟨0, _⟩ => rfl
    | ⟨1, _⟩ => rfl

private theorem spread_at (v : E1 → EReal) (e : Fin 500000) (l : Fin 7) (r : Fin 6) : spread v (ix3 e l r) = v (ix1 e) :=
  (broadcastInDim_apply _ _ _ (ix3 e l r) (ix3 e (0 : Fin 1) (0 : Fin 1)) fun a => by
    match a with
    | ⟨0, _⟩ => rfl
    | ⟨1, _⟩ => rfl
    | ⟨2, _⟩ => rfl).trans
  (broadcastInDim_apply _ _ v (ix3 e (0 : Fin 1) (0 : Fin 1)) (ix1 e) fun a => by
    match a with
    | ⟨0, _⟩ => rfl)

/-- The join of seven pieces of extent one along the middle axis: entry (e, l, r) is piece l at (e, 0, r). -/
private theorem cat7_at (u : Fin 7 → S500000x1x6.Idx → EReal) (e : Fin 500000) (l : Fin 7) (r : Fin 6) :
    cat7 (u 0) (u 1) (u 2) (u 3) (u 4) (u 5) (u 6) (ix3 e l r) = u l (ix3 e (0 : Fin 1) r) := by
  match l with
  | ⟨0, _⟩ => exact congrArg (u 0) (funext fun b => Fin.ext (by match b with | ⟨0, _⟩ => rfl | ⟨1, _⟩ => rfl | ⟨2, _⟩ => rfl))
  | ⟨1, _⟩ => exact congrArg (u 1) (funext fun b => Fin.ext (by match b with | ⟨0, _⟩ => rfl | ⟨1, _⟩ => rfl | ⟨2, _⟩ => rfl))
  | ⟨2, _⟩ => exact congrArg (u 2) (funext fun b => Fin.ext (by match b with | ⟨0, _⟩ => rfl | ⟨1, _⟩ => rfl | ⟨2, _⟩ => rfl))
  | ⟨3, _⟩ => exact congrArg (u 3) (funext fun b => Fin.ext (by match b with | ⟨0, _⟩ => rfl | ⟨1, _⟩ => rfl | ⟨2, _⟩ => rfl))
  | ⟨4, _⟩ => exact congrArg (u 4) (funext fun b => Fin.ext (by match b with | ⟨0, _⟩ => rfl | ⟨1, _⟩ => rfl | ⟨2, _⟩ => rfl))
  | ⟨5, _⟩ => exact congrArg (u 5) (funext fun b => Fin.ext (by match b with | ⟨0, _⟩ => rfl | ⟨1, _⟩ => rfl | ⟨2, _⟩ => rfl))
  | ⟨6, _⟩ => exact congrArg (u 6) (funext fun b => Fin.ext (by match b with | ⟨0, _⟩ => rfl | ⟨1, _⟩ => rfl | ⟨2, _⟩ => rfl))

/-- One step of the recurrence: j_{k+2} = ((2k+3)/x) · j_{k+1} − j_k. -/
private theorem stepA_eq (D : E1 → EReal) (l k c n1 n2 : ℕ) (hc : c = 2 * k + 3) (h1 : n1 = k + 1) (h2 : n2 = k + 2) :
    stepA (cArr (fw c)) (xArr D l) (jArr D l n1) (jArr D l k) = jArr D l n2 := by
  subst hc h1 h2
  rfl

/-- N_{l,r} · j_l(x). -/
private theorem rbf_eq (D : E1 → EReal) (l : ℕ) :
    mulf (F := Ideal) (s := S500000x6) (φ := .f32) (rowB (bRow l)) (jArr D l l) = rbfArr D l := by
  funext i
  obtain ⟨p, q, rfl⟩ : ∃ (p : Fin 500000) (q : Fin 6), i = ix2 p q := ⟨i 0, i 1, eq_ix2 i⟩
  exact (congrArg (· * jArr D l l (ix2 p q)) (row_at (bRow l) p q)).trans rfl

/-- The seven orders' bases, by order. -/
private def rbfFam (D : E1 → EReal) (k : Fin 7) : S500000x1x6.Idx → EReal := up (rbfArr D k.val)

/-- The normalised envelope times the joined bases is the radial basis of all orders times the envelope. -/
private theorem rbfEnv_eq (D : E1 → EReal) :
    mulf (F := Ideal) (s := S500000x7x6) (φ := .f32)
      (spread (mulf (F := Ideal) (s := S500000) (φ := .f32) (envArr D) (splatE 0x3DB72DBF#32)))
      (cat7 (up (rbfArr D 0)) (up (rbfArr D 1)) (up (rbfArr D 2)) (up (rbfArr D 3)) (up (rbfArr D 4)) (up (rbfArr D 5))
        (up (rbfArr D 6))) = rbfEnv D := by
  funext i
  obtain ⟨e, l, r, rfl⟩ : ∃ (e : Fin 500000) (l : Fin 7) (r : Fin 6), i = ix3 e l r := ⟨i 0, i 1, i 2, eq_ix3 i⟩
  exact (congrArg₂ (· * ·) (spread_at _ e l r) ((cat7_at (rbfFam D) e l r).trans (up_at _ e r))).trans rfl

/-! ## The stretch, cut where the seven bases are joined

Before the cut: order 6 is finished and each order's basis is given its unit middle axis. From the cut on, over any
contents of the buffers: the join, the envelope's normalisation and spreading, and the product. -/

private theorem p221 (W : Valuation τ sig (Elt Ideal)) :
    after (List.take 13 ops4) W (main_v221 : DevRef τ sig) = up (W (main_v40 : DevRef τ sig)) := by
  simp only [ops4, List.take_succ_cons, List.take_zero]
  after_results_simp <;> rfl

private theorem p222 (W : Valuation τ sig (Elt Ideal)) :
    after (List.take 13 ops4) W (main_v222 : DevRef τ sig) = up (W (main_v60 : DevRef τ sig)) := by
  simp only [ops4, List.take_succ_cons, List.take_zero]
  after_results_simp <;> rfl

private theorem p223 (W : Valuation τ sig (Elt Ideal)) :
    after (List.take 13 ops4) W (main_v223 : DevRef τ sig) = up (W (main_v84 : DevRef τ sig)) := by
  simp only [ops4, List.take_succ_cons, List.take_zero]
  after_results_simp <;> rfl

private theorem p224 (W : Valuation τ sig (Elt Ideal)) :
    after (List.take 13 ops4) W (main_v224 : DevRef τ sig) = up (W (main_v112 : DevRef τ sig)) := by
  simp only [ops4, List.take_succ_cons, List.take_zero]
  after_results_simp <;> rfl

private theorem p225 (W : Valuation τ sig (Elt Ideal)) :
    after (List.take 13 ops4) W (main_v225 : DevRef τ sig) = up (W (main_v144 : DevRef τ sig)) := by
  simp only [ops4, List.take_succ_cons, List.take_zero]
  after_results_simp <;> rfl

private theorem p226 (W : Valuation τ sig (Elt Ideal)) :
    after (List.take 13 ops4) W (main_v226 : DevRef τ sig) = up (W (main_v180 : DevRef τ sig)) := by
  simp only [ops4, List.take_succ_cons, List.take_zero]
  after_results_simp <;> rfl

private theorem p227 (W : Valuation τ sig (Elt Ideal)) :
    after (List.take 13 ops4) W (main_v227 : DevRef τ sig) = up (mulf (F := Ideal) (s := S500000x6) (φ := .f32) (rowB (W (main_v182 : DevRef τ sig)))
        (stepA (W (main_v214 : DevRef τ sig)) (W (main_v189 : DevRef τ sig)) (W (main_v213 : DevRef τ sig)) (W (main_v209 : DevRef τ sig)))) := by
  simp only [ops4, List.take_succ_cons, List.take_zero]
  after_results_simp <;> rfl

private theorem p26 (W : Valuation τ sig (Elt Ideal)) :
    after (List.take 13 ops4) W (main_v26 : DevRef τ sig) = (W (main_v26 : DevRef τ sig)) := by
  simp only [ops4, List.take_succ_cons, List.take_zero]
  after_results_simp <;> rfl

private theorem t233 (V : Valuation τ sig (Elt Ideal)) :
    after (List.drop 13 ops4) V (main_v233 : DevRef τ sig)
      = mulf (F := Ideal) (s := S500000x7x6) (φ := .f32)
          (spread (mulf (F := Ideal) (s := S500000) (φ := .f32) (V (main_v26 : DevRef τ sig)) (splatE 0x3DB72DBF#32)))
          (cat7 (V (main_v221 : DevRef τ sig)) (V (main_v222 : DevRef τ sig)) (V (main_v223 : DevRef τ sig)) (V (main_v224 : DevRef τ sig)) (V (main_v225 : DevRef τ sig)) (V (main_v226 : DevRef τ sig)) (V (main_v227 : DevRef τ sig))) := by
  simp only [ops4, List.drop_succ_cons, List.drop_zero]
  after_results_simp <;> rfl

/-! ## The stretch's radial result in closed form -/

theorem win4R (W : Valuation τ sig (Elt Ideal)) (D : E1 → EReal)
    (h26 : W (main_v26 : DevRef τ sig) = envArr D)
    (h40 : W (main_v40 : DevRef τ sig) = rbfArr D 0) (h60 : W (main_v60 : DevRef τ sig) = rbfArr D 1)
    (h84 : W (main_v84 : DevRef τ sig) = rbfArr D 2) (h112 : W (main_v112 : DevRef τ sig) = rbfArr D 3)
    (h144 : W (main_v144 : DevRef τ sig) = rbfArr D 4) (h180 : W (main_v180 : DevRef τ sig) = rbfArr D 5)
    (h182 : W (main_v182 : DevRef τ sig) = bRow 6) (h189 : W (main_v189 : DevRef τ sig) = xArr D 6)
    (h209 : W (main_v209 : DevRef τ sig) = jArr D 6 4) (h213 : W (main_v213 : DevRef τ sig) = jArr D 6 5)
    (h214 : W (main_v214 : DevRef τ sig) = cArr (fw 11)) :
    after ops4 W (main_v233 : DevRef τ sig) = rbfEnv D := by
  have cut : (ops4 : List (HloOp τ sig (Elt Ideal))) = List.take 13 ops4 ++ List.drop 13 ops4 :=
    (List.take_append_drop 13 _).symm
  rw [cut, after_app, t233, p26, p221, p222, p223, p224, p225, p226, p227, h26, h40, h60, h84, h112, h144, h180, h182, h189,
    h209, h213, h214, stepA_eq D 6 4 11 5 6 rfl rfl rfl, rbf_eq D 6, rbfEnv_eq D]

end Cert.ReferenceIdeal.Line

end
-- ==== Proof.RefWin4L.lean ====
/-
  The Legendre stretch of the reference, read off its operations: the cosine of every triplet's angle, the constant one,
  and three steps of the recurrence  (m + 2) P_{m+2} = (2m + 3) ct P_{m+1} − (m + 1) P_m  in the order the operations
  compute it,  P_{m+2} = (((2m + 3) · ct) · P_{m+1} − (m + 1) · P_m) / (m + 2):
    P_2 = ((3 · ct) · ct − 1 · 1) / 2,   P_3 = ((5 · ct) · P_2 − 2 · ct) / 3,   P_4 = ((7 · ct) · P_3 − 3 · P_2) / 4,
  and the first product of the next step, (9 · ct) · P_4. Every operation is elementwise on the [2000000] arrays and
  every constant is one word spread over the triplets, so each array read at a triplet is the scalar recurrence at that
  triplet's cosine. The operations of the stretch before these write none of the buffers read here, so the incoming
  contents enter only through the angles.
-/
import proofs.«110041_j46024869543995_2_alg».proof.Proof.RefOps
import proofs.«110041_j46024869543995_2_alg».proof.Proof.RefForms
import Idealize.ShloMosaic.Lib.StableHlo.Run
import Idealize.ShloMosaic.Lib.ValueIdx

noncomputable section

namespace Cert.ReferenceIdeal.Line

open Cert.ReferenceIdeal Cert.ReferenceIdeal.Gen Idealize.ShloMosaic Idealize.ShloMosaic.TcCoe Idealize.ShloMosaic.StableHlo Cert.Sbl

set_option maxHeartbeats 1000000 in
/-- The cosines. -/
private theorem r234 (W : Valuation τ sig (Elt Ideal)) (A : T1 → EReal) (hA : W (main_arg1 : DevRef τ sig) = A) :
    after ops4 W (main_v234 : DevRef τ sig) = ctArr A := by
  subst hA
  after_results_simp
  rfl

set_option maxHeartbeats 1000000 in
/-- The constant one. -/
private theorem r235 (W : Valuation τ sig (Elt Ideal)) (A : T1 → EReal) (hA : W (main_arg1 : DevRef τ sig) = A) :
    after ops4 W (main_v235 : DevRef τ sig) = onesArr := by
  subst hA
  after_results_simp
  rfl

set_option maxHeartbeats 1000000 in
/-- P_2 of the cosines. -/
private theorem r243 (W : Valuation τ sig (Elt Ideal)) (A : T1 → EReal) (hA : W (main_arg1 : DevRef τ sig) = A) :
    after ops4 W (main_v243 : DevRef τ sig) = legArr A 2 := by
  subst hA
  after_results_simp
  rfl

set_option maxHeartbeats 1000000 in
/-- P_3 of the cosines. -/
private theorem r251 (W : Valuation τ sig (Elt Ideal)) (A : T1 → EReal) (hA : W (main_arg1 : DevRef τ sig) = A) :
    after ops4 W (main_v251 : DevRef τ sig) = legArr A 3 := by
  subst hA
  after_results_simp
  rfl

set_option maxHeartbeats 1000000 in
/-- P_4 of the cosines. -/
private theorem r259 (W : Valuation τ sig (Elt Ideal)) (A : T1 → EReal) (hA : W (main_arg1 : DevRef τ sig) = A) :
    after ops4 W (main_v259 : DevRef τ sig) = legArr A 4 := by
  subst hA
  after_results_simp
  rfl

set_option maxHeartbeats 1000000 in
/-- The product (9 · ct) · P_4. -/
private theorem r262 (W : Valuation τ sig (Elt Ideal)) (A : T1 → EReal) (hA : W (main_arg1 : DevRef τ sig) = A) :
    after ops4 W (main_v262 : DevRef τ sig) = p5Arr A := by
  subst hA
  after_results_simp
  rfl

theorem win4L (W : Valuation τ sig (Elt Ideal)) (A : T1 → EReal) (hA : W (main_arg1 : DevRef τ sig) = A) :
    after ops4 W (main_v234 : DevRef τ sig) = ctArr A
  ∧ after ops4 W (main_v235 : DevRef τ sig) = onesArr
  ∧ after ops4 W (main_v243 : DevRef τ sig) = legArr A 2
  ∧ after ops4 W (main_v251 : DevRef τ sig) = legArr A 3
  ∧ after ops4 W (main_v259 : DevRef τ sig) = legArr A 4
  ∧ after ops4 W (main_v262 : DevRef τ sig) = p5Arr A :=
  ⟨r234 W A hA, r235 W A hA, r243 W A hA, r251 W A hA, r259 W A hA, r262 W A hA⟩

end Cert.ReferenceIdeal.Line

end
-- ==== Proof.RefWin4.lean ====
/-
  The fourth stretch whole: its radial conclusion (the seven orders joined and scaled by the normalised envelope) and
  its angular conclusions (cos A, the constant one, the Legendre polynomials up to order 4 and the first product of the
  step to order 5) are proved apart; here they stand side by side.
-/
import proofs.«110041_j46024869543995_2_alg».proof.Proof.RefWin4R
import proofs.«110041_j46024869543995_2_alg».proof.Proof.RefWin4L

noncomputable section

namespace Cert.ReferenceIdeal.Line
open Cert.ReferenceIdeal Cert.ReferenceIdeal.Gen Idealize.ShloMosaic Idealize.ShloMosaic.TcCoe Idealize.ShloMosaic.StableHlo Cert.Sbl

theorem win4 (W : Valuation τ sig (Elt Ideal)) (D : E1 → EReal) (A : T1 → EReal)
    (hA : W (main_arg1 : DevRef τ sig) = A) (h26 : W (main_v26 : DevRef τ sig) = envArr D)
    (h40 : W (main_v40 : DevRef τ sig) = rbfArr D 0) (h60 : W (main_v60 : DevRef τ sig) = rbfArr D 1)
    (h84 : W (main_v84 : DevRef τ sig) = rbfArr D 2) (h112 : W (main_v112 : DevRef τ sig) = rbfArr D 3)
    (h144 : W (main_v144 : DevRef τ sig) = rbfArr D 4) (h180 : W (main_v180 : DevRef τ sig) = rbfArr D 5)
    (h182 : W (main_v182 : DevRef τ sig) = bRow 6) (h189 : W (main_v189 : DevRef τ sig) = xArr D 6)
    (h209 : W (main_v209 : DevRef τ sig) = jArr D 6 4) (h213 : W (main_v213 : DevRef τ sig) = jArr D 6 5)
    (h214 : W (main_v214 : DevRef τ sig) = cArr (fw 11)) :
    after ops4 W (main_v233 : DevRef τ sig) = rbfEnv D
  ∧ after ops4 W (main_v234 : DevRef τ sig) = ctArr A
  ∧ after ops4 W (main_v235 : DevRef τ sig) = onesArr
  ∧ after ops4 W (main_v243 : DevRef τ sig) = legArr A 2
  ∧ after ops4 W (main_v251 : DevRef τ sig) = legArr A 3
  ∧ after ops4 W (main_v259 : DevRef τ sig) = legArr A 4
  ∧ after ops4 W (main_v262 : DevRef τ sig) = p5Arr A :=
  ⟨win4R W D h26 h40 h60 h84 h112 h144 h180 h182 h189 h209 h213 h214, win4L W A hA⟩

end Cert.ReferenceIdeal.Line

end
-- ==== Proof.RefWin5.lean ====
/-
  The angular stretch of the reference read at an index: the last two steps of the Legendre recurrence (orders
  5 and 6), each order's polynomial times its normalisation Y_l (entry l of the table, cut out, made a scalar
  and spread over the triplets), the seven products made columns and joined side by side, and the two integer
  arrays from which the looked-up edge is chosen. Entry (t, l) of the joined array is column l at t, and every
  column is Y_l P_l(cos A) by unfolding the recurrence.
-/
import proofs.«110041_j46024869543995_2_alg».proof.Proof.RefOps
import proofs.«110041_j46024869543995_2_alg».proof.Proof.RefForms
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxHeartbeats 1000000
noncomputable section

namespace Cert.ReferenceIdeal.Line

open Cert.ReferenceIdeal Cert.ReferenceIdeal.Gen Idealize.ShloMosaic Idealize.ShloMosaic.TcCoe Idealize.ShloMosaic.StableHlo Cert.Sbl
open Idealize.ShloMosaic.ValueIdx

namespace Win5

/-- A vector made a column reads, at row t, the vector at t. -/
theorem col_apply {α : Type} (x : S2000000.Idx → α) (t : Fin 2000000) :
    broadcastInDim S2000000x1 ![0] bcast_S2000000_S2000000x1_0 x (ix2 t (0 : Fin 1)) = x (ix1 t) :=
  broadcastInDim_apply _ _ _ _ (ix1 t) (fun a => by match a with | ⟨0, _⟩ => rfl)

/-- Entry o of the angular normalisations, cut out, made a scalar and spread over the triplets. -/
theorem ynorm_apply (o : ℕ) (ho : o < 7) (h : S7.Slices ![o] S1) (g : S_.Idx → EReal)
    (hg : g = fun i => shapeCast S_ (extractStridedSlice S1 ![o] yTab h) shapeCasts_S1_S_ i) (j : S2000000.Idx) :
    broadcastInDim (s := S_) S2000000 (![] : Fin 0 → Fin S2000000.rank) bcast_S_S2000000 g j = w (yW o) := by
  subst hg
  refine (broadcastInDim_apply _ _ _ _ ix0 (fun a => a.elim0)).trans ?_
  show shapeCast S_ (extractStridedSlice S1 ![o] yTab h) shapeCasts_S1_S_ ix0 = _
  refine (shapeCast_apply _ _ ix0 (ix1 (0 : Fin 1)) ?_).trans ?_
  · rw [Shape.rowMajor_val_one]
    exact (Nat.lt_one_iff.mp (S_.rowMajor ix0).isLt).symm
  exact extractStridedSlice_apply _ _ _ _ (ix1 (⟨o, ho⟩ : Fin 7)) (fun a => by match a with | ⟨0, _⟩ => rfl)

/-- Seven columns joined side by side: entry (t, l) is column l at t. -/
theorem concat7_cols_apply {α : Type} (x0 x1 x2 x3 x4 x5 x6 : S2000000x1.Idx → α)
    (h : Shape.Concatenates [S2000000x1, S2000000x1, S2000000x1, S2000000x1, S2000000x1, S2000000x1, S2000000x1] S2000000x7 1)
    (t : Fin 2000000) (l : Fin 7) :
    concatenate S2000000x7 1 [⟨S2000000x1, x0⟩, ⟨S2000000x1, x1⟩, ⟨S2000000x1, x2⟩, ⟨S2000000x1, x3⟩, ⟨S2000000x1, x4⟩,
        ⟨S2000000x1, x5⟩, ⟨S2000000x1, x6⟩] h (ix2 t l)
      = (![x0, x1, x2, x3, x4, x5, x6] l) (ix2 t (0 : Fin 1)) := by
  match l with
  | ⟨0, _⟩ => exact congrArg x0 (funext fun b => Fin.ext (by match b with | ⟨0, _⟩ => rfl | ⟨1, _⟩ => rfl))
  | ⟨1, _⟩ => exact congrArg x1 (funext fun b => Fin.ext (by match b with | ⟨0, _⟩ => rfl | ⟨1, _⟩ => rfl))
  | ⟨2, _⟩ => exact congrArg x2 (funext fun b => Fin.ext (by match b with | ⟨0, _⟩ => rfl | ⟨1, _⟩ => rfl))
  | ⟨3, _⟩ => exact congrArg x3 (funext fun b => Fin.ext (by match b with | ⟨0, _⟩ => rfl | ⟨1, _⟩ => rfl))
  | ⟨4, _⟩ => exact congrArg x4 (funext fun b => Fin.ext (by match b with | ⟨0, _⟩ => rfl | ⟨1, _⟩ => rfl))
  | ⟨5, _⟩ => exact congrArg x5 (funext fun b => Fin.ext (by match b with | ⟨0, _⟩ => rfl | ⟨1, _⟩ => rfl))
  | ⟨6, _⟩ => exact congrArg x6 (funext fun b => Fin.ext (by match b with | ⟨0, _⟩ => rfl | ⟨1, _⟩ => rfl))

/-- Column l of the angular basis: Y_l P_l(cos A) of every triplet, as a [2000000, 1] array. -/
def colArr (A : T1 → EReal) (l : ℕ) : S2000000x1.Idx → EReal :=
  fun i => w (yW l) * leg l (Ideal.cos (A (ix1 ⟨(i 0).val, idx2_lt0 i⟩)))

theorem piece0 (W : Valuation τ sig (Elt Ideal)) (A : T1 → EReal)
    (hy : W (main_cst_1 : DevRef τ sig) = yTab)
    (h234 : W (main_v234 : DevRef τ sig) = ctArr A) (h235 : W (main_v235 : DevRef τ sig) = onesArr)
    (h243 : W (main_v243 : DevRef τ sig) = legArr A 2) (h251 : W (main_v251 : DevRef τ sig) = legArr A 3)
    (h259 : W (main_v259 : DevRef τ sig) = legArr A 4) (h262 : W (main_v262 : DevRef τ sig) = p5Arr A) :
    after (List.take 53 ops5) W (main_v304 : DevRef τ sig) = colArr A 0 := by
  simp only [ops5, List.take_succ_cons, List.take_zero]
  after_results_simp
  simp only [hy, h234, h235, h243, h251, h259, h262]
  funext i
  obtain ⟨t, z, rfl⟩ : ∃ (t : Fin 2000000) (z : Fin 1), i = ix2 t z := ⟨i 0, i 1, eq_ix2 i⟩
  obtain rfl : z = 0 := Subsingleton.elim _ _
  rw [col_apply, mulf_apply]
  refine (congrArg (· * _) (ynorm_apply 0 (by decide) _ _ rfl (ix1 t))).trans ?_
  rfl

theorem piece1 (W : Valuation τ sig (Elt Ideal)) (A : T1 → EReal)
    (hy : W (main_cst_1 : DevRef τ sig) = yTab)
    (h234 : W (main_v234 : DevRef τ sig) = ctArr A) (h235 : W (main_v235 : DevRef τ sig) = onesArr)
    (h243 : W (main_v243 : DevRef τ sig) = legArr A 2) (h251 : W (main_v251 : DevRef τ sig) = legArr A 3)
    (h259 : W (main_v259 : DevRef τ sig) = legArr A 4) (h262 : W (main_v262 : DevRef τ sig) = p5Arr A) :
    after (List.take 53 ops5) W (main_v305 : DevRef τ sig) = colArr A 1 := by
  simp only [ops5, List.take_succ_cons, List.take_zero]
  after_results_simp
  simp only [hy, h234, h235, h243, h251, h259, h262]
  funext i
  obtain ⟨t, z, rfl⟩ : ∃ (t : Fin 2000000) (z : Fin 1), i = ix2 t z := ⟨i 0, i 1, eq_ix2 i⟩
  obtain rfl : z = 0 := Subsingleton.elim _ _
  rw [col_apply, mulf_apply]
  refine (congrArg (· * _) (ynorm_apply 1 (by decide) _ _ rfl (ix1 t))).trans ?_
  rfl

theorem piece2 (W : Valuation τ sig (Elt Ideal)) (A : T1 → EReal)
    (hy : W (main_cst_1 : DevRef τ sig) = yTab)
    (h234 : W (main_v234 : DevRef τ sig) = ctArr A) (h235 : W (main_v235 : DevRef τ sig) = onesArr)
    (h243 : W (main_v243 : DevRef τ sig) = legArr A 2) (h251 : W (main_v251 : DevRef τ sig) = legArr A 3)
    (h259 : W (main_v259 : DevRef τ sig) = legArr A 4) (h262 : W (main_v262 : DevRef τ sig) = p5Arr A) :
    after (List.take 53 ops5) W (main_v306 : DevRef τ sig) = colArr A 2 := by
  simp only [ops5, List.take_succ_cons, List.take_zero]
  after_results_simp
  simp only [hy, h234, h235, h243, h251, h259, h262]
  funext i
  obtain ⟨t, z, rfl⟩ : ∃ (t : Fin 2000000) (z : Fin 1), i = ix2 t z := ⟨i 0, i 1, eq_ix2 i⟩
  obtain rfl : z = 0 := Subsingleton.elim _ _
  rw [col_apply, mulf_apply]
  refine (congrArg (· * _) (ynorm_apply 2 (by decide) _ _ rfl (ix1 t))).trans ?_
  rfl

theorem piece3 (W : Valuation τ sig (Elt Ideal)) (A : T1 → EReal)
    (hy : W (main_cst_1 : DevRef τ sig) = yTab)
    (h234 : W (main_v234 : DevRef τ sig) = ctArr A) (h235 : W (main_v235 : DevRef τ sig) = onesArr)
    (h243 : W (main_v243 : DevRef τ sig) = legArr A 2) (h251 : W (main_v251 : DevRef τ sig) = legArr A 3)
    (h259 : W (main_v259 : DevRef τ sig) = legArr A 4) (h262 : W (main_v262 : DevRef τ sig) = p5Arr A) :
    after (List.take 53 ops5) W (main_v307 : DevRef τ sig) = colArr A 3 := by
  simp only [ops5, List.take_succ_cons, List.take_zero]
  after_results_simp
  simp only [hy, h234, h235, h243, h251, h259, h262]
  funext i
  obtain ⟨t, z, rfl⟩ : ∃ (t : Fin 2000000) (z : Fin 1), i = ix2 t z := ⟨i 0, i 1, eq_ix2 i⟩
  obtain rfl : z = 0 := Subsingleton.elim _ _
  rw [col_apply, mulf_apply]
  refine (congrArg (· * _) (ynorm_apply 3 (by decide) _ _ rfl (ix1 t))).trans ?_
  rfl

theorem piece4 (W : Valuation τ sig (Elt Ideal)) (A : T1 → EReal)
    (hy : W (main_cst_1 : DevRef τ sig) = yTab)
    (h234 : W (main_v234 : DevRef τ sig) = ctArr A) (h235 : W (main_v235 : DevRef τ sig) = onesArr)
    (h243 : W (main_v243 : DevRef τ sig) = legArr A 2) (h251 : W (main_v251 : DevRef τ sig) = legArr A 3)
    (h259 : W (main_v259 : DevRef τ sig) = legArr A 4) (h262 : W (main_v262 : DevRef τ sig) = p5Arr A) :
    after (List.take 53 ops5) W (main_v308 : DevRef τ sig) = colArr A 4 := by
  simp only [ops5, List.take_succ_cons, List.take_zero]
  after_results_simp
  simp only [hy, h234, h235, h243, h251, h259, h262]
  funext i
  obtain ⟨t, z, rfl⟩ : ∃ (t : Fin 2000000) (z : Fin 1), i = ix2 t z := ⟨i 0, i 1, eq_ix2 i⟩
  obtain rfl : z = 0 := Subsingleton.elim _ _
  rw [col_apply, mulf_apply]
  refine (congrArg (· * _) (ynorm_apply 4 (by decide) _ _ rfl (ix1 t))).trans ?_
  rfl

theorem piece5 (W : Valuation τ sig (Elt Ideal)) (A : T1 → EReal)
    (hy : W (main_cst_1 : DevRef τ sig) = yTab)
    (h234 : W (main_v234 : DevRef τ sig) = ctArr A) (h235 : W (main_v235 : DevRef τ sig) = onesArr)
    (h243 : W (main_v243 : DevRef τ sig) = legArr A 2) (h251 : W (main_v251 : DevRef τ sig) = legArr A 3)
    (h259 : W (main_v259 : DevRef τ sig) = legArr A 4) (h262 : W (main_v262 : DevRef τ sig) = p5Arr A) :
    after (List.take 53 ops5) W (main_v309 : DevRef τ sig) = colArr A 5 := by
  simp only [ops5, List.take_succ_cons, List.take_zero]
  after_results_simp
  simp only [hy, h234, h235, h243, h251, h259, h262]
  funext i
  obtain ⟨t, z, rfl⟩ : ∃ (t : Fin 2000000) (z : Fin 1), i = ix2 t z := ⟨i 0, i 1, eq_ix2 i⟩
  obtain rfl : z = 0 := Subsingleton.elim _ _
  rw [col_apply, mulf_apply]
  refine (congrArg (· * _) (ynorm_apply 5 (by decide) _ _ rfl (ix1 t))).trans ?_
  rfl

theorem piece6 (W : Valuation τ sig (Elt Ideal)) (A : T1 → EReal)
    (hy : W (main_cst_1 : DevRef τ sig) = yTab)
    (h234 : W (main_v234 : DevRef τ sig) = ctArr A) (h235 : W (main_v235 : DevRef τ sig) = onesArr)
    (h243 : W (main_v243 : DevRef τ sig) = legArr A 2) (h251 : W (main_v251 : DevRef τ sig) = legArr A 3)
    (h259 : W (main_v259 : DevRef τ sig) = legArr A 4) (h262 : W (main_v262 : DevRef τ sig) = p5Arr A) :
    after (List.take 53 ops5) W (main_v310 : DevRef τ sig) = colArr A 6 := by
  simp only [ops5, List.take_succ_cons, List.take_zero]
  after_results_simp
  simp only [hy, h234, h235, h243, h251, h259, h262]
  funext i
  obtain ⟨t, z, rfl⟩ : ∃ (t : Fin 2000000) (z : Fin 1), i = ix2 t z := ⟨i 0, i 1, eq_ix2 i⟩
  obtain rfl : z = 0 := Subsingleton.elim _ _
  rw [col_apply, mulf_apply]
  refine (congrArg (· * _) (ynorm_apply 6 (by decide) _ _ rfl (ix1 t))).trans ?_
  rfl

/-- The seven columns joined: over any contents, the join and the two integer arrays after the window's last
    seven operations. -/
theorem tail5 (V : Valuation τ sig (Elt Ideal)) :
    after (List.drop 53 ops5) V (main_v311 : DevRef τ sig)
      = concatenate S2000000x7 1 [⟨S2000000x1, V (main_v304 : DevRef τ sig)⟩, ⟨S2000000x1, V (main_v305 : DevRef τ sig)⟩,
          ⟨S2000000x1, V (main_v306 : DevRef τ sig)⟩, ⟨S2000000x1, V (main_v307 : DevRef τ sig)⟩,
          ⟨S2000000x1, V (main_v308 : DevRef τ sig)⟩, ⟨S2000000x1, V (main_v309 : DevRef τ sig)⟩,
          ⟨S2000000x1, V (main_v310 : DevRef τ sig)⟩]
          Facts₀.concatenates_S2000000x1_S2000000x1_S2000000x1_S2000000x1_S2000000x1_S2000000x1_S2000000x1_S2000000x7_d1 := by
  simp only [ops5, List.drop_succ_cons, List.drop_zero, after_cons, after_nil]
  rfl

end Win5

open Win5 in
theorem win5 (W : Valuation τ sig (Elt Ideal)) (A : T1 → EReal) (I : T1 → BitVec 32)
    (hI : W (main_arg2 : DevRef τ sig) = I) (hy : W (main_cst_1 : DevRef τ sig) = yTab)
    (h234 : W (main_v234 : DevRef τ sig) = ctArr A) (h235 : W (main_v235 : DevRef τ sig) = onesArr)
    (h243 : W (main_v243 : DevRef τ sig) = legArr A 2) (h251 : W (main_v251 : DevRef τ sig) = legArr A 3)
    (h259 : W (main_v259 : DevRef τ sig) = legArr A 4) (h262 : W (main_v262 : DevRef τ sig) = p5Arr A) :
    after ops5 W (main_v311 : DevRef τ sig) = sphArr A
  ∧ after ops5 W (main_v313 : DevRef τ sig) = negArr I
  ∧ after ops5 W (main_v315 : DevRef τ sig) = addArr I := by
  refine ⟨?_, ?_, ?_⟩
  · have cut : (ops5 : List (HloOp τ sig (Elt Ideal))) = List.take 53 ops5 ++ List.drop 53 ops5 :=
      (List.take_append_drop 53 _).symm
    rw [cut, after_append, tail5, piece0 W A hy h234 h235 h243 h251 h259 h262, piece1 W A hy h234 h235 h243 h251 h259 h262,
      piece2 W A hy h234 h235 h243 h251 h259 h262, piece3 W A hy h234 h235 h243 h251 h259 h262,
      piece4 W A hy h234 h235 h243 h251 h259 h262, piece5 W A hy h234 h235 h243 h251 h259 h262,
      piece6 W A hy h234 h235 h243 h251 h259 h262]
    funext i
    obtain ⟨t, l, rfl⟩ : ∃ (t : Fin 2000000) (l : Fin 7), i = ix2 t l := ⟨i 0, i 1, eq_ix2 i⟩
    rw [concat7_cols_apply]
    match l with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  · after_results_simp
    rw [hI]
    rfl
  · after_results_simp
    rw [hI]
    rfl

end Cert.ReferenceIdeal.Line
end
-- ==== Proof.RefWin6.lean ====
/-
  The last stretch of the reference read at an index: the looked-up edge of every triplet, the rows of the
  radial array gathered at it, the angular basis spread over the radial axis, the product, and the two last
  axes merged. Entry (t, k) of the result is entry (t, k / 6, k % 6) of the product, the gathered row is the
  row of the edge the triplet's index word selects (a negative word counts from the end, and the start index
  is read signed and clamped into the array), and 6 (k / 6) + k % 6 = k brings the tables' arguments to k.
-/
import proofs.«110041_j46024869543995_2_alg».proof.Proof.RefOps
import proofs.«110041_j46024869543995_2_alg».proof.Proof.RefForms
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Line

open Cert.ReferenceIdeal Cert.ReferenceIdeal.Gen Idealize.ShloMosaic Idealize.ShloMosaic.TcCoe Idealize.ShloMosaic.StableHlo Cert.Sbl
open Idealize.ShloMosaic.ValueIdx

namespace Win6

/-- The gather's dimension numbers: rows of a [500000, 7, 6] array at a [2000000, 1] array of row numbers. -/
local notation "gth" => gather_S500000x7x6_S2000000x1_S2000000x7x6_12_0_n_n_0_1_176

/-- The gather read at (t, l, r): the operand at (e, l, r), e the start index of t read signed and clamped. -/
theorem gather_rows_apply {α : Type} {w : ℕ} (x : S500000x7x6.Idx → α) (idx : IVec S2000000x1 w)
    (t : Fin 2000000) (l : Fin 7) (r : Fin 6) (e : Fin 500000)
    (he : e.val = min (idx (ix2 t (0 : Fin 1))).toInt.toNat 499999) :
    Host.gather gth x idx (ix3 t l r) = x (ix3 e l r) := by
  unfold Host.gather
  refine congrArg x (funext fun a => Fin.ext ?_)
  show GatherDims.start gth (ix3 t l r) idx a + GatherDims.batchCoord gth (ix3 t l r) a + GatherDims.offCoord gth (ix3 t l r) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin S500000x7x6.rank) ∈ GatherDims.startIndexMap gth from List.mem_singleton.mpr rfl)]
    have hsi : GatherDims.siIdx gth (ix3 t l r) ⟨List.idxOf (⟨0, by decide⟩ : Fin S500000x7x6.rank) (GatherDims.startIndexMap gth),
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    exact he.symm
  | ⟨1, _⟩ =>
    have h1 : GatherDims.start gth (ix3 t l r) idx ⟨1, by decide⟩ = 0 := rfl
    have h3 : GatherDims.offCoord gth (ix3 t l r) ⟨1, by decide⟩ = l.val := rfl
    rw [h1, h3]; exact Nat.zero_add _
  | ⟨2, _⟩ =>
    have h1 : GatherDims.start gth (ix3 t l r) idx ⟨2, by decide⟩ = 0 := rfl
    have h3 : GatherDims.offCoord gth (ix3 t l r) ⟨2, by decide⟩ = r.val := rfl
    rw [h1, h3]; exact Nat.zero_add _

end Win6

open Win6 in
theorem win6 (W : Valuation τ sig (Elt Ideal)) (D : E1 → EReal) (A : T1 → EReal) (I : T1 → BitVec 32)
    (hI : W (main_arg2 : DevRef τ sig) = I) (h233 : W (main_v233 : DevRef τ sig) = rbfEnv D)
    (h311 : W (main_v311 : DevRef τ sig) = sphArr A) (h313 : W (main_v313 : DevRef τ sig) = negArr I)
    (h315 : W (main_v315 : DevRef τ sig) = addArr I) :
    after ops6 W (main_v322 : DevRef τ sig) = outArr refOut D A I := by
  after_results
  rw [h233, h311, h313, h315, hI]
  funext i
  obtain ⟨t, k, rfl⟩ : ∃ (t : Fin 2000000) (k : Fin 42), i = ix2 t k := ⟨i 0, i 1, eq_ix2 i⟩
  have hl : k.val / 6 < 7 := by omega
  have hr : k.val % 6 < 6 := Nat.mod_lt _ (by decide)
  -- entry (t, k) of the merged array is entry (t, k / 6, k % 6)
  show shapeCast S2000000x42 _ shapeCasts_S2000000x7x6_S2000000x42 (ix2 t k) = _
  refine (shapeCast_apply _ _ (ix2 t k) (ix3 t (⟨k.val / 6, hl⟩ : Fin 7) (⟨k.val % 6, hr⟩ : Fin 6)) ?_).trans ?_
  · rw [Shape.rowMajor_val_three, Shape.rowMajor_val_two]
    show (t.val * 7 + k.val / 6) * 6 + k.val % 6 = t.val * 42 + k.val
    omega
  -- the angular basis is spread over the radial axis
  have e1 : broadcastInDim S2000000x7x6 ![0, 1, 2] bcast_S2000000x7x1_S2000000x7x6_0_1_2
      (broadcastInDim S2000000x7x1 ![0, 1] bcast_S2000000x7_S2000000x7x1_0_1 (sphArr A))
      (ix3 t (⟨k.val / 6, hl⟩ : Fin 7) (⟨k.val % 6, hr⟩ : Fin 6)) = sphArr A (ix2 t (⟨k.val / 6, hl⟩ : Fin 7)) :=
    (broadcastInDim_apply _ _ _ _ (ix3 t (⟨k.val / 6, hl⟩ : Fin 7) (0 : Fin 1))
      (fun a => by match a with | ⟨0, _⟩ => rfl | ⟨1, _⟩ => rfl | ⟨2, _⟩ => rfl)).trans
    (broadcastInDim_apply _ _ _ _ (ix2 t (⟨k.val / 6, hl⟩ : Fin 7))
      (fun a => by match a with | ⟨0, _⟩ => rfl | ⟨1, _⟩ => rfl))
  -- the start index of triplet t is its selected index word
  have e2 : broadcastInDim S2000000x1 ![0] bcast_S2000000_S2000000x1_0 (select (negArr I) (addArr I) I) (ix2 t (0 : Fin 1))
      = select (negArr I) (addArr I) I (ix1 t) :=
    broadcastInDim_apply _ _ _ _ (ix1 t) (fun a => by match a with | ⟨0, _⟩ => rfl)
  rw [mulf_apply, e1, gather_rows_apply _ _ t _ _ (tri (I (ix1 t))) (by rw [e2]; rfl)]
  have hk6 : 6 * (k.val / 6) + k.val % 6 = k.val := Nat.div_add_mod _ _
  have e : ∀ (n : ℕ), n = k.val → ∀ d a : EReal,
      scaleR (dd d) * (w (bW n) * besR (Ideal.sin (dd d * w (zW n))) (Ideal.cos (dd d * w (zW n))) (dd d * w (zW n)) (k.val / 6))
        * (w (yW (k.val / 6)) * leg (k.val / 6) (Ideal.cos a)) = refOut k.val d a := by
    intro n hn d a; subst hn; rfl
  exact e _ hk6 _ _

end Cert.ReferenceIdeal.Line
end
-- ==== Proof.RefRead.lean ====
/-
  The reference's result array, read off the fold of its whole line of host operations. The line is seven
  stretches; each stretch, from ANY contents in which the buffers it reads hold their closed forms, leaves the
  buffers later stretches read in theirs, and a buffer that is no operation's result within a stretch passes
  through it unchanged. Chaining the seven: d = D/5, the envelope and the three tables from the first stretch; the
  radial basis order by order through the next three (an order whose recurrence is cut by a stretch boundary hands
  over x and the two recurrence members in flight); then the seven orders joined and scaled, cos A and the Legendre
  polynomials; then the angular basis and the two integer arrays the looked-up edge is chosen from; and last the
  rows of the radial array gathered per triplet, times the angular basis, re-laid as [2000000, 42].
-/
import proofs.«110041_j46024869543995_2_alg».proof.Proof.RefRun
import proofs.«110041_j46024869543995_2_alg».proof.Proof.RefKeep
import proofs.«110041_j46024869543995_2_alg».proof.Proof.RefForms
import proofs.«110041_j46024869543995_2_alg».proof.Proof.RefWin0
import proofs.«110041_j46024869543995_2_alg».proof.Proof.RefWin1
import proofs.«110041_j46024869543995_2_alg».proof.Proof.RefWin2
import proofs.«110041_j46024869543995_2_alg».proof.Proof.RefWin3
import proofs.«110041_j46024869543995_2_alg».proof.Proof.RefWin4
import proofs.«110041_j46024869543995_2_alg».proof.Proof.RefWin5
import proofs.«110041_j46024869543995_2_alg».proof.Proof.RefWin6

noncomputable section

namespace Cert.ReferenceIdeal.Line
open Cert.ReferenceIdeal Cert.ReferenceIdeal.Gen Idealize.ShloMosaic Idealize.ShloMosaic.TcCoe Idealize.ShloMosaic.StableHlo Cert.Sbl

/-- A listed buffer's membership in a literal list. -/
macro "inlist" : tactic => `(tactic| simp only [List.mem_cons, List.mem_nil_iff, true_or, or_true, or_false])

/-- The fold of the whole line at the result buffer: the stretches one after the other, each handing the next what
    it reads in closed form, and the last one's product read at (t, k). -/
theorem result_eq (V : Valuation τ sig (Elt Ideal)) :
    after ops V (main_v322 : DevRef τ sig)
      = outArr refOut (V (main_arg0 : DevRef τ sig)) (V (main_arg1 : DevRef τ sig)) (V (main_arg2 : DevRef τ sig)) := by
  have e : after (ops (F := Ideal)) V
      = after ops6 (after ops5 (after ops4 (after ops3 (after ops2 (after ops1 (after ops0 V)))))) := by
    simp only [ops, after_append]
  rw [e]
  generalize hD : V (main_arg0 : DevRef τ sig) = D
  generalize hA : V (main_arg1 : DevRef τ sig) = A
  generalize hI : V (main_arg2 : DevRef τ sig) = I
  -- stretch 0
  obtain ⟨z0, b0, y0, d0, e0, r0, br1, x1⟩ := win0 V D hD
  have a0 := (keep0 V main_arg1 (by inlist)).trans hA
  have i0 := (keep0 V main_arg2 (by inlist)).trans hI
  generalize after ops0 V = W1 at *
  -- stretch 1
  obtain ⟨r1, r2, br3, x3, j31, j32, c5⟩ := win1 W1 D d0 z0 b0 br1 x1
  have z1 := (keep1 W1 main_cst (by inlist)).trans z0
  have b1 := (keep1 W1 main_cst_0 (by inlist)).trans b0
  have y1 := (keep1 W1 main_cst_1 (by inlist)).trans y0
  have d1 := (keep1 W1 main_v1 (by inlist)).trans d0
  have e1 := (keep1 W1 main_v26 (by inlist)).trans e0
  have r01 := (keep1 W1 main_v40 (by inlist)).trans r0
  have a1 := (keep1 W1 main_arg1 (by inlist)).trans a0
  have i1 := (keep1 W1 main_arg2 (by inlist)).trans i0
  generalize after ops1 W1 = W2 at *
  -- stretch 2
  obtain ⟨r3, r4, br5, x5, j50, j51, c3⟩ := win2 W2 D d1 z1 b1 br3 x3 j31 j32 c5
  have z2 := (keep2 W2 main_cst (by inlist)).trans z1
  have b2 := (keep2 W2 main_cst_0 (by inlist)).trans b1
  have y2 := (keep2 W2 main_cst_1 (by inlist)).trans y1
  have d2 := (keep2 W2 main_v1 (by inlist)).trans d1
  have e2 := (keep2 W2 main_v26 (by inlist)).trans e1
  have r02 := (keep2 W2 main_v40 (by inlist)).trans r01
  have r12 := (keep2 W2 main_v60 (by inlist)).trans r1
  have r22 := (keep2 W2 main_v84 (by inlist)).trans r2
  have a2 := (keep2 W2 main_arg1 (by inlist)).trans a1
  have i2 := (keep2 W2 main_arg2 (by inlist)).trans i1
  generalize after ops2 W2 = W3 at *
  -- stretch 3
  obtain ⟨r5, br6, x6, j64, j65, c11⟩ := win3 W3 D d2 z2 b2 br5 x5 j50 j51 c3
  have y3 := (keep3 W3 main_cst_1 (by inlist)).trans y2
  have e3 := (keep3 W3 main_v26 (by inlist)).trans e2
  have r03 := (keep3 W3 main_v40 (by inlist)).trans r02
  have r13 := (keep3 W3 main_v60 (by inlist)).trans r12
  have r23 := (keep3 W3 main_v84 (by inlist)).trans r22
  have r33 := (keep3 W3 main_v112 (by inlist)).trans r3
  have r43 := (keep3 W3 main_v144 (by inlist)).trans r4
  have a3 := (keep3 W3 main_arg1 (by inlist)).trans a2
  have i3 := (keep3 W3 main_arg2 (by inlist)).trans i2
  generalize after ops3 W3 = W4 at *
  -- stretch 4
  obtain ⟨env, ct, on, p2, p3, p4, p5⟩ := win4 W4 D A a3 e3 r03 r13 r23 r33 r43 r5 br6 x6 j64 j65 c11
  have y4 := (keep4 W4 main_cst_1 (by inlist)).trans y3
  have i4 := (keep4 W4 main_arg2 (by inlist)).trans i3
  generalize after ops4 W4 = W5 at *
  -- stretch 5
  obtain ⟨sph, neg, add⟩ := win5 W5 A I i4 y4 ct on p2 p3 p4 p5
  have env5 := (keep5 W5 main_v233 (by inlist)).trans env
  have i5 := (keep5 W5 main_arg2 (by inlist)).trans i4
  generalize after ops5 W5 = W6 at *
  -- stretch 6
  exact win6 W6 D A I i5 env5 sph neg add

/-- Nothing writes an argument. -/
theorem arg_eq (V : Valuation τ sig (Elt Ideal)) (b : Ref sig .tc)
    (hb : b ∈ ([main_arg0, main_arg1, main_arg2, main_arg3] : List (Ref sig .tc))) :
    after ops V (Proc.devRef .tc b) = V (Proc.devRef .tc b) := by
  have e : after (ops (F := Ideal)) V
      = after ops6 (after ops5 (after ops4 (after ops3 (after ops2 (after ops1 (after ops0 V)))))) := by
    simp only [ops, after_append]
  rw [e]
  simp only [List.mem_cons, List.mem_nil_iff, or_false] at hb
  rcases hb with rfl | rfl | rfl | rfl
  all_goals
    rw [keep6 _ _ (by inlist), keep5 _ _ (by inlist), keep4 _ _ (by inlist), keep3 _ _ (by inlist),
      keep2 _ _ (by inlist), keep1 _ _ (by inlist), keep0 _ _ (by inlist)]

end Cert.ReferenceIdeal.Line

end
-- ==== Proof.KerBlockA.lean ====
/-
  The kernel body's output block, read entry by entry: the lemmas every one of its 42 rows shares.

  The body computes on [256, 128] blocks — x0 the gathered distances D, x1 the angles A — and stores row k
  (k = 6 l + r) of the [42, 256, 128] output block as a [1, 256, 128] slab. Every operation is elementwise except the
  shape casts: the two at the loads are the identity, and the one before each store adds a leading unit axis, so slab
  entry (0, p, q) is the [256, 128] value's entry (p, q). Three blocks are shared by all rows: the scaled distance
  d = D · f32(1/5), the envelope times the cutoff's normalisation u(d) · c, and cos A.
-/
import proofs.«110041_j46024869543995_2_alg».proof.Proof.Gen.KernelIdeal.Frame
import proofs.«110041_j46024869543995_2_alg».proof.Proof.Spec
import Idealize.ShloMosaic.Lib.ValueIdx
import Idealize.ShloMosaic.Lib.Pipeline.Value
import Idealize.ShloMosaic.Lib.ValueLayout

noncomputable section

namespace Cert.KernelIdeal.Blk

open Cert.KernelIdeal Cert.KernelIdeal.Gen Idealize.ShloMosaic

/-- A [256, 128] value stored as a [1, 256, 128] slab: slab entry (0, p, q) is the value's entry (p, q) — the two
    have the same row-major position 128 p + q. -/
theorem cast_apply (v : FVec Ideal S256x128 .f32) (h : S256x128.ShapeCasts S1x256x128) (p : Fin 256) (q : Fin 128) :
    shapeCast S1x256x128 v h (ValueIdx.ix3 (0 : Fin 1) p q) = v (ValueIdx.ix2 p q) := by
  refine shapeCast_apply v h _ (ValueIdx.ix2 p q) ?_
  rw [Shape.rowMajor_val_two, Shape.rowMajor_val_three]
  show p.val * 128 + q.val = ((0 : ℕ) * 256 + p.val) * 128 + q.val
  omega

/-- The scaled distance block: entry by entry d = D · f32(1/5). -/
theorem pay2_eq (x0 : Vec Ideal S256x128 .f32) : k0_pay2 x0 = fun i => Cert.Sbl.dd (x0 i) := by
  unfold k0_pay2
  rw [shapeCast_self]
  rfl

/-- The envelope block: entry by entry u(d) · f32(5^(-3/2)), the powers of d grouped as the kernel multiplies them. -/
theorem pay3_eq (x0 : Vec Ideal S256x128 .f32) : k0_pay3 x0 = fun i => Cert.Sbl.scaleK (Cert.Sbl.dd (x0 i)) := by
  unfold k0_pay3
  rw [pay2_eq]
  rfl

/-- The cosine block: entry by entry cos A. -/
theorem pay4_eq (x1 : Vec Ideal S256x128 .f32) : k0_pay4 x1 = fun i => Ideal.cos (x1 i) := by
  unfold k0_pay4
  rw [shapeCast_self]
  rfl

/-- The output block as ONE function of its index: entry (k, p, q) is the spherical basis entry k of the distance
    and the angle at (p, q). -/
def G (x0 x1 : Vec Ideal S256x128 .f32) : Vec Ideal S42x256x128 .f32 := fun j =>
  Cert.Sbl.kerOut (j 0).val (x0 (ValueIdx.ix2 (n0 := 256) (n1 := 128) (j 1) (j 2)))
    (x1 (ValueIdx.ix2 (n0 := 256) (n1 := 128) (j 1) (j 2)))

theorem G_apply (x0 x1 : Vec Ideal S256x128 .f32) (k : Fin 42) (p : Fin 256) (q : Fin 128) :
    G x0 x1 (ValueIdx.ix3 k p q) = Cert.Sbl.kerOut k.val (x0 (ValueIdx.ix2 p q)) (x1 (ValueIdx.ix2 p q)) := rfl

/-- A slab whose entry (0, p, q) is row k's entry at (p, q) is, under the rectangle of rows [k, k+1) × all × all,
    the block of G: the rectangle places slab index (0, p, q) at block index (k, p, q). -/
theorem piece_row (x0 x1 : Vec Ideal S256x128 .f32) (k : ℕ) (hk : k < 42)
    (inb : ∀ a, (![k, 0, 0] : Fin 3 → ℕ) a + S1x256x128.size a ≤ S42x256x128.size a)
    (P : FVec Ideal S1x256x128 .f32)
    (hP : ∀ (p : Fin 256) (q : Fin 128),
      P (ValueIdx.ix3 (0 : Fin 1) p q) = Cert.Sbl.kerOut k (x0 (ValueIdx.ix2 p q)) (x1 (ValueIdx.ix2 p q)))
    (x : (Rect.unit (s := S42x256x128) ![k, 0, 0] S1x256x128.size inb).shape.Idx) :
    P x = G x0 x1 ((Rect.unit (s := S42x256x128) ![k, 0, 0] S1x256x128.size inb).emb x) := by
  obtain ⟨a, p, q, rfl⟩ : ∃ (a : Fin 1) (p : Fin 256) (q : Fin 128), x = ValueIdx.ix3 a p q :=
    ⟨x 0, x 1, x 2, ValueIdx.eq_ix3 x⟩
  obtain rfl : a = 0 := Subsingleton.elim _ _
  have e : (Rect.unit (s := S42x256x128) ![k, 0, 0] S1x256x128.size inb).emb (ValueIdx.ix3 (0 : Fin 1) p q)
      = ValueIdx.ix3 (⟨k, hk⟩ : Fin 42) p q := by
    funext b
    apply Fin.ext
    match b with
    | ⟨0, _⟩ => show k + 1 * 0 = k; omega
    | ⟨1, _⟩ => show 0 + 1 * p.val = p.val; omega
    | ⟨2, _⟩ => show 0 + 1 * q.val = q.val; omega
  rw [e, G_apply]
  exact hP p q

end Cert.KernelIdeal.Blk

end
-- ==== Proof.KerBlockB.lean ====
/-
  Rows 0 … 13 of the kernel body's output block, one lemma per row.

  Spherical orders l = 0, 1 and the first two radial indices of l = 2.
  Each row's slab is an elementwise term of the three shared blocks (d, u(d)·c, cos A) followed by the shape cast that
  adds the leading unit axis; read at (0, p, q) it is, operation for operation, the spherical basis entry of that row:
  the Legendre polynomial by its three-term recurrence from P_0 = 1, P_1 = cos A, and the spherical Bessel function by
  its upward recurrence from j_0 = sin x · (1/x), j_1 = (sin x · (1/x)) · (1/x) − cos x · (1/x), with x = d · z_{l,r}.
-/
import proofs.«110041_j46024869543995_2_alg».proof.Proof.Gen.KernelIdeal.Frame
import proofs.«110041_j46024869543995_2_alg».proof.Proof.Spec
import proofs.«110041_j46024869543995_2_alg».proof.Proof.KerBlockA
import Idealize.ShloMosaic.Lib.ValueIdx
import Idealize.ShloMosaic.Lib.Pipeline.Value
import Idealize.ShloMosaic.Lib.ValueLayout

noncomputable section

namespace Cert.KernelIdeal.Blk

open Cert.KernelIdeal Cert.KernelIdeal.Gen Idealize.ShloMosaic

/-- Row 0 = 6·0 + 0: the slab's entry (0, p, q) is (u(d)·c · (Y_0 · P_0(cos A))) · (N_{0,0} · j_0(z_{0,0} d)) at the
    distance and the angle of (p, q), in the kernel's order of operations. -/
theorem st0 (x0 x1 : Vec Ideal S256x128 .f32) (p : Fin 256) (q : Fin 128) :
    (k0_pay8 (k0_pay7 x0)) (ValueIdx.ix3 (0 : Fin 1) p q)
      = Cert.Sbl.kerOut 0 (x0 (ValueIdx.ix2 p q)) (x1 (ValueIdx.ix2 p q)) := by
  unfold k0_pay8
  refine (cast_apply _ _ p q).trans ?_
  unfold k0_pay7
  simp only [pay2_eq, pay3_eq]
  rfl

/-- Row 1 = 6·0 + 1: the slab's entry (0, p, q) is (u(d)·c · (Y_0 · P_0(cos A))) · (N_{0,1} · j_0(z_{0,1} d)) at the
    distance and the angle of (p, q), in the kernel's order of operations. -/
theorem st1 (x0 x1 : Vec Ideal S256x128 .f32) (p : Fin 256) (q : Fin 128) :
    (k0_pay9 (k0_pay2 x0) (k0_pay3 x0) (k0_pay6 (F := Ideal))) (ValueIdx.ix3 (0 : Fin 1) p q)
      = Cert.Sbl.kerOut 1 (x0 (ValueIdx.ix2 p q)) (x1 (ValueIdx.ix2 p q)) := by
  simp only [pay2_eq, pay3_eq, pay4_eq]
  unfold k0_pay9
  refine (cast_apply _ _ p q).trans ?_
  rfl

/-- Row 2 = 6·0 + 2: the slab's entry (0, p, q) is (u(d)·c · (Y_0 · P_0(cos A))) · (N_{0,2} · j_0(z_{0,2} d)) at the
    distance and the angle of (p, q), in the kernel's order of operations. -/
theorem st2 (x0 x1 : Vec Ideal S256x128 .f32) (p : Fin 256) (q : Fin 128) :
    (k0_pay10 (k0_pay2 x0) (k0_pay3 x0) (k0_pay6 (F := Ideal))) (ValueIdx.ix3 (0 : Fin 1) p q)
      = Cert.Sbl.kerOut 2 (x0 (ValueIdx.ix2 p q)) (x1 (ValueIdx.ix2 p q)) := by
  simp only [pay2_eq, pay3_eq, pay4_eq]
  unfold k0_pay10
  refine (cast_apply _ _ p q).trans ?_
  rfl

/-- Row 3 = 6·0 + 3: the slab's entry (0, p, q) is (u(d)·c · (Y_0 · P_0(cos A))) · (N_{0,3} · j_0(z_{0,3} d)) at the
    distance and the angle of (p, q), in the kernel's order of operations. -/
theorem st3 (x0 x1 : Vec Ideal S256x128 .f32) (p : Fin 256) (q : Fin 128) :
    (k0_pay12 (k0_pay11 (k0_pay2 x0) (k0_pay3 x0) (k0_pay6 (F := Ideal)))) (ValueIdx.ix3 (0 : Fin 1) p q)
      = Cert.Sbl.kerOut 3 (x0 (ValueIdx.ix2 p q)) (x1 (ValueIdx.ix2 p q)) := by
  simp only [pay2_eq, pay3_eq, pay4_eq]
  unfold k0_pay12
  refine (cast_apply _ _ p q).trans ?_
  rfl

/-- Row 4 = 6·0 + 4: the slab's entry (0, p, q) is (u(d)·c · (Y_0 · P_0(cos A))) · (N_{0,4} · j_0(z_{0,4} d)) at the
    distance and the angle of (p, q), in the kernel's order of operations. -/
theorem st4 (x0 x1 : Vec Ideal S256x128 .f32) (p : Fin 256) (q : Fin 128) :
    (k0_pay13 (k0_pay2 x0) (k0_pay3 x0) (k0_pay6 (F := Ideal))) (ValueIdx.ix3 (0 : Fin 1) p q)
      = Cert.Sbl.kerOut 4 (x0 (ValueIdx.ix2 p q)) (x1 (ValueIdx.ix2 p q)) := by
  simp only [pay2_eq, pay3_eq, pay4_eq]
  unfold k0_pay13
  refine (cast_apply _ _ p q).trans ?_
  rfl

/-- Row 5 = 6·0 + 5: the slab's entry (0, p, q) is (u(d)·c · (Y_0 · P_0(cos A))) · (N_{0,5} · j_0(z_{0,5} d)) at the
    distance and the angle of (p, q), in the kernel's order of operations. -/
theorem st5 (x0 x1 : Vec Ideal S256x128 .f32) (p : Fin 256) (q : Fin 128) :
    (k0_pay14 (k0_pay2 x0) (k0_pay3 x0) (k0_pay6 (F := Ideal))) (ValueIdx.ix3 (0 : Fin 1) p q)
      = Cert.Sbl.kerOut 5 (x0 (ValueIdx.ix2 p q)) (x1 (ValueIdx.ix2 p q)) := by
  simp only [pay2_eq, pay3_eq, pay4_eq]
  unfold k0_pay14
  refine (cast_apply _ _ p q).trans ?_
  rfl

/-- Row 6 = 6·1 + 0: the slab's entry (0, p, q) is (u(d)·c · (Y_1 · P_1(cos A))) · (N_{1,0} · j_1(z_{1,0} d)) at the
    distance and the angle of (p, q), in the kernel's order of operations. -/
theorem st6 (x0 x1 : Vec Ideal S256x128 .f32) (p : Fin 256) (q : Fin 128) :
    (k0_pay20 (k0_pay3 x0) (k0_pay15 (k0_pay4 x1)) (k0_pay17 (k0_pay2 x0)) (k0_pay18 (k0_pay2 x0)) (k0_pay19 (k0_pay2 x0))) (ValueIdx.ix3 (0 : Fin 1) p q)
      = Cert.Sbl.kerOut 6 (x0 (ValueIdx.ix2 p q)) (x1 (ValueIdx.ix2 p q)) := by
  simp only [pay2_eq, pay3_eq, pay4_eq]
  unfold k0_pay20
  refine (cast_apply _ _ p q).trans ?_
  rfl

/-- Row 7 = 6·1 + 1: the slab's entry (0, p, q) is (u(d)·c · (Y_1 · P_1(cos A))) · (N_{1,1} · j_1(z_{1,1} d)) at the
    distance and the angle of (p, q), in the kernel's order of operations. -/
theorem st7 (x0 x1 : Vec Ideal S256x128 .f32) (p : Fin 256) (q : Fin 128) :
    (k0_pay21 (k0_pay2 x0) (k0_pay3 x0) (k0_pay15 (k0_pay4 x1))) (ValueIdx.ix3 (0 : Fin 1) p q)
      = Cert.Sbl.kerOut 7 (x0 (ValueIdx.ix2 p q)) (x1 (ValueIdx.ix2 p q)) := by
  simp only [pay2_eq, pay3_eq, pay4_eq]
  unfold k0_pay21
  refine (cast_apply _ _ p q).trans ?_
  rfl

/-- Row 8 = 6·1 + 2: the slab's entry (0, p, q) is (u(d)·c · (Y_1 · P_1(cos A))) · (N_{1,2} · j_1(z_{1,2} d)) at the
    distance and the angle of (p, q), in the kernel's order of operations. -/
theorem st8 (x0 x1 : Vec Ideal S256x128 .f32) (p : Fin 256) (q : Fin 128) :
    (k0_pay23 (k0_pay22 (k0_pay2 x0) (k0_pay3 x0) (k0_pay15 (k0_pay4 x1)))) (ValueIdx.ix3 (0 : Fin 1) p q)
      = Cert.Sbl.kerOut 8 (x0 (ValueIdx.ix2 p q)) (x1 (ValueIdx.ix2 p q)) := by
  simp only [pay2_eq, pay3_eq, pay4_eq]
  unfold k0_pay23
  refine (cast_apply _ _ p q).trans ?_
  rfl

/-- Row 9 = 6·1 + 3: the slab's entry (0, p, q) is (u(d)·c · (Y_1 · P_1(cos A))) · (N_{1,3} · j_1(z_{1,3} d)) at the
    distance and the angle of (p, q), in the kernel's order of operations. -/
theorem st9 (x0 x1 : Vec Ideal S256x128 .f32) (p : Fin 256) (q : Fin 128) :
    (k0_pay24 (k0_pay2 x0) (k0_pay3 x0) (k0_pay15 (k0_pay4 x1))) (ValueIdx.ix3 (0 : Fin 1) p q)
      = Cert.Sbl.kerOut 9 (x0 (ValueIdx.ix2 p q)) (x1 (ValueIdx.ix2 p q)) := by
  simp only [pay2_eq, pay3_eq, pay4_eq]
  unfold k0_pay24
  refine (cast_apply _ _ p q).trans ?_
  rfl

/-- Row 10 = 6·1 + 4: the slab's entry (0, p, q) is (u(d)·c · (Y_1 · P_1(cos A))) · (N_{1,4} · j_1(z_{1,4} d)) at the
    distance and the angle of (p, q), in the kernel's order of operations. -/
theorem st10 (x0 x1 : Vec Ideal S256x128 .f32) (p : Fin 256) (q : Fin 128) :
    (k0_pay25 (k0_pay2 x0) (k0_pay3 x0) (k0_pay15 (k0_pay4 x1))) (ValueIdx.ix3 (0 : Fin 1) p q)
      = Cert.Sbl.kerOut 10 (x0 (ValueIdx.ix2 p q)) (x1 (ValueIdx.ix2 p q)) := by
  simp only [pay2_eq, pay3_eq, pay4_eq]
  unfold k0_pay25
  refine (cast_apply _ _ p q).trans ?_
  rfl

/-- Row 11 = 6·1 + 5: the slab's entry (0, p, q) is (u(d)·c · (Y_1 · P_1(cos A))) · (N_{1,5} · j_1(z_{1,5} d)) at the
    distance and the angle of (p, q), in the kernel's order of operations. -/
theorem st11 (x0 x1 : Vec Ideal S256x128 .f32) (p : Fin 256) (q : Fin 128) :
    (k0_pay30 (k0_pay3 x0) (k0_pay15 (k0_pay4 x1)) (k0_pay27 (k0_pay2 x0)) (k0_pay28 (k0_pay2 x0)) (k0_pay29 (k0_pay2 x0))) (ValueIdx.ix3 (0 : Fin 1) p q)
      = Cert.Sbl.kerOut 11 (x0 (ValueIdx.ix2 p q)) (x1 (ValueIdx.ix2 p q)) := by
  simp only [pay2_eq, pay3_eq, pay4_eq]
  unfold k0_pay30
  refine (cast_apply _ _ p q).trans ?_
  rfl

/-- Row 12 = 6·2 + 0: the slab's entry (0, p, q) is (u(d)·c · (Y_2 · P_2(cos A))) · (N_{2,0} · j_2(z_{2,0} d)) at the
    distance and the angle of (p, q), in the kernel's order of operations. -/
theorem st12 (x0 x1 : Vec Ideal S256x128 .f32) (p : Fin 256) (q : Fin 128) :
    (k0_pay33 (k0_pay2 x0) (k0_pay3 x0) (k0_pay4 x1) (k0_pay5 (F := Ideal))) (ValueIdx.ix3 (0 : Fin 1) p q)
      = Cert.Sbl.kerOut 12 (x0 (ValueIdx.ix2 p q)) (x1 (ValueIdx.ix2 p q)) := by
  simp only [pay2_eq, pay3_eq, pay4_eq]
  unfold k0_pay33
  refine (cast_apply _ _ p q).trans ?_
  rfl

/-- Row 13 = 6·2 + 1: the slab's entry (0, p, q) is (u(d)·c · (Y_2 · P_2(cos A))) · (N_{2,1} · j_2(z_{2,1} d)) at the
    distance and the angle of (p, q), in the kernel's order of operations. -/
theorem st13 (x0 x1 : Vec Ideal S256x128 .f32) (p : Fin 256) (q : Fin 128) :
    (k0_pay34 (k0_pay2 x0) (k0_pay3 x0) (k0_pay32 (k0_pay4 x1) (k0_pay5 (F := Ideal))) (Scalar.ofBits .f32 0x4111852B#32)) (ValueIdx.ix3 (0 : Fin 1) p q)
      = Cert.Sbl.kerOut 13 (x0 (ValueIdx.ix2 p q)) (x1 (ValueIdx.ix2 p q)) := by
  simp only [pay2_eq, pay3_eq, pay4_eq]
  unfold k0_pay34
  refine (cast_apply _ _ p q).trans ?_
  rfl

end Cert.KernelIdeal.Blk

end
-- ==== Proof.KerBlockC.lean ====
/-
  Rows 14 … 27 of the kernel body's output block, one lemma per row.

  The rest of spherical order l = 2, order l = 3, and the first four radial indices of l = 4.
  Each row's slab is an elementwise term of the three shared blocks (d, u(d)·c, cos A) followed by the shape cast that
  adds the leading unit axis; read at (0, p, q) it is, operation for operation, the spherical basis entry of that row:
  the Legendre polynomial by its three-term recurrence from P_0 = 1, P_1 = cos A, and the spherical Bessel function by
  its upward recurrence from j_0 = sin x · (1/x), j_1 = (sin x · (1/x)) · (1/x) − cos x · (1/x), with x = d · z_{l,r}.
-/
import proofs.«110041_j46024869543995_2_alg».proof.Proof.Gen.KernelIdeal.Frame
import proofs.«110041_j46024869543995_2_alg».proof.Proof.Spec
import proofs.«110041_j46024869543995_2_alg».proof.Proof.KerBlockA
import Idealize.ShloMosaic.Lib.ValueIdx
import Idealize.ShloMosaic.Lib.Pipeline.Value
import Idealize.ShloMosaic.Lib.ValueLayout

noncomputable section

namespace Cert.KernelIdeal.Blk

open Cert.KernelIdeal Cert.KernelIdeal.Gen Idealize.ShloMosaic

/-- Row 14 = 6·2 + 2: the slab's entry (0, p, q) is (u(d)·c · (Y_2 · P_2(cos A))) · (N_{2,2} · j_2(z_{2,2} d)) at the
    distance and the angle of (p, q), in the kernel's order of operations. -/
theorem st14 (x0 x1 : Vec Ideal S256x128 .f32) (p : Fin 256) (q : Fin 128) :
    (k0_pay35 (k0_pay2 x0) (k0_pay3 x0) (k0_pay32 (k0_pay4 x1) (k0_pay5 (F := Ideal)))) (ValueIdx.ix3 (0 : Fin 1) p q)
      = Cert.Sbl.kerOut 14 (x0 (ValueIdx.ix2 p q)) (x1 (ValueIdx.ix2 p q)) := by
  simp only [pay2_eq, pay3_eq, pay4_eq]
  unfold k0_pay35
  refine (cast_apply _ _ p q).trans ?_
  rfl

/-- Row 15 = 6·2 + 3: the slab's entry (0, p, q) is (u(d)·c · (Y_2 · P_2(cos A))) · (N_{2,3} · j_2(z_{2,3} d)) at the
    distance and the angle of (p, q), in the kernel's order of operations. -/
theorem st15 (x0 x1 : Vec Ideal S256x128 .f32) (p : Fin 256) (q : Fin 128) :
    (k0_pay36 (k0_pay2 x0) (k0_pay3 x0) (k0_pay32 (k0_pay4 x1) (k0_pay5 (F := Ideal)))) (ValueIdx.ix3 (0 : Fin 1) p q)
      = Cert.Sbl.kerOut 15 (x0 (ValueIdx.ix2 p q)) (x1 (ValueIdx.ix2 p q)) := by
  simp only [pay2_eq, pay3_eq, pay4_eq]
  unfold k0_pay36
  refine (cast_apply _ _ p q).trans ?_
  rfl

/-- Row 16 = 6·2 + 4: the slab's entry (0, p, q) is (u(d)·c · (Y_2 · P_2(cos A))) · (N_{2,4} · j_2(z_{2,4} d)) at the
    distance and the angle of (p, q), in the kernel's order of operations. -/
theorem st16 (x0 x1 : Vec Ideal S256x128 .f32) (p : Fin 256) (q : Fin 128) :
    (k0_pay38 (k0_pay37 (k0_pay2 x0) (k0_pay3 x0) (k0_pay32 (k0_pay4 x1) (k0_pay5 (F := Ideal))))) (ValueIdx.ix3 (0 : Fin 1) p q)
      = Cert.Sbl.kerOut 16 (x0 (ValueIdx.ix2 p q)) (x1 (ValueIdx.ix2 p q)) := by
  simp only [pay2_eq, pay3_eq, pay4_eq]
  unfold k0_pay38
  refine (cast_apply _ _ p q).trans ?_
  rfl

/-- Row 17 = 6·2 + 5: the slab's entry (0, p, q) is (u(d)·c · (Y_2 · P_2(cos A))) · (N_{2,5} · j_2(z_{2,5} d)) at the
    distance and the angle of (p, q), in the kernel's order of operations. -/
theorem st17 (x0 x1 : Vec Ideal S256x128 .f32) (p : Fin 256) (q : Fin 128) :
    (k0_pay39 (k0_pay2 x0) (k0_pay3 x0) (k0_pay32 (k0_pay4 x1) (k0_pay5 (F := Ideal)))) (ValueIdx.ix3 (0 : Fin 1) p q)
      = Cert.Sbl.kerOut 17 (x0 (ValueIdx.ix2 p q)) (x1 (ValueIdx.ix2 p q)) := by
  simp only [pay2_eq, pay3_eq, pay4_eq]
  unfold k0_pay39
  refine (cast_apply _ _ p q).trans ?_
  rfl

/-- Row 18 = 6·3 + 0: the slab's entry (0, p, q) is (u(d)·c · (Y_3 · P_3(cos A))) · (N_{3,0} · j_3(z_{3,0} d)) at the
    distance and the angle of (p, q), in the kernel's order of operations. -/
theorem st18 (x0 x1 : Vec Ideal S256x128 .f32) (p : Fin 256) (q : Fin 128) :
    (k0_pay47 (k0_pay3 x0) (k0_pay41 (k0_pay4 x1) (k0_pay31 (k0_pay4 x1) (k0_pay5 (F := Ideal)))) (k0_pay43 (k0_pay2 x0)) (k0_pay44 (k0_pay2 x0)) (k0_pay45 (k0_pay2 x0)) (k0_pay46 (k0_pay2 x0))) (ValueIdx.ix3 (0 : Fin 1) p q)
      = Cert.Sbl.kerOut 18 (x0 (ValueIdx.ix2 p q)) (x1 (ValueIdx.ix2 p q)) := by
  simp only [pay2_eq, pay3_eq, pay4_eq]
  unfold k0_pay47
  refine (cast_apply _ _ p q).trans ?_
  rfl

/-- Row 19 = 6·3 + 1: the slab's entry (0, p, q) is (u(d)·c · (Y_3 · P_3(cos A))) · (N_{3,1} · j_3(z_{3,1} d)) at the
    distance and the angle of (p, q), in the kernel's order of operations. -/
theorem st19 (x0 x1 : Vec Ideal S256x128 .f32) (p : Fin 256) (q : Fin 128) :
    (k0_pay48 (k0_pay2 x0) (k0_pay3 x0) (k0_pay41 (k0_pay4 x1) (k0_pay31 (k0_pay4 x1) (k0_pay5 (F := Ideal))))) (ValueIdx.ix3 (0 : Fin 1) p q)
      = Cert.Sbl.kerOut 19 (x0 (ValueIdx.ix2 p q)) (x1 (ValueIdx.ix2 p q)) := by
  simp only [pay2_eq, pay3_eq, pay4_eq]
  unfold k0_pay48
  refine (cast_apply _ _ p q).trans ?_
  rfl

/-- Row 20 = 6·3 + 2: the slab's entry (0, p, q) is (u(d)·c · (Y_3 · P_3(cos A))) · (N_{3,2} · j_3(z_{3,2} d)) at the
    distance and the angle of (p, q), in the kernel's order of operations. -/
theorem st20 (x0 x1 : Vec Ideal S256x128 .f32) (p : Fin 256) (q : Fin 128) :
    (k0_pay49 (k0_pay2 x0) (k0_pay3 x0) (k0_pay41 (k0_pay4 x1) (k0_pay31 (k0_pay4 x1) (k0_pay5 (F := Ideal))))) (ValueIdx.ix3 (0 : Fin 1) p q)
      = Cert.Sbl.kerOut 20 (x0 (ValueIdx.ix2 p q)) (x1 (ValueIdx.ix2 p q)) := by
  simp only [pay2_eq, pay3_eq, pay4_eq]
  unfold k0_pay49
  refine (cast_apply _ _ p q).trans ?_
  rfl

/-- Row 21 = 6·3 + 3: the slab's entry (0, p, q) is (u(d)·c · (Y_3 · P_3(cos A))) · (N_{3,3} · j_3(z_{3,3} d)) at the
    distance and the angle of (p, q), in the kernel's order of operations. -/
theorem st21 (x0 x1 : Vec Ideal S256x128 .f32) (p : Fin 256) (q : Fin 128) :
    (k0_pay51 (k0_pay3 x0) (k0_pay41 (k0_pay4 x1) (k0_pay31 (k0_pay4 x1) (k0_pay5 (F := Ideal)))) (k0_pay50 (k0_pay2 x0))) (ValueIdx.ix3 (0 : Fin 1) p q)
      = Cert.Sbl.kerOut 21 (x0 (ValueIdx.ix2 p q)) (x1 (ValueIdx.ix2 p q)) := by
  simp only [pay2_eq, pay3_eq, pay4_eq]
  unfold k0_pay51
  refine (cast_apply _ _ p q).trans ?_
  rfl

/-- Row 22 = 6·3 + 4: the slab's entry (0, p, q) is (u(d)·c · (Y_3 · P_3(cos A))) · (N_{3,4} · j_3(z_{3,4} d)) at the
    distance and the angle of (p, q), in the kernel's order of operations. -/
theorem st22 (x0 x1 : Vec Ideal S256x128 .f32) (p : Fin 256) (q : Fin 128) :
    (k0_pay52 (k0_pay2 x0) (k0_pay3 x0) (k0_pay41 (k0_pay4 x1) (k0_pay31 (k0_pay4 x1) (k0_pay5 (F := Ideal))))) (ValueIdx.ix3 (0 : Fin 1) p q)
      = Cert.Sbl.kerOut 22 (x0 (ValueIdx.ix2 p q)) (x1 (ValueIdx.ix2 p q)) := by
  simp only [pay2_eq, pay3_eq, pay4_eq]
  unfold k0_pay52
  refine (cast_apply _ _ p q).trans ?_
  rfl

/-- Row 23 = 6·3 + 5: the slab's entry (0, p, q) is (u(d)·c · (Y_3 · P_3(cos A))) · (N_{3,5} · j_3(z_{3,5} d)) at the
    distance and the angle of (p, q), in the kernel's order of operations. -/
theorem st23 (x0 x1 : Vec Ideal S256x128 .f32) (p : Fin 256) (q : Fin 128) :
    (k0_pay58 (k0_pay3 x0) (k0_pay41 (k0_pay4 x1) (k0_pay31 (k0_pay4 x1) (k0_pay5 (F := Ideal)))) (k0_pay54 (k0_pay2 x0)) (k0_pay55 (k0_pay2 x0)) (k0_pay56 (k0_pay2 x0)) (k0_pay57 (k0_pay2 x0))) (ValueIdx.ix3 (0 : Fin 1) p q)
      = Cert.Sbl.kerOut 23 (x0 (ValueIdx.ix2 p q)) (x1 (ValueIdx.ix2 p q)) := by
  simp only [pay2_eq, pay3_eq, pay4_eq]
  unfold k0_pay58
  refine (cast_apply _ _ p q).trans ?_
  rfl

/-- Row 24 = 6·4 + 0: the slab's entry (0, p, q) is (u(d)·c · (Y_4 · P_4(cos A))) · (N_{4,0} · j_4(z_{4,0} d)) at the
    distance and the angle of (p, q), in the kernel's order of operations. -/
theorem st24 (x0 x1 : Vec Ideal S256x128 .f32) (p : Fin 256) (q : Fin 128) :
    (k0_pay66 (k0_pay3 x0) (k0_pay60 (k0_pay4 x1) (k0_pay31 (k0_pay4 x1) (k0_pay5 (F := Ideal))) (k0_pay40 (k0_pay4 x1) (k0_pay31 (k0_pay4 x1) (k0_pay5 (F := Ideal))))) (k0_pay62 (k0_pay2 x0)) (k0_pay63 (k0_pay2 x0)) (k0_pay64 (k0_pay2 x0)) (k0_pay65 (k0_pay2 x0))) (ValueIdx.ix3 (0 : Fin 1) p q)
      = Cert.Sbl.kerOut 24 (x0 (ValueIdx.ix2 p q)) (x1 (ValueIdx.ix2 p q)) := by
  simp only [pay2_eq, pay3_eq, pay4_eq]
  unfold k0_pay66
  refine (cast_apply _ _ p q).trans ?_
  rfl

/-- Row 25 = 6·4 + 1: the slab's entry (0, p, q) is (u(d)·c · (Y_4 · P_4(cos A))) · (N_{4,1} · j_4(z_{4,1} d)) at the
    distance and the angle of (p, q), in the kernel's order of operations. -/
theorem st25 (x0 x1 : Vec Ideal S256x128 .f32) (p : Fin 256) (q : Fin 128) :
    (k0_pay67 (k0_pay2 x0) (k0_pay3 x0) (k0_pay60 (k0_pay4 x1) (k0_pay31 (k0_pay4 x1) (k0_pay5 (F := Ideal))) (k0_pay40 (k0_pay4 x1) (k0_pay31 (k0_pay4 x1) (k0_pay5 (F := Ideal)))))) (ValueIdx.ix3 (0 : Fin 1) p q)
      = Cert.Sbl.kerOut 25 (x0 (ValueIdx.ix2 p q)) (x1 (ValueIdx.ix2 p q)) := by
  simp only [pay2_eq, pay3_eq, pay4_eq]
  unfold k0_pay67
  refine (cast_apply _ _ p q).trans ?_
  rfl

/-- Row 26 = 6·4 + 2: the slab's entry (0, p, q) is (u(d)·c · (Y_4 · P_4(cos A))) · (N_{4,2} · j_4(z_{4,2} d)) at the
    distance and the angle of (p, q), in the kernel's order of operations. -/
theorem st26 (x0 x1 : Vec Ideal S256x128 .f32) (p : Fin 256) (q : Fin 128) :
    (k0_pay68 (k0_pay2 x0) (k0_pay3 x0) (k0_pay60 (k0_pay4 x1) (k0_pay31 (k0_pay4 x1) (k0_pay5 (F := Ideal))) (k0_pay40 (k0_pay4 x1) (k0_pay31 (k0_pay4 x1) (k0_pay5 (F := Ideal)))))) (ValueIdx.ix3 (0 : Fin 1) p q)
      = Cert.Sbl.kerOut 26 (x0 (ValueIdx.ix2 p q)) (x1 (ValueIdx.ix2 p q)) := by
  simp only [pay2_eq, pay3_eq, pay4_eq]
  unfold k0_pay68
  refine (cast_apply _ _ p q).trans ?_
  rfl

/-- Row 27 = 6·4 + 3: the slab's entry (0, p, q) is (u(d)·c · (Y_4 · P_4(cos A))) · (N_{4,3} · j_4(z_{4,3} d)) at the
    distance and the angle of (p, q), in the kernel's order of operations. -/
theorem st27 (x0 x1 : Vec Ideal S256x128 .f32) (p : Fin 256) (q : Fin 128) :
    (k0_pay73 (k0_pay3 x0) (k0_pay60 (k0_pay4 x1) (k0_pay31 (k0_pay4 x1) (k0_pay5 (F := Ideal))) (k0_pay40 (k0_pay4 x1) (k0_pay31 (k0_pay4 x1) (k0_pay5 (F := Ideal))))) (k0_pay70 (k0_pay2 x0)) (k0_pay71 (k0_pay2 x0)) (k0_pay72 (k0_pay2 x0))) (ValueIdx.ix3 (0 : Fin 1) p q)
      = Cert.Sbl.kerOut 27 (x0 (ValueIdx.ix2 p q)) (x1 (ValueIdx.ix2 p q)) := by
  simp only [pay2_eq, pay3_eq, pay4_eq]
  unfold k0_pay73
  refine (cast_apply _ _ p q).trans ?_
  rfl

end Cert.KernelIdeal.Blk

end
-- ==== Proof.KerBlockD.lean ====
/-
  Rows 28 … 41 of the kernel body's output block, one lemma per row.

  The rest of spherical order l = 4, and orders l = 5, 6.
  Each row's slab is an elementwise term of the three shared blocks (d, u(d)·c, cos A) followed by the shape cast that
  adds the leading unit axis; read at (0, p, q) it is, operation for operation, the spherical basis entry of that row:
  the Legendre polynomial by its three-term recurrence from P_0 = 1, P_1 = cos A, and the spherical Bessel function by
  its upward recurrence from j_0 = sin x · (1/x), j_1 = (sin x · (1/x)) · (1/x) − cos x · (1/x), with x = d · z_{l,r}.
-/
import proofs.«110041_j46024869543995_2_alg».proof.Proof.Gen.KernelIdeal.Frame
import proofs.«110041_j46024869543995_2_alg».proof.Proof.Spec
import proofs.«110041_j46024869543995_2_alg».proof.Proof.KerBlockA
import Idealize.ShloMosaic.Lib.ValueIdx
import Idealize.ShloMosaic.Lib.Pipeline.Value
import Idealize.ShloMosaic.Lib.ValueLayout

noncomputable section

namespace Cert.KernelIdeal.Blk

open Cert.KernelIdeal Cert.KernelIdeal.Gen Idealize.ShloMosaic

/-- Row 28 = 6·4 + 4: the slab's entry (0, p, q) is (u(d)·c · (Y_4 · P_4(cos A))) · (N_{4,4} · j_4(z_{4,4} d)) at the
    distance and the angle of (p, q), in the kernel's order of operations. -/
theorem st28 (x0 x1 : Vec Ideal S256x128 .f32) (p : Fin 256) (q : Fin 128) :
    (k0_pay75 (k0_pay74 (k0_pay2 x0) (k0_pay3 x0) (k0_pay60 (k0_pay4 x1) (k0_pay31 (k0_pay4 x1) (k0_pay5 (F := Ideal))) (k0_pay40 (k0_pay4 x1) (k0_pay31 (k0_pay4 x1) (k0_pay5 (F := Ideal))))))) (ValueIdx.ix3 (0 : Fin 1) p q)
      = Cert.Sbl.kerOut 28 (x0 (ValueIdx.ix2 p q)) (x1 (ValueIdx.ix2 p q)) := by
  simp only [pay2_eq, pay3_eq, pay4_eq]
  unfold k0_pay75
  refine (cast_apply _ _ p q).trans ?_
  rfl

/-- Row 29 = 6·4 + 5: the slab's entry (0, p, q) is (u(d)·c · (Y_4 · P_4(cos A))) · (N_{4,5} · j_4(z_{4,5} d)) at the
    distance and the angle of (p, q), in the kernel's order of operations. -/
theorem st29 (x0 x1 : Vec Ideal S256x128 .f32) (p : Fin 256) (q : Fin 128) :
    (k0_pay76 (k0_pay2 x0) (k0_pay3 x0) (k0_pay60 (k0_pay4 x1) (k0_pay31 (k0_pay4 x1) (k0_pay5 (F := Ideal))) (k0_pay40 (k0_pay4 x1) (k0_pay31 (k0_pay4 x1) (k0_pay5 (F := Ideal)))))) (ValueIdx.ix3 (0 : Fin 1) p q)
      = Cert.Sbl.kerOut 29 (x0 (ValueIdx.ix2 p q)) (x1 (ValueIdx.ix2 p q)) := by
  simp only [pay2_eq, pay3_eq, pay4_eq]
  unfold k0_pay76
  refine (cast_apply _ _ p q).trans ?_
  rfl

/-- Row 30 = 6·5 + 0: the slab's entry (0, p, q) is (u(d)·c · (Y_5 · P_5(cos A))) · (N_{5,0} · j_5(z_{5,0} d)) at the
    distance and the angle of (p, q), in the kernel's order of operations. -/
theorem st30 (x0 x1 : Vec Ideal S256x128 .f32) (p : Fin 256) (q : Fin 128) :
    (k0_pay80 (k0_pay2 x0) (k0_pay3 x0) (k0_pay78 (k0_pay4 x1) (k0_pay40 (k0_pay4 x1) (k0_pay31 (k0_pay4 x1) (k0_pay5 (F := Ideal)))) (k0_pay59 (k0_pay4 x1) (k0_pay31 (k0_pay4 x1) (k0_pay5 (F := Ideal))) (k0_pay40 (k0_pay4 x1) (k0_pay31 (k0_pay4 x1) (k0_pay5 (F := Ideal)))))) (k0_pay79 (F := Ideal))) (ValueIdx.ix3 (0 : Fin 1) p q)
      = Cert.Sbl.kerOut 30 (x0 (ValueIdx.ix2 p q)) (x1 (ValueIdx.ix2 p q)) := by
  simp only [pay2_eq, pay3_eq, pay4_eq]
  unfold k0_pay80
  refine (cast_apply _ _ p q).trans ?_
  rfl

/-- Row 31 = 6·5 + 1: the slab's entry (0, p, q) is (u(d)·c · (Y_5 · P_5(cos A))) · (N_{5,1} · j_5(z_{5,1} d)) at the
    distance and the angle of (p, q), in the kernel's order of operations. -/
theorem st31 (x0 x1 : Vec Ideal S256x128 .f32) (p : Fin 256) (q : Fin 128) :
    (k0_pay86 (k0_pay3 x0) (k0_pay78 (k0_pay4 x1) (k0_pay40 (k0_pay4 x1) (k0_pay31 (k0_pay4 x1) (k0_pay5 (F := Ideal)))) (k0_pay59 (k0_pay4 x1) (k0_pay31 (k0_pay4 x1) (k0_pay5 (F := Ideal))) (k0_pay40 (k0_pay4 x1) (k0_pay31 (k0_pay4 x1) (k0_pay5 (F := Ideal)))))) (k0_pay82 (k0_pay2 x0)) (k0_pay83 (k0_pay2 x0)) (k0_pay84 (k0_pay2 x0)) (k0_pay85 (F := Ideal))) (ValueIdx.ix3 (0 : Fin 1) p q)
      = Cert.Sbl.kerOut 31 (x0 (ValueIdx.ix2 p q)) (x1 (ValueIdx.ix2 p q)) := by
  simp only [pay2_eq, pay3_eq, pay4_eq]
  unfold k0_pay86
  refine (cast_apply _ _ p q).trans ?_
  rfl

/-- Row 32 = 6·5 + 2: the slab's entry (0, p, q) is (u(d)·c · (Y_5 · P_5(cos A))) · (N_{5,2} · j_5(z_{5,2} d)) at the
    distance and the angle of (p, q), in the kernel's order of operations. -/
theorem st32 (x0 x1 : Vec Ideal S256x128 .f32) (p : Fin 256) (q : Fin 128) :
    (k0_pay93 (k0_pay3 x0) (k0_pay78 (k0_pay4 x1) (k0_pay40 (k0_pay4 x1) (k0_pay31 (k0_pay4 x1) (k0_pay5 (F := Ideal)))) (k0_pay59 (k0_pay4 x1) (k0_pay31 (k0_pay4 x1) (k0_pay5 (F := Ideal))) (k0_pay40 (k0_pay4 x1) (k0_pay31 (k0_pay4 x1) (k0_pay5 (F := Ideal)))))) (k0_pay88 (k0_pay2 x0)) (k0_pay91 (k0_pay2 x0)) (k0_pay92 (k0_pay2 x0)) (Scalar.ofBits .f32 0x41100000#32)) (ValueIdx.ix3 (0 : Fin 1) p q)
      = Cert.Sbl.kerOut 32 (x0 (ValueIdx.ix2 p q)) (x1 (ValueIdx.ix2 p q)) := by
  simp only [pay2_eq, pay3_eq, pay4_eq]
  unfold k0_pay93
  refine (cast_apply _ _ p q).trans ?_
  rfl

/-- Row 33 = 6·5 + 3: the slab's entry (0, p, q) is (u(d)·c · (Y_5 · P_5(cos A))) · (N_{5,3} · j_5(z_{5,3} d)) at the
    distance and the angle of (p, q), in the kernel's order of operations. -/
theorem st33 (x0 x1 : Vec Ideal S256x128 .f32) (p : Fin 256) (q : Fin 128) :
    (k0_pay95 (k0_pay94 (k0_pay2 x0) (k0_pay3 x0) (k0_pay78 (k0_pay4 x1) (k0_pay40 (k0_pay4 x1) (k0_pay31 (k0_pay4 x1) (k0_pay5 (F := Ideal)))) (k0_pay59 (k0_pay4 x1) (k0_pay31 (k0_pay4 x1) (k0_pay5 (F := Ideal))) (k0_pay40 (k0_pay4 x1) (k0_pay31 (k0_pay4 x1) (k0_pay5 (F := Ideal)))))))) (ValueIdx.ix3 (0 : Fin 1) p q)
      = Cert.Sbl.kerOut 33 (x0 (ValueIdx.ix2 p q)) (x1 (ValueIdx.ix2 p q)) := by
  simp only [pay2_eq, pay3_eq, pay4_eq]
  unfold k0_pay95
  refine (cast_apply _ _ p q).trans ?_
  rfl

/-- Row 34 = 6·5 + 4: the slab's entry (0, p, q) is (u(d)·c · (Y_5 · P_5(cos A))) · (N_{5,4} · j_5(z_{5,4} d)) at the
    distance and the angle of (p, q), in the kernel's order of operations. -/
theorem st34 (x0 x1 : Vec Ideal S256x128 .f32) (p : Fin 256) (q : Fin 128) :
    (k0_pay96 (k0_pay2 x0) (k0_pay3 x0) (k0_pay78 (k0_pay4 x1) (k0_pay40 (k0_pay4 x1) (k0_pay31 (k0_pay4 x1) (k0_pay5 (F := Ideal)))) (k0_pay59 (k0_pay4 x1) (k0_pay31 (k0_pay4 x1) (k0_pay5 (F := Ideal))) (k0_pay40 (k0_pay4 x1) (k0_pay31 (k0_pay4 x1) (k0_pay5 (F := Ideal))))))) (ValueIdx.ix3 (0 : Fin 1) p q)
      = Cert.Sbl.kerOut 34 (x0 (ValueIdx.ix2 p q)) (x1 (ValueIdx.ix2 p q)) := by
  simp only [pay2_eq, pay3_eq, pay4_eq]
  unfold k0_pay96
  refine (cast_apply _ _ p q).trans ?_
  rfl

/-- Row 35 = 6·5 + 5: the slab's entry (0, p, q) is (u(d)·c · (Y_5 · P_5(cos A))) · (N_{5,5} · j_5(z_{5,5} d)) at the
    distance and the angle of (p, q), in the kernel's order of operations. -/
theorem st35 (x0 x1 : Vec Ideal S256x128 .f32) (p : Fin 256) (q : Fin 128) :
    (k0_pay102 (k0_pay3 x0) (k0_pay78 (k0_pay4 x1) (k0_pay40 (k0_pay4 x1) (k0_pay31 (k0_pay4 x1) (k0_pay5 (F := Ideal)))) (k0_pay59 (k0_pay4 x1) (k0_pay31 (k0_pay4 x1) (k0_pay5 (F := Ideal))) (k0_pay40 (k0_pay4 x1) (k0_pay31 (k0_pay4 x1) (k0_pay5 (F := Ideal)))))) (k0_pay98 (k0_pay2 x0)) (k0_pay99 (k0_pay2 x0)) (k0_pay100 (k0_pay2 x0)) (k0_pay101 (k0_pay2 x0))) (ValueIdx.ix3 (0 : Fin 1) p q)
      = Cert.Sbl.kerOut 35 (x0 (ValueIdx.ix2 p q)) (x1 (ValueIdx.ix2 p q)) := by
  simp only [pay2_eq, pay3_eq, pay4_eq]
  unfold k0_pay102
  refine (cast_apply _ _ p q).trans ?_
  rfl

/-- Row 36 = 6·6 + 0: the slab's entry (0, p, q) is (u(d)·c · (Y_6 · P_6(cos A))) · (N_{6,0} · j_6(z_{6,0} d)) at the
    distance and the angle of (p, q), in the kernel's order of operations. -/
theorem st36 (x0 x1 : Vec Ideal S256x128 .f32) (p : Fin 256) (q : Fin 128) :
    (k0_pay109 (k0_pay3 x0) (k0_pay103 (k0_pay4 x1) (k0_pay59 (k0_pay4 x1) (k0_pay31 (k0_pay4 x1) (k0_pay5 (F := Ideal))) (k0_pay40 (k0_pay4 x1) (k0_pay31 (k0_pay4 x1) (k0_pay5 (F := Ideal))))) (k0_pay77 (k0_pay4 x1) (k0_pay40 (k0_pay4 x1) (k0_pay31 (k0_pay4 x1) (k0_pay5 (F := Ideal)))) (k0_pay59 (k0_pay4 x1) (k0_pay31 (k0_pay4 x1) (k0_pay5 (F := Ideal))) (k0_pay40 (k0_pay4 x1) (k0_pay31 (k0_pay4 x1) (k0_pay5 (F := Ideal))))))) (k0_pay105 (k0_pay2 x0)) (k0_pay106 (k0_pay2 x0)) (k0_pay107 (k0_pay2 x0)) (k0_pay108 (k0_pay2 x0))) (ValueIdx.ix3 (0 : Fin 1) p q)
      = Cert.Sbl.kerOut 36 (x0 (ValueIdx.ix2 p q)) (x1 (ValueIdx.ix2 p q)) := by
  simp only [pay2_eq, pay3_eq, pay4_eq]
  unfold k0_pay109
  refine (cast_apply _ _ p q).trans ?_
  rfl

/-- Row 37 = 6·6 + 1: the slab's entry (0, p, q) is (u(d)·c · (Y_6 · P_6(cos A))) · (N_{6,1} · j_6(z_{6,1} d)) at the
    distance and the angle of (p, q), in the kernel's order of operations. -/
theorem st37 (x0 x1 : Vec Ideal S256x128 .f32) (p : Fin 256) (q : Fin 128) :
    (k0_pay115 (k0_pay3 x0) (k0_pay103 (k0_pay4 x1) (k0_pay59 (k0_pay4 x1) (k0_pay31 (k0_pay4 x1) (k0_pay5 (F := Ideal))) (k0_pay40 (k0_pay4 x1) (k0_pay31 (k0_pay4 x1) (k0_pay5 (F := Ideal))))) (k0_pay77 (k0_pay4 x1) (k0_pay40 (k0_pay4 x1) (k0_pay31 (k0_pay4 x1) (k0_pay5 (F := Ideal)))) (k0_pay59 (k0_pay4 x1) (k0_pay31 (k0_pay4 x1) (k0_pay5 (F := Ideal))) (k0_pay40 (k0_pay4 x1) (k0_pay31 (k0_pay4 x1) (k0_pay5 (F := Ideal))))))) (k0_pay111 (k0_pay2 x0)) (k0_pay112 (k0_pay2 x0)) (k0_pay113 (k0_pay2 x0)) (k0_pay114 (F := Ideal))) (ValueIdx.ix3 (0 : Fin 1) p q)
      = Cert.Sbl.kerOut 37 (x0 (ValueIdx.ix2 p q)) (x1 (ValueIdx.ix2 p q)) := by
  simp only [pay2_eq, pay3_eq, pay4_eq]
  unfold k0_pay115
  refine (cast_apply _ _ p q).trans ?_
  rfl

/-- Row 38 = 6·6 + 2: the slab's entry (0, p, q) is (u(d)·c · (Y_6 · P_6(cos A))) · (N_{6,2} · j_6(z_{6,2} d)) at the
    distance and the angle of (p, q), in the kernel's order of operations. -/
theorem st38 (x0 x1 : Vec Ideal S256x128 .f32) (p : Fin 256) (q : Fin 128) :
    (k0_pay122 (k0_pay3 x0) (k0_pay103 (k0_pay4 x1) (k0_pay59 (k0_pay4 x1) (k0_pay31 (k0_pay4 x1) (k0_pay5 (F := Ideal))) (k0_pay40 (k0_pay4 x1) (k0_pay31 (k0_pay4 x1) (k0_pay5 (F := Ideal))))) (k0_pay77 (k0_pay4 x1) (k0_pay40 (k0_pay4 x1) (k0_pay31 (k0_pay4 x1) (k0_pay5 (F := Ideal)))) (k0_pay59 (k0_pay4 x1) (k0_pay31 (k0_pay4 x1) (k0_pay5 (F := Ideal))) (k0_pay40 (k0_pay4 x1) (k0_pay31 (k0_pay4 x1) (k0_pay5 (F := Ideal))))))) (k0_pay117 (k0_pay2 x0)) (k0_pay120 (k0_pay2 x0)) (k0_pay121 (k0_pay2 x0)) (Scalar.ofBits .f32 0x41100000#32)) (ValueIdx.ix3 (0 : Fin 1) p q)
      = Cert.Sbl.kerOut 38 (x0 (ValueIdx.ix2 p q)) (x1 (ValueIdx.ix2 p q)) := by
  simp only [pay2_eq, pay3_eq, pay4_eq]
  unfold k0_pay122
  refine (cast_apply _ _ p q).trans ?_
  rfl

/-- Row 39 = 6·6 + 3: the slab's entry (0, p, q) is (u(d)·c · (Y_6 · P_6(cos A))) · (N_{6,3} · j_6(z_{6,3} d)) at the
    distance and the angle of (p, q), in the kernel's order of operations. -/
theorem st39 (x0 x1 : Vec Ideal S256x128 .f32) (p : Fin 256) (q : Fin 128) :
    (k0_pay124 (k0_pay3 x0) (k0_pay103 (k0_pay4 x1) (k0_pay59 (k0_pay4 x1) (k0_pay31 (k0_pay4 x1) (k0_pay5 (F := Ideal))) (k0_pay40 (k0_pay4 x1) (k0_pay31 (k0_pay4 x1) (k0_pay5 (F := Ideal))))) (k0_pay77 (k0_pay4 x1) (k0_pay40 (k0_pay4 x1) (k0_pay31 (k0_pay4 x1) (k0_pay5 (F := Ideal)))) (k0_pay59 (k0_pay4 x1) (k0_pay31 (k0_pay4 x1) (k0_pay5 (F := Ideal))) (k0_pay40 (k0_pay4 x1) (k0_pay31 (k0_pay4 x1) (k0_pay5 (F := Ideal))))))) (k0_pay123 (k0_pay2 x0))) (ValueIdx.ix3 (0 : Fin 1) p q)
      = Cert.Sbl.kerOut 39 (x0 (ValueIdx.ix2 p q)) (x1 (ValueIdx.ix2 p q)) := by
  simp only [pay2_eq, pay3_eq, pay4_eq]
  unfold k0_pay124
  refine (cast_apply _ _ p q).trans ?_
  rfl

/-- Row 40 = 6·6 + 4: the slab's entry (0, p, q) is (u(d)·c · (Y_6 · P_6(cos A))) · (N_{6,4} · j_6(z_{6,4} d)) at the
    distance and the angle of (p, q), in the kernel's order of operations. -/
theorem st40 (x0 x1 : Vec Ideal S256x128 .f32) (p : Fin 256) (q : Fin 128) :
    (k0_pay126 (k0_pay125 (k0_pay2 x0) (k0_pay3 x0) (k0_pay103 (k0_pay4 x1) (k0_pay59 (k0_pay4 x1) (k0_pay31 (k0_pay4 x1) (k0_pay5 (F := Ideal))) (k0_pay40 (k0_pay4 x1) (k0_pay31 (k0_pay4 x1) (k0_pay5 (F := Ideal))))) (k0_pay77 (k0_pay4 x1) (k0_pay40 (k0_pay4 x1) (k0_pay31 (k0_pay4 x1) (k0_pay5 (F := Ideal)))) (k0_pay59 (k0_pay4 x1) (k0_pay31 (k0_pay4 x1) (k0_pay5 (F := Ideal))) (k0_pay40 (k0_pay4 x1) (k0_pay31 (k0_pay4 x1) (k0_pay5 (F := Ideal))))))))) (ValueIdx.ix3 (0 : Fin 1) p q)
      = Cert.Sbl.kerOut 40 (x0 (ValueIdx.ix2 p q)) (x1 (ValueIdx.ix2 p q)) := by
  simp only [pay2_eq, pay3_eq, pay4_eq]
  unfold k0_pay126
  refine (cast_apply _ _ p q).trans ?_
  rfl

/-- Row 41 = 6·6 + 5: the slab's entry (0, p, q) is (u(d)·c · (Y_6 · P_6(cos A))) · (N_{6,5} · j_6(z_{6,5} d)) at the
    distance and the angle of (p, q), in the kernel's order of operations. -/
theorem st41 (x0 x1 : Vec Ideal S256x128 .f32) (p : Fin 256) (q : Fin 128) :
    (k0_pay1 (k0_pay3 x0) (k0_pay103 (k0_pay4 x1) (k0_pay59 (k0_pay4 x1) (k0_pay31 (k0_pay4 x1) (k0_pay5 (F := Ideal))) (k0_pay40 (k0_pay4 x1) (k0_pay31 (k0_pay4 x1) (k0_pay5 (F := Ideal))))) (k0_pay77 (k0_pay4 x1) (k0_pay40 (k0_pay4 x1) (k0_pay31 (k0_pay4 x1) (k0_pay5 (F := Ideal)))) (k0_pay59 (k0_pay4 x1) (k0_pay31 (k0_pay4 x1) (k0_pay5 (F := Ideal))) (k0_pay40 (k0_pay4 x1) (k0_pay31 (k0_pay4 x1) (k0_pay5 (F := Ideal))))))) (k0_pay128 (k0_pay2 x0)) (k0_pay131 (k0_pay2 x0)) (k0_pay132 (k0_pay2 x0)) (k0_pay133 (F := Ideal))) (ValueIdx.ix3 (0 : Fin 1) p q)
      = Cert.Sbl.kerOut 41 (x0 (ValueIdx.ix2 p q)) (x1 (ValueIdx.ix2 p q)) := by
  simp only [pay2_eq, pay3_eq, pay4_eq]
  unfold k0_pay1
  refine (cast_apply _ _ p q).trans ?_
  rfl

end Cert.KernelIdeal.Blk

end
-- ==== Proof.KerBlock.lean ====
/-
  The kernel body's output block read at an index.

  The body's 42 stores write the [1, 256, 128] slabs of rows 0 … 41 through the rectangles rows [k, k+1) × all × all,
  which tile the [42, 256, 128] block. Each slab is the block of ONE function of the block's index — entry (k, p, q) is
  the spherical basis entry k of the distance and the angle at (p, q) — so the block the stores leave is that function,
  whatever the order of the stores.
-/
import proofs.«110041_j46024869543995_2_alg».proof.Proof.Gen.KernelIdeal.Frame
import proofs.«110041_j46024869543995_2_alg».proof.Proof.Spec
import proofs.«110041_j46024869543995_2_alg».proof.Proof.KerBlockA
import proofs.«110041_j46024869543995_2_alg».proof.Proof.KerBlockB
import proofs.«110041_j46024869543995_2_alg».proof.Proof.KerBlockC
import proofs.«110041_j46024869543995_2_alg».proof.Proof.KerBlockD
import Idealize.ShloMosaic.Lib.ValueIdx
import Idealize.ShloMosaic.Lib.Pipeline.Value
import Idealize.ShloMosaic.Lib.ValueLayout

noncomputable section

namespace Cert.KernelIdeal.Blk

open Cert.KernelIdeal Cert.KernelIdeal.Gen Idealize.ShloMosaic

/-- The offsets of the loads' rectangle are all zero: both loads read their whole [256, 128] block. -/
theorem ld_off_zero : (![0, 0] : Fin 2 → ℕ) = fun _ => 0 := funext fun a => by fin_cases a <;> rfl

/-- Entry (k, p, q) of the block the body leaves is the spherical basis entry k of the gathered distance x0 (p, q) and
    the angle x1 (p, q). -/
theorem out_apply (x0 x1 : Vec Ideal S256x128 .f32) (k : Fin 42) (p : Fin 256) (q : Fin 128) :
    Cert.KernelIdeal.Gen.out0_2 (F := Ideal) x0 x1 (ValueIdx.ix3 k p q)
      = Cert.Sbl.kerOut k.val (x0 (ValueIdx.ix2 p q)) (x1 (ValueIdx.ix2 p q)) := by
  unfold Gen.out0_2
  simp only [View.ld_unit_zero (S := S256x128) ld_off_zero]
  refine (View.canon_apply_of_pieces (G x0 x1) _ ?_ (ValueIdx.ix3 k p q)
    (Gen.cover0_2 _ _ _ _ _ _ _ _ _ _ _ _ _ _ _ _ _ _ _ _ _ _ _ _ _ _ _ _ _ _ _ _ _ _ _ _ _ _ _ _ _ _ (ValueIdx.ix3 k p q))).trans (G_apply x0 x1 k p q)
  -- each store's slab is the block of G under its rectangle
  intro pc hpc
  rcases List.mem_cons.mp hpc with rfl | hpc
  · exact piece_row x0 x1 41 (by decide) inb_S42x256x128_S1x256x128_41_0_0 _ (st41 x0 x1)
  rcases List.mem_cons.mp hpc with rfl | hpc
  · exact piece_row x0 x1 40 (by decide) inb_S42x256x128_S1x256x128_40_0_0 _ (st40 x0 x1)
  rcases List.mem_cons.mp hpc with rfl | hpc
  · exact piece_row x0 x1 39 (by decide) inb_S42x256x128_S1x256x128_39_0_0 _ (st39 x0 x1)
  rcases List.mem_cons.mp hpc with rfl | hpc
  · exact piece_row x0 x1 38 (by decide) inb_S42x256x128_S1x256x128_38_0_0 _ (st38 x0 x1)
  rcases List.mem_cons.mp hpc with rfl | hpc
  · exact piece_row x0 x1 37 (by decide) inb_S42x256x128_S1x256x128_37_0_0 _ (st37 x0 x1)
  rcases List.mem_cons.mp hpc with rfl | hpc
  · exact piece_row x0 x1 36 (by decide) inb_S42x256x128_S1x256x128_36_0_0 _ (st36 x0 x1)
  rcases List.mem_cons.mp hpc with rfl | hpc
  · exact piece_row x0 x1 35 (by decide) inb_S42x256x128_S1x256x128_35_0_0 _ (st35 x0 x1)
  rcases List.mem_cons.mp hpc with rfl | hpc
  · exact piece_row x0 x1 34 (by decide) inb_S42x256x128_S1x256x128_34_0_0 _ (st34 x0 x1)
  rcases List.mem_cons.mp hpc with rfl | hpc
  · exact piece_row x0 x1 33 (by decide) inb_S42x256x128_S1x256x128_33_0_0 _ (st33 x0 x1)
  rcases List.mem_cons.mp hpc with rfl | hpc
  · exact piece_row x0 x1 32 (by decide) inb_S42x256x128_S1x256x128_32_0_0 _ (st32 x0 x1)
  rcases List.mem_cons.mp hpc with rfl | hpc
  · exact piece_row x0 x1 31 (by decide) inb_S42x256x128_S1x256x128_31_0_0 _ (st31 x0 x1)
  rcases List.mem_cons.mp hpc with rfl | hpc
  · exact piece_row x0 x1 30 (by decide) inb_S42x256x128_S1x256x128_30_0_0 _ (st30 x0 x1)
  rcases List.mem_cons.mp hpc with rfl | hpc
  · exact piece_row x0 x1 29 (by decide) inb_S42x256x128_S1x256x128_29_0_0 _ (st29 x0 x1)
  rcases List.mem_cons.mp hpc with rfl | hpc
  · exact piece_row x0 x1 28 (by decide) inb_S42x256x128_S1x256x128_28_0_0 _ (st28 x0 x1)
  rcases List.mem_cons.mp hpc with rfl | hpc
  · exact piece_row x0 x1 27 (by decide) inb_S42x256x128_S1x256x128_27_0_0 _ (st27 x0 x1)
  rcases List.mem_cons.mp hpc with rfl | hpc
  · exact piece_row x0 x1 26 (by decide) inb_S42x256x128_S1x256x128_26_0_0 _ (st26 x0 x1)
  rcases List.mem_cons.mp hpc with rfl | hpc
  · exact piece_row x0 x1 25 (by decide) inb_S42x256x128_S1x256x128_25_0_0 _ (st25 x0 x1)
  rcases List.mem_cons.mp hpc with rfl | hpc
  · exact piece_row x0 x1 24 (by decide) inb_S42x256x128_S1x256x128_24_0_0 _ (st24 x0 x1)
  rcases List.mem_cons.mp hpc with rfl | hpc
  · exact piece_row x0 x1 23 (by decide) inb_S42x256x128_S1x256x128_23_0_0 _ (st23 x0 x1)
  rcases List.mem_cons.mp hpc with rfl | hpc
  · exact piece_row x0 x1 22 (by decide) inb_S42x256x128_S1x256x128_22_0_0 _ (st22 x0 x1)
  rcases List.mem_cons.mp hpc with rfl | hpc
  · exact piece_row x0 x1 21 (by decide) inb_S42x256x128_S1x256x128_21_0_0 _ (st21 x0 x1)
  rcases List.mem_cons.mp hpc with rfl | hpc
  · exact piece_row x0 x1 20 (by decide) inb_S42x256x128_S1x256x128_20_0_0 _ (st20 x0 x1)
  rcases List.mem_cons.mp hpc with rfl | hpc
  · exact piece_row x0 x1 19 (by decide) inb_S42x256x128_S1x256x128_19_0_0 _ (st19 x0 x1)
  rcases List.mem_cons.mp hpc with rfl | hpc
  · exact piece_row x0 x1 18 (by decide) inb_S42x256x128_S1x256x128_18_0_0 _ (st18 x0 x1)
  rcases List.mem_cons.mp hpc with rfl | hpc
  · exact piece_row x0 x1 17 (by decide) inb_S42x256x128_S1x256x128_17_0_0 _ (st17 x0 x1)
  rcases List.mem_cons.mp hpc with rfl | hpc
  · exact piece_row x0 x1 16 (by decide) inb_S42x256x128_S1x256x128_16_0_0 _ (st16 x0 x1)
  rcases List.mem_cons.mp hpc with rfl | hpc
  · exact piece_row x0 x1 15 (by decide) inb_S42x256x128_S1x256x128_15_0_0 _ (st15 x0 x1)
  rcases List.mem_cons.mp hpc with rfl | hpc
  · exact piece_row x0 x1 14 (by decide) inb_S42x256x128_S1x256x128_14_0_0 _ (st14 x0 x1)
  rcases List.mem_cons.mp hpc with rfl | hpc
  · exact piece_row x0 x1 13 (by decide) inb_S42x256x128_S1x256x128_13_0_0 _ (st13 x0 x1)
  rcases List.mem_cons.mp hpc with rfl | hpc
  · exact piece_row x0 x1 12 (by decide) inb_S42x256x128_S1x256x128_12_0_0 _ (st12 x0 x1)
  rcases List.mem_cons.mp hpc with rfl | hpc
  · exact piece_row x0 x1 11 (by decide) inb_S42x256x128_S1x256x128_11_0_0 _ (st11 x0 x1)
  rcases List.mem_cons.mp hpc with rfl | hpc
  · exact piece_row x0 x1 10 (by decide) inb_S42x256x128_S1x256x128_10_0_0 _ (st10 x0 x1)
  rcases List.mem_cons.mp hpc with rfl | hpc
  · exact piece_row x0 x1 9 (by decide) inb_S42x256x128_S1x256x128_9_0_0 _ (st9 x0 x1)
  rcases List.mem_cons.mp hpc with rfl | hpc
  · exact piece_row x0 x1 8 (by decide) inb_S42x256x128_S1x256x128_8_0_0 _ (st8 x0 x1)
  rcases List.mem_cons.mp hpc with rfl | hpc
  · exact piece_row x0 x1 7 (by decide) inb_S42x256x128_S1x256x128_7_0_0 _ (st7 x0 x1)
  rcases List.mem_cons.mp hpc with rfl | hpc
  · exact piece_row x0 x1 6 (by decide) inb_S42x256x128_S1x256x128_6_0_0 _ (st6 x0 x1)
  rcases List.mem_cons.mp hpc with rfl | hpc
  · exact piece_row x0 x1 5 (by decide) inb_S42x256x128_S1x256x128_5_0_0 _ (st5 x0 x1)
  rcases List.mem_cons.mp hpc with rfl | hpc
  · exact piece_row x0 x1 4 (by decide) inb_S42x256x128_S1x256x128_4_0_0 _ (st4 x0 x1)
  rcases List.mem_cons.mp hpc with rfl | hpc
  · exact piece_row x0 x1 3 (by decide) inb_S42x256x128_S1x256x128_3_0_0 _ (st3 x0 x1)
  rcases List.mem_cons.mp hpc with rfl | hpc
  · exact piece_row x0 x1 2 (by decide) inb_S42x256x128_S1x256x128_2_0_0 _ (st2 x0 x1)
  rcases List.mem_cons.mp hpc with rfl | hpc
  · exact piece_row x0 x1 1 (by decide) inb_S42x256x128_S1x256x128_1_0_0 _ (st1 x0 x1)
  rcases List.mem_cons.mp hpc with rfl | hpc
  · exact piece_row x0 x1 0 (by decide) inb_S42x256x128_S1x256x128_0_0_0 _ (st0 x0 x1)
  nomatch hpc

end Cert.KernelIdeal.Blk

end
-- ==== Proof.KerInputs.lean ====
/-
  The two arrays the region reads, entry by entry.

  Before the region the program turns each index word into an edge number (a negative word counts from the end: +500000),
  looks the edge's distance up (the lookup reads the number signed and clamps it into [0, 499999]), pads the 2000000
  distances with 1 and the 2000000 angles with 0 to 15872 · 128 = 2031616 entries, and lays each out as 15872 rows of 128.
  So entry (ρ, q) of the first array, for 128 ρ + q < 2000000, is the distance of the edge that triplet 128 ρ + q selects,
  and entry (ρ, q) of the second is that triplet's angle. The padding is never read by what follows.
-/
import proofs.«110041_j46024869543995_2_alg».proof.Proof.Gen.KernelIdeal.Frame
import proofs.«110041_j46024869543995_2_alg».proof.Proof.Spec
import Idealize.ShloMosaic.Lib.Pipeline.Value
import Idealize.ShloMosaic.Lib.KernelVsHost

noncomputable section

namespace Cert.KernelIdeal.Val

open Cert.KernelIdeal Cert.KernelIdeal.Gen Idealize.ShloMosaic Idealize.ShloMosaic.TcCoe Idealize.SL.Sem
open Idealize.ShloMosaic.ValueIdx

/-- The index words normalised: a negative word has 500000 added. -/
def nrm (I : S2000000.Idx → BitVec 32) : S2000000.Idx → BitVec 32 :=
  select (cmpi .slt I (broadcastInDim S2000000 ![] bcast_S_S2000000 (constantI S_ 32 0#32)))
    (addi I (broadcastInDim S2000000 ![] bcast_S_S2000000 (constantI S_ 32 500000#32))) I

/-- The distances looked up at the normalised words, one per triplet. -/
def gath (D : S500000.Idx → EReal) (I : S2000000.Idx → BitVec 32) : S2000000.Idx → EReal :=
  Host.gather gather_S500000_S2000000x1_S2000000_n_0_n_n_0_1_1 D
    (broadcastInDim S2000000x1 ![0] bcast_S2000000_S2000000x1_0 (nrm I))

/-- A per-triplet array padded with the word `b` to 2031616 entries and laid out as 15872 rows of 128. -/
def rows (x : S2000000.Idx → EReal) (b : BitVec 32) : S15872x128.Idx → EReal :=
  shapeCast S15872x128
    (pad S2031616 ![0] ![31616] ![0] x (constant (F := Ideal) S_ .f32 b) pads_S2000000_S2031616_0316160 h_S_)
    shapeCasts_S2031616_S15872x128

/-- The first array the region reads: the looked-up distances, padded with 1. -/
def inD (D : S500000.Idx → EReal) (I : S2000000.Idx → BitVec 32) : S15872x128.Idx → EReal :=
  rows (gath D I) 0x3F800000#32

/-- The second array the region reads: the angles, padded with 0. -/
def inA (A : S2000000.Idx → EReal) : S15872x128.Idx → EReal := rows A 0x00000000#32

/-- A normalised word, read at a triplet. -/
theorem nrm_apply (I : S2000000.Idx → BitVec 32) (j : S2000000.Idx) :
    nrm I j = Scalar.select (IntOp.cmpi .slt (I j) 0#32) (IntOp.addi (I j) 500000#32) (I j) := rfl

/-- The lookup at triplet `t` is the distance of the edge the triplet's word selects. -/
theorem gath_apply (D : S500000.Idx → EReal) (I : S2000000.Idx → BitVec 32) (t : Fin 2000000) :
    gath D I (ix1 t) = D (ix1 (Cert.Sbl.tri (I (ix1 t)))) := by
  unfold gath Host.gather
  congr 1
  funext a
  obtain rfl : a = 0 := Subsingleton.elim _ _
  refine Fin.ext ?_
  show gather_S500000_S2000000x1_S2000000_n_0_n_n_0_1_1.start (ix1 t) _ 0
      + gather_S500000_S2000000x1_S2000000_n_0_n_n_0_1_1.batchCoord (ix1 t) 0
      + gather_S500000_S2000000x1_S2000000_n_0_n_n_0_1_1.offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S500000_S2000000x1_S2000000_n_0_n_n_0_1_1.startIndexMap from List.mem_singleton.mpr rfl)]
  have hsi : gather_S500000_S2000000x1_S2000000_n_0_n_n_0_1_1.siIdx (ix1 t)
      ⟨List.idxOf (0 : Fin 1) gather_S500000_S2000000x1_S2000000_n_0_n_n_0_1_1.startIndexMap,
        List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  have hb : broadcastInDim S2000000x1 ![0] bcast_S2000000_S2000000x1_0 (nrm I) (ix2 t (0 : Fin 1)) = nrm I (ix1 t) :=
    broadcastInDim_apply _ _ _ (ix2 t (0 : Fin 1)) (ix1 t) (fun a => by
      obtain rfl : a = 0 := Subsingleton.elim _ _
      show t.val = if (2000000 : ℕ) = 1 then 0 else t.val
      rw [if_neg (by decide)])
  rw [hb, nrm_apply]
  rfl

/-- A padded array laid out in rows, read at row `ρ` and lane `q` below the padding: the entry 128 ρ + q. -/
theorem rows_apply (x : S2000000.Idx → EReal) (b : BitVec 32) (ρ : Fin 15872) (q : Fin 128)
    (h : 128 * ρ.val + q.val < 2000000) : rows x b (ix2 ρ q) = x (ix1 ⟨128 * ρ.val + q.val, h⟩) := by
  unfold rows
  refine (shapeCast_apply _ _ (ix2 ρ q) (ix1 (⟨128 * ρ.val + q.val, by omega⟩ : Fin 2031616)) ?_).trans ?_
  · rw [Shape.rowMajor_val_one, Shape.rowMajor_val_two]
    show 128 * ρ.val + q.val = ρ.val * 128 + q.val
    omega
  · refine pad_apply_of_inside _ _ _ x _ _ _ _ (ix1 ⟨128 * ρ.val + q.val, h⟩) ?_
    intro a
    obtain rfl : a = 0 := Subsingleton.elim _ _
    show 128 * ρ.val + q.val = 0 + (128 * ρ.val + q.val) * (0 + 1)
    omega

/-- The first array at row `ρ`, lane `q`: the distance of the edge triplet 128 ρ + q selects. -/
theorem inD_apply (D : S500000.Idx → EReal) (I : S2000000.Idx → BitVec 32) (ρ : Fin 15872) (q : Fin 128)
    (h : 128 * ρ.val + q.val < 2000000) :
    inD D I (ix2 ρ q) = D (ix1 (Cert.Sbl.tri (I (ix1 ⟨128 * ρ.val + q.val, h⟩)))) := by
  unfold inD
  rw [rows_apply _ _ ρ q h, gath_apply]

/-- The second array at row `ρ`, lane `q`: the angle of triplet 128 ρ + q. -/
theorem inA_apply (A : S2000000.Idx → EReal) (ρ : Fin 15872) (q : Fin 128) (h : 128 * ρ.val + q.val < 2000000) :
    inA A (ix2 ρ q) = A (ix1 ⟨128 * ρ.val + q.val, h⟩) := rows_apply A _ ρ q h

variable (m : (ℓ : Loc nD τ sig) → Buf (Elt Ideal) ℓ)

/-- What the region finds in its first operand: the host operations before it, applied to the arguments. -/
theorem V_v9 (c : Dev nD) : (V m c main_v9 : S15872x128.Idx → EReal)
    = inD (m ((c.tc : Thread nD τ).loc main_arg0)) (m ((c.tc : Thread nD τ).loc main_arg2)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- What the region finds in its second operand. -/
theorem V_v10 (c : Dev nD) : (V m c main_v10 : S15872x128.Idx → EReal)
    = inA (m ((c.tc : Thread nD τ).loc main_arg1)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

end Cert.KernelIdeal.Val

end
-- ==== Proof.KerCover.lean ====
/-
  The region's output array as one function of the two arrays it reads.

  The grid has 62 points; at point t the region reads rows [256 t, 256 t + 256) of its two [15872, 128] operands and writes
  the block (all 42 planes, rows [256 t, 256 t + 256), all 128 lanes) of its [42, 15872, 128] result. What the body leaves
  at entry (k, p, q) of that block is `kerOut k` of the two operands' entries (p, q) of their blocks (the hypothesis
  `hblk`), that is of the operands' entries (256 t + p, q). The 62 blocks tile the result (row ρ lies in block ρ / 256),
  so the result array is `G`: entry (k, ρ, q) is `kerOut k` of the two operands' entries (ρ, q).
-/
import proofs.«110041_j46024869543995_2_alg».proof.Proof.Gen.KernelIdeal.Frame
import proofs.«110041_j46024869543995_2_alg».proof.Proof.Spec
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

/-- The result of the region from its two operands: entry (k, ρ, q) is `kerOut k` of their entries (ρ, q). -/
def G (x0 x1 : S15872x128.Idx → EReal) : S42x15872x128.Idx → EReal := fun i =>
  Cert.Sbl.kerOut (i 0).val
    (x0 (ix2 (⟨(i 1).val, (i 1).isLt⟩ : Fin 15872) (⟨(i 2).val, (i 2).isLt⟩ : Fin 128)))
    (x1 (ix2 (⟨(i 1).val, (i 1).isLt⟩ : Fin 15872) (⟨(i 2).val, (i 2).isLt⟩ : Fin 128)))

/-- `G` read through any spelling of the coordinates. -/
theorem G_apply (x0 x1 : S15872x128.Idx → EReal) (i : S42x15872x128.Idx) (k : ℕ) (j : S15872x128.Idx)
    (hk : (i 0).val = k) (h1 : (j 0).val = (i 1).val) (h2 : (j 1).val = (i 2).val) :
    G x0 x1 i = Cert.Sbl.kerOut k (x0 j) (x1 j) := by
  have hj : j = ix2 (⟨(i 1).val, (i 1).isLt⟩ : Fin 15872) (⟨(i 2).val, (i 2).isLt⟩ : Fin 128) := by
    funext a; apply Fin.ext
    match a with
    | ⟨0, _⟩ => exact h1
    | ⟨1, _⟩ => exact h2
  unfold G
  rw [hk, hj]

variable (m : (ℓ : Loc nD τ sig) → Buf (Elt Ideal) ℓ)

/-- The printed index maps over the grid: the result's block at point t is (0, t, 0), each operand's is (t, 0). -/
theorem idx_facts : ∀ t : Fin cfg0.N, win0_2.index t (0 : Fin 3) = 0 ∧ win0_2.index t (1 : Fin 3) = t.val
    ∧ win0_2.index t (2 : Fin 3) = 0
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The first operand's block at point t, entry (p, q): the operand's entry (256 t + p, q). -/
theorem iblk0_apply (c : Dev nD) (t : Fin cfg0.N) (x : S256x128.Idx) (k : S15872x128.Idx)
    (hk0 : (k 0).val = 256 * t.val + (x 0).val) (hk1 : (k 1).val = (x 1).val) :
    (iblk m c 0 t : Vec Ideal S256x128 .f32) x = (V m c main_v9 : S15872x128.Idx → EReal) k := by
  obtain ⟨-, -, -, e00, e01, -, -⟩ := idx_facts t
  unfold iblk
  rw [View.read_apply]
  show V m c main_v9 _ = V m c main_v9 _
  congr 1
  funext a
  apply Fin.ext
  match a with
  | ⟨0, _⟩ => show win0_0.index t 0 * 256 + 1 * (x 0).val = (k 0).val; rw [e00, hk0]; omega
  | ⟨1, _⟩ => show win0_0.index t 1 * 128 + 1 * (x 1).val = (k 1).val; rw [e01, hk1]; omega

/-- The second operand's block at point t, entry (p, q): the operand's entry (256 t + p, q). -/
theorem iblk1_apply (c : Dev nD) (t : Fin cfg0.N) (x : S256x128.Idx) (k : S15872x128.Idx)
    (hk0 : (k 0).val = 256 * t.val + (x 0).val) (hk1 : (k 1).val = (x 1).val) :
    (iblk m c 1 t : Vec Ideal S256x128 .f32) x = (V m c main_v10 : S15872x128.Idx → EReal) k := by
  obtain ⟨-, -, -, -, -, e10, e11⟩ := idx_facts t
  unfold iblk
  rw [View.read_apply]
  show V m c main_v10 _ = V m c main_v10 _
  congr 1
  funext a
  apply Fin.ext
  match a with
  | ⟨0, _⟩ => show win0_1.index t 0 * 256 + 1 * (x 0).val = (k 0).val; rw [e10, hk0]; omega
  | ⟨1, _⟩ => show win0_1.index t 1 * 128 + 1 * (x 1).val = (k 1).val; rw [e11, hk1]; omega

/-- An index of the result is in point t's block iff each coordinate is in the block's range on its axis. -/
theorem mem_blk (t : Fin cfg0.N) (i : S42x15872x128.Idx) :
    i ∈ ((cfg0.win 2).blk t).view.set ↔ ∀ a : Fin 3, win0_2.index t a * S42x256x128.size a ≤ (i a).val
      ∧ (i a).val < win0_2.index t a * S42x256x128.size a + S42x256x128.size a := by
  show i ∈ ((View.whole main_v11).slice (win0_2.rect t)).set ↔ _
  rw [View.set_slice_whole, Rect.mem_set_unit]
  exact Iff.rfl

section
variable (hblk : ∀ (x0 x1 : Vec Ideal S256x128 .f32) (k : Fin 42) (p : Fin 256) (q : Fin 128),
      Cert.KernelIdeal.Gen.out0_2 (F := Ideal) x0 x1 (ValueIdx.ix3 k p q)
        = Cert.Sbl.kerOut k.val (x0 (ValueIdx.ix2 p q)) (x1 (ValueIdx.ix2 p q)))
include hblk

/-- What the body leaves at an entry of the result's block, the entry given by its coordinates. -/
theorem out_apply (x0 x1 : Vec Ideal S256x128 .f32) (y : S42x256x128.Idx) (j : S256x128.Idx)
    (h1 : (j 0).val = (y 1).val) (h2 : (j 1).val = (y 2).val) :
    out0_2 (F := Ideal) x0 x1 y = Cert.Sbl.kerOut (y 0).val (x0 j) (x1 j) := by
  obtain ⟨k, p, q, rfl⟩ : ∃ (k : Fin 42) (p : Fin 256) (q : Fin 128), y = ix3 k p q := ⟨y 0, y 1, y 2, eq_ix3 y⟩
  have hj : j = ix2 p q := by
    funext a; apply Fin.ext
    match a with
    | ⟨0, _⟩ => exact h1
    | ⟨1, _⟩ => exact h2
  rw [hj]
  exact hblk x0 x1 k p q

/-- What point t writes back is block t of `G` of the two operands as the region finds them. -/
theorem flushed_eq (c : Dev nD) (t : Fin cfg0.N) :
    (dats m 0 c).flushed 2 t
      = ((cfg0.win 2).blk t).view.read (Elt Ideal) (G (V m c main_v9) (V m c main_v10)) := by
  show (cfg0.win 2).cut (grid0.coords t) ((dats m 0 c).after 2 t) = _
  rw [after0_2]
  obtain ⟨e20, e21, e22, -, -, -, -⟩ := idx_facts t
  funext y
  show out0_2 (F := Ideal) (iblk m c 0 t) (iblk m c 1 t) y
      = G (V m c main_v9) (V m c main_v10) (((cfg0.win 2).blk t).view.emb y)
  have h0 : ((((cfg0.win 2).blk t).view.emb y) 0).val = (y 0).val := by
    show win0_2.index t 0 * 42 + 1 * (y 0).val = (y 0).val; rw [e20]; omega
  have h1 : ((((cfg0.win 2).blk t).view.emb y) 1).val = 256 * t.val + (y 1).val := by
    show win0_2.index t 1 * 256 + 1 * (y 1).val = 256 * t.val + (y 1).val; rw [e21]; omega
  have h2 : ((((cfg0.win 2).blk t).view.emb y) 2).val = (y 2).val := by
    show win0_2.index t 2 * 128 + 1 * (y 2).val = (y 2).val; rw [e22]; omega
  have hy1 : (y 1).val < 256 := (y 1).isLt
  have hy2 : (y 2).val < 128 := (y 2).isLt
  have ht : t.val < 62 := by
    have h := t.isLt
    have hN : cfg0.N = 62 := N_0
    omega
  rw [out_apply hblk (iblk m c 0 t) (iblk m c 1 t) y (ix2 (⟨(y 1).val, hy1⟩ : Fin 256) (⟨(y 2).val, hy2⟩ : Fin 128)) rfl rfl,
    iblk0_apply m c t _ (ix2 (⟨256 * t.val + (y 1).val, by omega⟩ : Fin 15872) (⟨(y 2).val, hy2⟩ : Fin 128)) rfl rfl,
    iblk1_apply m c t _ (ix2 (⟨256 * t.val + (y 1).val, by omega⟩ : Fin 15872) (⟨(y 2).val, hy2⟩ : Fin 128)) rfl rfl]
  exact (G_apply _ _ _ _ _ h0 h1.symm h2.symm).symm

/-- Every entry of the result is in some point's block: row ρ in block ρ / 256. So the result array after the region
    is `G` of the two operands. -/
theorem final (c : Dev nD) : (dats m 0 c).arrAt 2 cfg0.N = G (V m c main_v9) (V m c main_v10) :=
  (dats m 0 c).arrAt_eq_of_cover 2 (G (V m c main_v9) (V m c main_v10)) (fun t _ => flushed_eq m hblk c t) fun i => by
    have hi0 : (i 0).val < 42 := (i 0).isLt
    have hi1 : (i 1).val < 15872 := (i 1).isLt
    have hi2 : (i 2).val < 128 := (i 2).isLt
    have hN : cfg0.N = 62 := N_0
    refine ⟨⟨(i 1).val / 256, by rw [hN]; omega⟩, flush0_2 _, ?_⟩
    obtain ⟨e20, e21, e22, -, -, -, -⟩ := idx_facts ⟨(i 1).val / 256, by rw [hN]; omega⟩
    rw [mem_blk]
    intro a
    match a with
    | ⟨0, _⟩ =>
      show win0_2.index _ 0 * 42 ≤ (i 0).val ∧ (i 0).val < win0_2.index _ 0 * 42 + 42
      rw [e20]; omega
    | ⟨1, _⟩ =>
      show win0_2.index _ 1 * 256 ≤ (i 1).val ∧ (i 1).val < win0_2.index _ 1 * 256 + 256
      rw [e21]; show (i 1).val / 256 * 256 ≤ (i 1).val ∧ (i 1).val < (i 1).val / 256 * 256 + 256; omega
    | ⟨2, _⟩ =>
      show win0_2.index _ 2 * 128 ≤ (i 2).val ∧ (i 2).val < win0_2.index _ 2 * 128 + 128
      rw [e22]; omega

end

end Cert.KernelIdeal.Val

end
-- ==== Proof.KerTail.lean ====
/-
  The host operations after the region, entry by entry.

  The region's [42, 15872, 128] result is read as [42, 2031616] (row ρ, lane q at position 128 ρ + q), transposed to
  [2031616, 42], and cut to its first 2000000 rows. So entry (t, k) of the program's result is the region's entry
  (k, t / 128, t % 128).
-/
import proofs.«110041_j46024869543995_2_alg».proof.Proof.Gen.KernelIdeal.Frame
import Idealize.ShloMosaic.Lib.Pipeline.Value
import Idealize.ShloMosaic.PureOps.Ideal
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.ValueIdx

/-- The three operations after the region, as one function of the region's result. -/
def tailFn (g : S42x15872x128.Idx → EReal) : S2000000x42.Idx → EReal :=
  extractStridedSlice S2000000x42 ![0, 0]
    (transpose S2031616x42 [1, 0] (shapeCast S42x2031616 g shapeCasts_S42x15872x128_S42x2031616)
      transposes_S42x2031616_S2031616x42_1_0)
    slices_S2031616x42_S2000000x42_0_0

/-- Entry (t, k) after the three operations is the region's entry (k, t / 128, t % 128). -/
theorem tailFn_apply (g : S42x15872x128.Idx → EReal) (i : S2000000x42.Idx) (j : S42x15872x128.Idx)
    (h0 : (j 0).val = (i 1).val) (h1 : (j 1).val = (i 0).val / 128) (h2 : (j 2).val = (i 0).val % 128) :
    tailFn g i = g j := by
  have hi0 : (i 0).val < 2000000 := (i 0).isLt
  have hi1 : (i 1).val < 42 := (i 1).isLt
  unfold tailFn
  refine (extractStridedSlice_apply _ _ _ i
    (ix2 (⟨(i 0).val, by omega⟩ : Fin 2031616) (⟨(i 1).val, hi1⟩ : Fin 42)) ?_).trans ?_
  · intro a
    match a with
    | ⟨0, _⟩ => show (i 0).val = 0 + (i 0).val; omega
    | ⟨1, _⟩ => show (i 1).val = 0 + (i 1).val; omega
  refine (transpose_apply _ _ _ _
    (ix2 (⟨(i 1).val, hi1⟩ : Fin 42) (⟨(i 0).val, by omega⟩ : Fin 2031616)) ?_).trans ?_
  · intro b
    match b with
    | ⟨0, _⟩ => rfl
    | ⟨1, _⟩ => rfl
  refine shapeCast_apply _ _ _ j ?_
  rw [Shape.rowMajor_val_three, Shape.rowMajor_val_two]
  show ((j 0).val * 15872 + (j 1).val) * 128 + (j 2).val = (i 1).val * 2031616 + (i 0).val
  rw [h0, h1, h2]
  omega

variable (m : (ℓ : Loc nD τ sig) → Buf (Elt Ideal) ℓ)

/-- The program's result buffer after the run: the three operations applied to the region's result array. -/
theorem tail_eq (c : Dev nD) :
    Pipeline.afterTail₀ cfgs (dats m) 0 (V0 m) [hostOps1] c main_v14 = tailFn ((dats m 0 c).arrAt 2 cfg0.N) := by
  unfold Pipeline.afterTail₀
  show StableHlo.after hostOps1 _ (Proc.devRef .tc main_v14) = _
  after_results
  exact congrArg tailFn
    (Pipeline.withArrays_arr spec0 launch0.win.arr_inj c (V0 m c) (fun w => (dats m 0 c).arrAt w cfg0.N) 2)

end Cert.KernelIdeal.Val

end
-- ==== Proof.KerValue.lean ====
/-
  The kernel program's result array.

  Before the region the host operations lay the looked-up distances and the angles out as [15872, 128] arrays
  (entry (ρ, q) is triplet 128 ρ + q's); the region's result has at (k, ρ, q) the value `kerOut k` of those two entries;
  after the region entry (t, k) of the program's result is the region's entry (k, t / 128, t % 128). Since
  128 (t / 128) + t % 128 = t, entry (t, k) is `kerOut k` of the distance of the edge triplet t selects and of triplet t's
  angle: the array `outArr kerOut` of the three arguments. Only rows t < 2000000 are read, so the padding never shows.
  The arguments themselves are left as launched.
-/
import proofs.«110041_j46024869543995_2_alg».proof.Proof.Gen.KernelIdeal.Frame
import proofs.«110041_j46024869543995_2_alg».proof.Proof.Spec
import proofs.«110041_j46024869543995_2_alg».proof.Proof.KerInputs
import proofs.«110041_j46024869543995_2_alg».proof.Proof.KerCover
import proofs.«110041_j46024869543995_2_alg».proof.Proof.KerTail

noncomputable section

namespace Cert.KernelIdeal.Val

open Cert.KernelIdeal Cert.KernelIdeal.Gen Idealize.ShloMosaic Idealize.ShloMosaic.TcCoe Idealize.SL.Sem
open Idealize.ShloMosaic.ValueIdx

/-- The three stages composed: the program's result from its three arguments is `outArr kerOut`. -/
theorem tail_G (D : S500000.Idx → EReal) (A : S2000000.Idx → EReal) (I : S2000000.Idx → BitVec 32) :
    tailFn (G (inD D I) (inA A)) = Cert.Sbl.outArr Cert.Sbl.kerOut D A I := by
  funext i
  have hi0 : (i 0).val < 2000000 := (i 0).isLt
  have hi1 : (i 1).val < 42 := (i 1).isLt
  have hr : 128 * ((i 0).val / 128) + (i 0).val % 128 < 2000000 := by omega
  rw [tailFn_apply _ i (ix3 (⟨(i 1).val, hi1⟩ : Fin 42) (⟨(i 0).val / 128, by omega⟩ : Fin 15872)
      (⟨(i 0).val % 128, by omega⟩ : Fin 128)) rfl rfl rfl,
    G_apply _ _ _ (i 1).val (ix2 (⟨(i 0).val / 128, by omega⟩ : Fin 15872) (⟨(i 0).val % 128, by omega⟩ : Fin 128))
      rfl rfl rfl,
    inD_apply D I _ _ hr, inA_apply A _ _ hr]
  have e : (⟨128 * ((i 0).val / 128) + (i 0).val % 128, hr⟩ : Fin 2000000) = ⟨(i 0).val, ValueIdx.idx2_lt0 i⟩ :=
    Fin.ext (by show 128 * ((i 0).val / 128) + (i 0).val % 128 = (i 0).val; omega)
  unfold Cert.Sbl.outArr
  rw [e]

section
variable (hblk : ∀ (x0 x1 : Vec Ideal S256x128 .f32) (k : Fin 42) (p : Fin 256) (q : Fin 128),
      Cert.KernelIdeal.Gen.out0_2 (F := Ideal) x0 x1 (ValueIdx.ix3 k p q)
        = Cert.Sbl.kerOut k.val (x0 (ValueIdx.ix2 p q)) (x1 (ValueIdx.ix2 p q)))
  (m : (ℓ : Loc nD τ sig) → Buf (Elt Ideal) ℓ)
include hblk

/-- The program's result buffer after the run is `outArr kerOut` of the three arguments as launched. -/
theorem result_eq (c : Dev nD) :
    Pipeline.afterTail₀ cfgs (dats m) 0 (V0 m) [hostOps1] c main_v14
      = Cert.Sbl.outArr Cert.Sbl.kerOut (m ((c.tc : Thread nD τ).loc main_arg0))
          (m ((c.tc : Thread nD τ).loc main_arg1)) (m ((c.tc : Thread nD τ).loc main_arg2)) := by
  rw [tail_eq m c, final m hblk c, V_v9 m c, V_v10 m c]
  exact tail_G _ _ _

end

theorem run
    (hblk : ∀ (x0 x1 : Vec Ideal S256x128 .f32) (k : Fin 42) (p : Fin 256) (q : Fin 128),
      Cert.KernelIdeal.Gen.out0_2 (F := Ideal) x0 x1 (ValueIdx.ix3 k p q)
        = Cert.Sbl.kerOut k.val (x0 (ValueIdx.ix2 p q)) (x1 (ValueIdx.ix2 p q)))
    (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
          = Cert.Sbl.outArr Cert.Sbl.kerOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v14 (Pipeline.mem_restRefs_of main_v14 (by decide) (by decide))).trans (result_eq hblk m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Val

end
-- ==== Proof.lean ====
/-
  The certificate of the spherical basis layer: a Pallas kernel that evaluates, for two million triplets, the 42
  products (envelope of the edge distance) × (zonal harmonic of the angle) × (normalised spherical Bessel function of
  the scaled distance), against the plain jnp reference that builds the radial basis per edge and looks it up per
  triplet. Over the extended reals both programs compute, at entry (t, 6l + r), the same product of the same factors
  of the distance D of triplet t's edge and of its angle; they differ in the grouping of d⁵, d⁶, d⁷, in the order of
  the last three-factor product, and in that the kernel multiplies by a shared reciprocal 1/x where the reference
  divides by x (x = z_{l,r} · D/5). A quotient by x and a product with 1/x are one number exactly when x is a nonzero
  real, which is what the precondition provides: every distance finite and nonzero.

  The three frames: the kernel's two are its launch and body run point by point; the reference's is its line of host
  operations run in order, no operation writing an argument. The idealization rewrote nothing. The algebraic
  conjunct: the kernel's result array is read off its run (the looked-up, padded and re-laid inputs block by block, the
  body's 42 stores at an index, the output re-laid and cut to the true rows), the reference's off the fold of its
  operations stretch by stretch, and the two arrays are equal entry by entry by the scalar identity.
-/
import proofs.«110041_j46024869543995_2_alg».proof.Defs
import proofs.«110041_j46024869543995_2_alg».proof.Proof.Gen.Kernel.Frame
import proofs.«110041_j46024869543995_2_alg».proof.Proof.Gen.KernelIdeal.Frame
import proofs.«110041_j46024869543995_2_alg».proof.Proof.Gen.ReferenceIdeal
import proofs.«110041_j46024869543995_2_alg».proof.Proof.Gen.Pre_finite_inputs
import proofs.«110041_j46024869543995_2_alg».proof.Proof.Spec
import proofs.«110041_j46024869543995_2_alg».proof.Proof.RefForms
import proofs.«110041_j46024869543995_2_alg».proof.Proof.Pre
import proofs.«110041_j46024869543995_2_alg».proof.Proof.RefRun
import proofs.«110041_j46024869543995_2_alg».proof.Proof.RefRead
import proofs.«110041_j46024869543995_2_alg».proof.Proof.KerBlock
import proofs.«110041_j46024869543995_2_alg».proof.Proof.KerValue
import Idealize.ShloMosaic.Lib.ValueIdx

noncomputable section

namespace Cert.Proof

open Idealize.ShloMosaic Idealize.ShloMosaic.TcCoe Idealize.SL.Sem Idealize.ShloMosaic.StableHlo

/-- A listed buffer's membership in a literal list. -/
macro "inlist" : tactic => `(tactic| simp only [List.mem_cons, List.mem_nil_iff, true_or, or_true, or_false])

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped: nothing writes an argument. -/
theorem frame_referenceIdeal : Cert.frame_ReferenceIdeal := fun m ρ _ =>
  (θ_run Cert.ReferenceIdeal.defs _ _).mono
    (fun _ h c => ⟨(h c Cert.ReferenceIdeal.main_arg0).trans (Cert.ReferenceIdeal.Line.arg_eq _ _ (by inlist)),
      (h c Cert.ReferenceIdeal.main_arg1).trans (Cert.ReferenceIdeal.Line.arg_eq _ _ (by inlist)),
      (h c Cert.ReferenceIdeal.main_arg2).trans (Cert.ReferenceIdeal.Line.arg_eq _ _ (by inlist)),
      (h c Cert.ReferenceIdeal.main_arg3).trans (Cert.ReferenceIdeal.Line.arg_eq _ _ (by inlist))⟩)
    (Cert.ReferenceIdeal.Line.run_main (F := Ideal) m ρ)

/-- Both programs end with the array whose entry (t, k) is the k-th basis function of triplet t's looked-up distance
    and angle, the kernel's in one order of operations and the reference's in the other; under the precondition every
    distance is a nonzero real, where the two orders agree. -/
theorem algebraic : Cert.algebraic_KernelIdeal_ReferenceIdeal := by
  intro m ρ m' ρ' hpre hagree
  refine ⟨_, Cert.KernelIdeal.Val.run Cert.KernelIdeal.Blk.out_apply m ρ, ?_⟩
  refine (θ_run Cert.ReferenceIdeal.defs _ _).mono (fun _ h c => ⟨?_,
      (h c Cert.ReferenceIdeal.main_arg0).trans (Cert.ReferenceIdeal.Line.arg_eq _ _ (by inlist)),
      (h c Cert.ReferenceIdeal.main_arg1).trans (Cert.ReferenceIdeal.Line.arg_eq _ _ (by inlist)),
      (h c Cert.ReferenceIdeal.main_arg2).trans (Cert.ReferenceIdeal.Line.arg_eq _ _ (by inlist)),
      (h c Cert.ReferenceIdeal.main_arg3).trans (Cert.ReferenceIdeal.Line.arg_eq _ _ (by inlist))⟩)
    (Cert.ReferenceIdeal.Line.run_main (F := Ideal) m' ρ')
  refine ((h c Cert.ReferenceIdeal.main_v322).trans (Cert.ReferenceIdeal.Line.result_eq _)).trans ?_
  show Cert.Sbl.outArr Cert.Sbl.refOut
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [(hagree c).1, (hagree c).2.1, (hagree c).2.2.1]
  exact (Cert.Sbl.outArr_eq _ (Cert.PreFacts.dist_real_ne_zero _ _ _ _ (hpre c)) _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
